-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16 : Shape := ⟨2, ![2048, 16]⟩
abbrev S2048x2048 : Shape := ⟨2, ![2048, 2048]⟩
abbrev S16x16 : Shape := ⟨2, ![16, 16]⟩
abbrev S16 : Shape := ⟨1, ![16]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg1 : FVec F S2048x2048 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_cst_6 : FVec F S_ .f32 := constant S_ .f32 0x00000000#32
  let main_v19 : FVec F S2048x2048 .f32 := broadcastInDim S2048x2048 ![] bcast_S_S2048x2048 main_cst_6
  let main_v20 : IVec S2048x2048 1 := cmpf .oeq main_arg1 main_v19
  let main_cst_7 : FVec F S_ .f32 := constant S_ .f32 0x3F800000#32
  let main_v21 : FVec F S2048x2048 .f32 := broadcastInDim S2048x2048 ![] bcast_S_S2048x2048 main_cst_7
  let main_v22 : IVec S2048x2048 1 := cmpf .oeq main_arg1 main_v21
  let main_v23 : IVec S2048x2048 1 := ori main_v20 main_v22
  let main_c_8 : IVec S_ 1 := constantI S_ 1 1#1
  let main_v24 : IVec S_ 1 := (fun x v => Host.reduce IntOp.andi x v reducesTo_S2048x2048_S_d0_1 h_S_) main_v23 main_c_8
  let main_v25 : IVec S_ 1 := andi main_v18 main_v24
  main_v25

def fn {F : FTy → Type} [FloatOps F] (main_arg0 : FVec F S2048x16 .f32) (main_arg1 : FVec F S2048x2048 .f32) (main_arg2 : FVec F S16x16 .f32) (main_arg3 : FVec F S16 .f32) : IVec S_ 1 :=
  let main_v0 : FVec F S2048x16 .f32 := Host.absf main_arg0
  let main_cst : FVec F S_ .f32 := constant S_ .f32 0x7F800000#32
  let main_v1 : FVec F S2048x16 .f32 := broadcastInDim S2048x16 ![] bcast_S_S2048x16 main_cst
  let main_v2 : IVec S2048x16 1 := cmpf .olt main_v0 main_v1
  let main_c : IVec S_ 1 := constantI S_ 1 1#1
  let main_v3 : IVec S_ 1 := (fun x v => Host.reduce IntOp.andi x v reducesTo_S2048x16_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S16x16 .f32 := Host.absf main_arg2
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_v13 main_v16
-- ==== Kernel.lean ====
abbrev S2048x16 : Shape := ⟨2, ![2048, 16]⟩
abbrev S2048x2048 : Shape := ⟨2, ![2048, 2048]⟩
abbrev S16x16 : Shape := ⟨2, ![16, 16]⟩
abbrev S16 : Shape := ⟨1, ![16]⟩
abbrev S16x1 : Shape := ⟨2, ![16, 1]⟩
abbrev S16x2048 : Shape := ⟨2, ![16, 2048]⟩
abbrev S2048 : Shape := ⟨1, ![2048]⟩
abbrev S1x2048 : Shape := ⟨2, ![1, 2048]⟩

abbrev nBuf : Space → Nat
  | .hbm => 6
  | .vmem => 5
  | .smem => 0
  | _ => 0

abbrev bufTy : (tb : Table) → Fin (tcTables nBuf tb) → BufTy
  | .hbm, ⟨0, _⟩ => ⟨S2048x16, .f32⟩
  | .hbm, ⟨1, _⟩ => ⟨S2048x2048, .f32⟩
  | .hbm, ⟨2, _⟩ => ⟨S16x16, .f32⟩
  | .hbm, ⟨3, _⟩ => ⟨S16, .f32⟩
  | .hbm, ⟨4, _⟩ => ⟨S16x1, .f32⟩
  | .hbm, ⟨5, _⟩ => ⟨S16x2048, .f32⟩
  | .local _ .vmem, ⟨0, _⟩ => ⟨S2048x16, .f32⟩
  | .local _ .vmem, ⟨1, _⟩ => ⟨S2048x2048, .f32⟩
  | .local _ .vmem, ⟨2, _⟩ => ⟨S16x16, .f32⟩
  | .local _ .vmem, ⟨3, _⟩ => ⟨S16x1, .f32⟩
  | .local _ .vmem, ⟨4, _⟩ => ⟨S16x2048, .f32⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2048x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  shapeCasts_S16_S16x1 : S16.ShapeCasts S16x1
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [0] S2048
  shapeCasts_S2048_S1x2048 : S2048.ShapeCasts S1x2048
  inb_S16x16_S16x16_0_0 : ∀ a, (![0, 0] : Fin 2 → Nat) a + S16x16.size a ≤ S16x16.size a
  h_S16x16 : 0 < S16x16.numel
  inb_S2048x16_S2048x16_0_0 : ∀ a, (![0, 0] : Fin 2 → Nat) a + S2048x16.size a ≤ S2048x16.size a
  h_S2048x16 : 0 < S2048x16.numel
  broadcasts_S1x2048_S16x2048 : S1x2048.Broadcasts S16x2048
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x2048 : S16x1.Broadcasts S16x2048
  inb_S16x2048_S16x2048_0_0 : ∀ a, (![0, 0] : Fin 2 → Nat) a + S16x2048.size a ≤ S16x2048.size a
  h_S16x2048 : 0 < S16x2048.numel
  dot_S16x16_S2048x16_S16x2048_0_1_1_0_n_n_wf : DotDims.WF S16x16 S2048x16 S16x2048 [0] [1] [1] [0] [] []
  dot_S16x2048_S2048x2048_S16x2048_1_0_0_1_n_n_wf : DotDims.WF S16x2048 S2048x2048 S16x2048 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

def dot_S16x16_S2048x16_S16x2048_0_1_1_0_n_n : DotDims S16x16 S2048x16 S16x2048 where
  lhsContracting := [0]
  rhsContracting := [1]
  lhsNonContracting := [1]
  rhsNonContracting := [0]
  lhsBatch := []
  rhsBatch := []
  wf := dot_S16x16_S2048x16_S16x2048_0_1_1_0_n_n_wf
def dot_S16x2048_S2048x2048_S16x2048_1_0_0_1_n_n : DotDims S16x2048 S2048x2048 S16x2048 where
  lhsContracting := [1]
  rhsContracting := [0]
  lhsNonContracting := [0]
  rhsNonContracting := [1]
  lhsBatch := []
  rhsBatch := []
  wf := dot_S16x2048_S2048x2048_S16x2048_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_v1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x16 : Shape := ⟨2, ![2048, 16]⟩
abbrev S2048x2048 : Shape := ⟨2, ![2048, 2048]⟩
abbrev S16x16 : Shape := ⟨2, ![16, 16]⟩
abbrev S16 : Shape := ⟨1, ![16]⟩
abbrev S_ : Shape := ⟨0, ![]⟩
abbrev S4194304 : Shape := ⟨1, ![4194304]⟩
abbrev S4194304x1 : Shape := ⟨2, ![4194304, 1]⟩
abbrev S8388608 : Shape := ⟨1, ![8388608]⟩
abbrev S2048 : Shape := ⟨1, ![2048]⟩
abbrev S8390656 : Shape := ⟨1, ![8390656]⟩
abbrev S8390656x1 : Shape := ⟨2, ![8390656, 1]⟩
abbrev S8390656x16 : Shape := ⟨2, ![8390656, 16]⟩
abbrev S1x16 : Shape := ⟨2, ![1, 16]⟩
abbrev S16x2048 : Shape := ⟨2, ![16, 2048]⟩

abbrev nBuf : Space → Nat
  | .hbm => 219
  | .vmem => 0
  | .smem => 0
  | _ => 0

abbrev hbmTy0_0 (i : Nat) : BufTy := match i % 128 with
  | 0 => ⟨S2048x16, .f32⟩
  | 1 => ⟨S2048x2048, .f32⟩
  | 2 => ⟨S16x16, .f32⟩
  | 3 => ⟨S16, .f32⟩
  | 4 => ⟨S_, .f32⟩
  | 5 => ⟨S2048x2048, .f32⟩
  | 6 => ⟨S2048x2048, .i1⟩
  | 7 => ⟨S4194304, .i1⟩
  | 8 => ⟨S4194304, .i32⟩
  | 9 => ⟨S_, .i32⟩
  | 10 => ⟨S_, .i32⟩
  | 11 => ⟨S4194304, .i32⟩
  | 12 => ⟨S_, .i32⟩
  | 13 => ⟨S4194304, .i32⟩
  | 14 => ⟨S_, .i32⟩
  | 15 => ⟨S_, .i32⟩
  | 16 => ⟨S4194304, .i32⟩
  | 17 => ⟨S4194304, .i32⟩
  | 18 => ⟨S_, .i32⟩
  | 19 => ⟨S4194304, .i32⟩
  | 20 => ⟨S4194304, .i1⟩
  | 21 => ⟨S_, .i32⟩
  | 22 => ⟨S4194304, .i32⟩
  | 23 => ⟨S4194304, .i32⟩
  | 24 => ⟨S4194304, .i32⟩
  | 25 => ⟨S4194304x1, .i32⟩
  | 26 => ⟨S_, .i32⟩
  | 27 => ⟨S4194304, .i32⟩
  | 28 => ⟨S4194304, .i32⟩
  | 29 => ⟨S_, .i32⟩
  | 30 => ⟨S_, .i32⟩
  | 31 => ⟨S4194304, .i32⟩
  | 32 => ⟨S_, .i32⟩
  | 33 => ⟨S4194304, .i32⟩
  | 34 => ⟨S4194304, .i32⟩
  | 35 => ⟨S4194304, .i32⟩
  | 36 => ⟨S_, .i32⟩
  | 37 => ⟨S4194304, .i32⟩
  | 38 => ⟨S4194304, .i1⟩
  | 39 => ⟨S4194304, .i32⟩
  | 40 => ⟨S4194304, .i32⟩
  | 41 => ⟨S_, .i32⟩
  | 42 => ⟨S4194304, .i32⟩
  | 43 => ⟨S4194304, .i1⟩
  | 44 => ⟨S4194304, .i1⟩
  | 45 => ⟨S_, .i32⟩
  | 46 => ⟨S4194304, .i32⟩
  | 47 => ⟨S4194304, .i32⟩
  | 48 => ⟨S4194304, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S4194304, .i32⟩
  | 56 => ⟨S4194304, .i32⟩
  | 57 => ⟨S_, .i32⟩
  | 58 => ⟨S4194304, .i32⟩
  | 59 => ⟨S4194304, .i1⟩
  | 60 => ⟨S_, .i32⟩
  | 61 => ⟨S4194304, .i32⟩
  | 62 => ⟨S4194304, .i1⟩
  | 63 => ⟨S_, .i32⟩
  | 64 => ⟨S_, .i1⟩
  | 65 => ⟨S4194304, .i1⟩
  | 66 => ⟨S4194304, .i1⟩
  | 67 => ⟨S4194304, .i1⟩
  | 68 => ⟨S4194304, .i32⟩
  | 69 => ⟨S4194304, .i32⟩
  | 70 => ⟨S4194304, .i32⟩
  | 71 => ⟨S_, .i32⟩
  | 72 => ⟨S4194304, .i32⟩
  | 73 => ⟨S4194304, .i32⟩
  | 74 => ⟨S4194304, .i32⟩
  | 75 => ⟨S_, .i32⟩
  | 76 => ⟨S4194304, .i32⟩
  | 77 => ⟨S4194304, .i1⟩
  | 78 => ⟨S4194304, .i32⟩
  | 79 => ⟨S4194304, .i32⟩
  | 80 => ⟨S_, .i32⟩
  | 81 => ⟨S4194304, .i32⟩
  | 82 => ⟨S4194304, .i1⟩
  | 83 => ⟨S4194304, .i1⟩
  | 84 => ⟨S_, .i32⟩
  | 85 => ⟨S4194304, .i32⟩
  | 86 => ⟨S4194304, .i32⟩
  | 87 => ⟨S4194304, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S4194304, .i32⟩
  | 95 => ⟨S4194304, .i32⟩
  | 96 => ⟨S_, .i32⟩
  | 97 => ⟨S4194304, .i32⟩
  | 98 => ⟨S4194304, .i1⟩
  | 99 => ⟨S_, .i32⟩
  | 100 => ⟨S4194304, .i32⟩
  | 101 => ⟨S4194304, .i1⟩
  | 102 => ⟨S_, .i32⟩
  | 103 => ⟨S_, .i1⟩
  | 104 => ⟨S4194304, .i1⟩
  | 105 => ⟨S4194304, .i1⟩
  | 106 => ⟨S4194304, .i1⟩
  | 107 => ⟨S4194304, .i32⟩
  | 108 => ⟨S4194304, .i32⟩
  | 109 => ⟨S4194304, .i32⟩
  | 110 => ⟨S4194304, .i32⟩
  | 111 => ⟨S2048x2048, .i32⟩
  | 112 => ⟨S_, .i32⟩
  | 113 => ⟨S_, .i32⟩
  | 114 => ⟨S4194304, .i32⟩
  | 115 => ⟨S4194304, .i1⟩
  | 116 => ⟨S_, .i32⟩
  | 117 => ⟨S_, .i32⟩
  | 118 => ⟨S4194304, .i32⟩
  | 119 => ⟨S4194304, .i32⟩
  | 120 => ⟨S_, .i32⟩
  | 121 => ⟨S_, .i32⟩
  | 122 => ⟨S4194304, .i32⟩
  | 123 => ⟨S4194304, .i32⟩
  | 124 => ⟨S4194304, .i32⟩
  | 125 => ⟨S_, .f32⟩
  | 126 => ⟨S2048x2048, .f32⟩
  | 127 => ⟨S2048x2048, .i1⟩
  | _ => ⟨S2048x16, .f32⟩

abbrev hbmTy0_1 (i : Nat) : BufTy := match i % 128 with
  | 0 => ⟨S2048x2048, .i32⟩
  | 1 => ⟨S_, .i32⟩
  | 2 => ⟨S_, .i32⟩
  | 3 => ⟨S4194304, .i32⟩
  | 4 => ⟨S4194304, .i1⟩
  | 5 => ⟨S4194304, .f32⟩
  | 6 => ⟨S4194304, .i32⟩
  | 7 => ⟨S4194304, .i32⟩
  | 8 => ⟨S4194304, .f32⟩
  | 9 => ⟨S8388608, .i32⟩
  | 10 => ⟨S8388608, .i32⟩
  | 11 => ⟨S8388608, .f32⟩
  | 12 => ⟨S2048x16, .f32⟩
  | 13 => ⟨S2048, .i32⟩
  | 14 => ⟨S8390656, .i32⟩
  | 15 => ⟨S8390656, .i32⟩
  | 16 => ⟨S_, .f32⟩
  | 17 => ⟨S2048, .f32⟩
  | 18 => ⟨S8390656, .f32⟩
  | 19 => ⟨S_, .f32⟩
  | 20 => ⟨S2048, .f32⟩
  | 21 => ⟨S_, .i32⟩
  | 22 => ⟨S8390656, .i32⟩
  | 23 => ⟨S8390656, .i1⟩
  | 24 => ⟨S_, .i32⟩
  | 25 => ⟨S8390656, .i32⟩
  | 26 => ⟨S8390656, .i32⟩
  | 27 => ⟨S8390656, .i32⟩
  | 28 => ⟨S8390656x1, .i32⟩
  | 29 => ⟨S2048, .f32⟩
  | 30 => ⟨S_, .f32⟩
  | 31 => ⟨S2048, .f32⟩
  | 32 => ⟨S2048, .i1⟩
  | 33 => ⟨S_, .f32⟩
  | 34 => ⟨S2048, .f32⟩
  | 35 => ⟨S2048, .f32⟩
  | 36 => ⟨S2048, .f32⟩
  | 37 => ⟨S_, .f32⟩
  | 38 => ⟨S_, .f32⟩
  | 39 => ⟨S2048, .f32⟩
  | 40 => ⟨S2048, .f32⟩
  | 41 => ⟨S_, .i32⟩
  | 42 => ⟨S8390656, .i32⟩
  | 43 => ⟨S8390656, .i1⟩
  | 44 => ⟨S_, .i32⟩
  | 45 => ⟨S8390656, .i32⟩
  | 46 => ⟨S8390656, .i32⟩
  | 47 => ⟨S8390656, .i32⟩
  | 48 => ⟨S8390656x1, .i32⟩
  | 49 => ⟨S8390656, .f32⟩
  | 50 => ⟨S_, .i32⟩
  | 51 => ⟨S8390656, .i32⟩
  | 52 => ⟨S8390656, .i1⟩
  | 53 => ⟨S_, .i32⟩
  | 54 => ⟨S8390656, .i32⟩
  | 55 => ⟨S8390656, .i32⟩
  | 56 => ⟨S8390656, .i32⟩
  | 57 => ⟨S8390656x1, .i32⟩
  | 58 => ⟨S8390656, .f32⟩
  | 59 => ⟨S8390656, .f32⟩
  | 60 => ⟨S_, .i32⟩
  | 61 => ⟨S8390656, .i32⟩
  | 62 => ⟨S8390656, .i1⟩
  | 63 => ⟨S_, .i32⟩
  | 64 => ⟨S8390656, .i32⟩
  | 65 => ⟨S8390656, .i32⟩
  | 66 => ⟨S8390656, .i32⟩
  | 67 => ⟨S8390656x1, .i32⟩
  | 68 => ⟨S8390656x16, .f32⟩
  | 69 => ⟨S8390656x1, .f32⟩
  | 70 => ⟨S8390656x16, .f32⟩
  | 71 => ⟨S8390656x16, .f32⟩
  | 72 => ⟨S8390656x1, .f32⟩
  | 73 => ⟨S8390656x16, .f32⟩
  | 74 => ⟨S8390656x16, .f32⟩
  | 75 => ⟨S_, .f32⟩
  | 76 => ⟨S2048x16, .f32⟩
  | 77 => ⟨S_, .i32⟩
  | 78 => ⟨S8390656, .i32⟩
  | 79 => ⟨S8390656, .i1⟩
  | 80 => ⟨S_, .i32⟩
  | 81 => ⟨S8390656, .i32⟩
  | 82 => ⟨S8390656, .i32⟩
  | 83 => ⟨S8390656, .i32⟩
  | 84 => ⟨S8390656x1, .i32⟩
  | 85 => ⟨S2048x16, .f32⟩
  | 86 => ⟨S1x16, .f32⟩
  | 87 => ⟨S2048x16, .f32⟩
  | 88 => ⟨S2048x16, .f32⟩
  | 89 => ⟨S2048x16, .f32⟩
  | 90 => ⟨S16x2048, .f32⟩
  | _ => ⟨S2048x16, .f32⟩

abbrev hbmTy (i : Nat) : BufTy := match i / 128 with
  | 0 => hbmTy0_0 i
  | 1 => hbmTy0_1 i
  | _ => ⟨S2048x16, .f32⟩

abbrev bufTy : (tb : Table) → Fin (tcTables nBuf tb) → BufTy
  | .hbm, ⟨i, _⟩ => hbmTy i
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_call0_c : Ref sig .tc := ⟨.hbm, 9, rfl⟩
abbrev main_call0_call0_v0 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_call2_call0_c : Ref sig .tc := ⟨.hbm, 29, rfl⟩
abbrev main_call2_call0_v0 : Ref sig .tc := ⟨.hbm, 30, rfl⟩
abbrev main_v13 : Ref sig .tc := ⟨.hbm, 31, rfl⟩
abbrev main_c_4 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_call3_v5 : Ref sig .tc := ⟨.hbm, 38, rfl⟩
abbrev main_call3_v6 : Ref sig .tc := ⟨.hbm, 39, rfl⟩
abbrev main_call3_v7 : Ref sig .tc := ⟨.hbm, 40, rfl⟩
abbrev main_call3_c : Ref sig .tc := ⟨.hbm, 41, rfl⟩
abbrev main_call3_v8 : Ref sig .tc := ⟨.hbm, 42, rfl⟩
abbrev main_call3_v9 : Ref sig .tc := ⟨.hbm, 43, rfl⟩
abbrev main_call3_v10 : Ref sig .tc := ⟨.hbm, 44, rfl⟩
abbrev main_call3_c_0 : Ref sig .tc := ⟨.hbm, 45, rfl⟩
abbrev main_call3_v11 : Ref sig .tc := ⟨.hbm, 46, rfl⟩
abbrev main_call3_v12 : Ref sig .tc := ⟨.hbm, 47, rfl⟩
abbrev main_v14 : Ref sig .tc := ⟨.hbm, 48, rfl⟩
abbrev main_c_5 : Ref sig .tc := ⟨.hbm, 49, rfl⟩
abbrev main_call4_v0 : Ref sig .tc := ⟨.hbm, 50, rfl⟩
abbrev main_call4_c : Ref sig .tc := ⟨.hbm, 51, rfl⟩
abbrev main_call4_v1 : Ref sig .tc := ⟨.hbm, 52, rfl⟩
abbrev main_call4_c_0 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_c_1 : Ref sig .tc := ⟨.hbm, 57, rfl⟩
abbrev main_call4_v5 : Ref sig .tc := ⟨.hbm, 58, rfl⟩
abbrev main_call4_v6 : Ref sig .tc := ⟨.hbm, 59, rfl⟩
abbrev main_call4_c_2 : Ref sig .tc := ⟨.hbm, 60, rfl⟩
abbrev main_call4_v7 : Ref sig .tc := ⟨.hbm, 61, rfl⟩
abbrev main_call4_v8 : Ref sig .tc := ⟨.hbm, 62, rfl⟩
abbrev main_call4_c_3 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_v12 : Ref sig .tc := ⟨.hbm, 67, rfl⟩
abbrev main_call4_v13 : Ref sig .tc := ⟨.hbm, 68, rfl⟩
abbrev main_call4_v14 : Ref sig .tc := ⟨.hbm, 69, rfl⟩
abbrev main_v15 : Ref sig .tc := ⟨.hbm, 70, rfl⟩
abbrev main_c_6 : Ref sig .tc := ⟨.hbm, 71, rfl⟩
abbrev main_call5_v0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_v5 : Ref sig .tc := ⟨.hbm, 77, rfl⟩
abbrev main_call5_v6 : Ref sig .tc := ⟨.hbm, 78, rfl⟩
abbrev main_call5_v7 : Ref sig .tc := ⟨.hbm, 79, rfl⟩
abbrev main_call5_c : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_call5_c_0 : Ref sig .tc := ⟨.hbm, 84, rfl⟩
abbrev main_call5_v11 : Ref sig .tc := ⟨.hbm, 85, rfl⟩
abbrev main_call5_v12 : Ref sig .tc := ⟨.hbm, 86, rfl⟩
abbrev main_v16 : Ref sig .tc := ⟨.hbm, 87, rfl⟩
abbrev main_c_7 : Ref sig .tc := ⟨.hbm, 88, rfl⟩
abbrev main_call6_v0 : Ref sig .tc := ⟨.hbm, 89, rfl⟩
abbrev main_call6_c : Ref sig .tc := ⟨.hbm, 90, rfl⟩
abbrev main_call6_v1 : Ref sig .tc := ⟨.hbm, 91, rfl⟩
abbrev main_call6_c_0 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_c_1 : Ref sig .tc := ⟨.hbm, 96, rfl⟩
abbrev main_call6_v5 : Ref sig .tc := ⟨.hbm, 97, rfl⟩
abbrev main_call6_v6 : Ref sig .tc := ⟨.hbm, 98, rfl⟩
abbrev main_call6_c_2 : Ref sig .tc := ⟨.hbm, 99, rfl⟩
abbrev main_call6_v7 : Ref sig .tc := ⟨.hbm, 100, rfl⟩
abbrev main_call6_v8 : Ref sig .tc := ⟨.hbm, 101, rfl⟩
abbrev main_call6_c_3 : Ref sig .tc := ⟨.hbm, 102, rfl⟩
abbrev main_call6_v9 : Ref sig .tc := ⟨.hbm, 103, rfl⟩
abbrev main_call6_v10 : Ref sig .tc := ⟨.hbm, 104, rfl⟩
abbrev main_call6_v11 : Ref sig .tc := ⟨.hbm, 105, rfl⟩
abbrev main_call6_v12 : Ref sig .tc := ⟨.hbm, 106, rfl⟩
abbrev main_call6_v13 : Ref sig .tc := ⟨.hbm, 107, rfl⟩
abbrev main_call6_v14 : Ref sig .tc := ⟨.hbm, 108, rfl⟩
abbrev main_v17 : Ref sig .tc := ⟨.hbm, 109, rfl⟩
abbrev main_v18 : Ref sig .tc := ⟨.hbm, 110, rfl⟩
abbrev main_v19 : Ref sig .tc := ⟨.hbm, 111, rfl⟩
abbrev main_c_8 : Ref sig .tc := ⟨.hbm, 112, rfl⟩
abbrev main_v20 : Ref sig .tc := ⟨.hbm, 113, rfl⟩
abbrev main_v21 : Ref sig .tc := ⟨.hbm, 114, rfl⟩
abbrev main_v22 : Ref sig .tc := ⟨.hbm, 115, rfl⟩
abbrev main_c_9 : Ref sig .tc := ⟨.hbm, 116, rfl⟩
abbrev main_call7_v0 : Ref sig .tc := ⟨.hbm, 117, rfl⟩
abbrev main_call7_v1 : Ref sig .tc := ⟨.hbm, 118, rfl⟩
abbrev main_v23 : Ref sig .tc := ⟨.hbm, 119, rfl⟩
abbrev main_c_10 : Ref sig .tc := ⟨.hbm, 120, rfl⟩
abbrev main_call8_v0 : Ref sig .tc := ⟨.hbm, 121, rfl⟩
abbrev main_call8_v1 : Ref sig .tc := ⟨.hbm, 122, rfl⟩
abbrev main_v24 : Ref sig .tc := ⟨.hbm, 123, rfl⟩
abbrev main_v25 : Ref sig .tc := ⟨.hbm, 124, rfl⟩
abbrev main_call9_cst : Ref sig .tc := ⟨.hbm, 125, rfl⟩
abbrev main_call9_v0 : Ref sig .tc := ⟨.hbm, 126, rfl⟩
abbrev main_call9_v1 : Ref sig .tc := ⟨.hbm, 127, rfl⟩
abbrev main_call9_v2 : Ref sig .tc := ⟨.hbm, 128, rfl⟩
abbrev main_call9_c : Ref sig .tc := ⟨.hbm, 129, rfl⟩
abbrev main_v26 : Ref sig .tc := ⟨.hbm, 130, rfl⟩
abbrev main_v27 : Ref sig .tc := ⟨.hbm, 131, rfl⟩
abbrev main_v28 : Ref sig .tc := ⟨.hbm, 132, rfl⟩
abbrev main_v29 : Ref sig .tc := ⟨.hbm, 133, rfl⟩
abbrev main_v30 : Ref sig .tc := ⟨.hbm, 134, rfl⟩
abbrev main_v31 : Ref sig .tc := ⟨.hbm, 135, rfl⟩
abbrev main_v32 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_v36 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_cst_11 : Ref sig .tc := ⟨.hbm, 144, rfl⟩
abbrev main_v40 : Ref sig .tc := ⟨.hbm, 145, rfl⟩
abbrev main_v41 : Ref sig .tc := ⟨.hbm, 146, rfl⟩
abbrev main_cst_12 : Ref sig .tc := ⟨.hbm, 147, rfl⟩
abbrev main_v42 : Ref sig .tc := ⟨.hbm, 148, rfl⟩
abbrev main_c_13 : Ref sig .tc := ⟨.hbm, 149, rfl⟩
abbrev main_v43 : Ref sig .tc := ⟨.hbm, 150, rfl⟩
abbrev main_v44 : Ref sig .tc := ⟨.hbm, 151, rfl⟩
abbrev main_c_14 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_v48 : Ref sig .tc := ⟨.hbm, 156, rfl⟩
abbrev main_v49 : Ref sig .tc := ⟨.hbm, 157, rfl⟩
abbrev main_cst_15 : Ref sig .tc := ⟨.hbm, 158, rfl⟩
abbrev main_v50 : Ref sig .tc := ⟨.hbm, 159, rfl⟩
abbrev main_v51 : Ref sig .tc := ⟨.hbm, 160, rfl⟩
abbrev main_cst_16 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_cst_17 : Ref sig .tc := ⟨.hbm, 165, rfl⟩
abbrev main_call10_v0 : Ref sig .tc := ⟨.hbm, 166, rfl⟩
abbrev main_call10_v1 : Ref sig .tc := ⟨.hbm, 167, rfl⟩
abbrev main_v55 : Ref sig .tc := ⟨.hbm, 168, rfl⟩
abbrev main_c_18 : Ref sig .tc := ⟨.hbm, 169, rfl⟩
abbrev main_v56 : Ref sig .tc := ⟨.hbm, 170, rfl⟩
abbrev main_v57 : Ref sig .tc := ⟨.hbm, 171, rfl⟩
abbrev main_c_19 : Ref sig .tc := ⟨.hbm, 172, rfl⟩
abbrev main_v58 : Ref sig .tc := ⟨.hbm, 173, rfl⟩
abbrev main_v59 : Ref sig .tc := ⟨.hbm, 174, rfl⟩
abbrev main_v60 : Ref sig .tc := ⟨.hbm, 175, rfl⟩
abbrev main_v61 : Ref sig .tc := ⟨.hbm, 176, rfl⟩
abbrev main_v62 : Ref sig .tc := ⟨.hbm, 177, rfl⟩
abbrev main_c_20 : Ref sig .tc := ⟨.hbm, 178, rfl⟩
abbrev main_v63 : Ref sig .tc := ⟨.hbm, 179, rfl⟩
abbrev main_v64 : Ref sig .tc := ⟨.hbm, 180, rfl⟩
abbrev main_c_21 : Ref sig .tc := ⟨.hbm, 181, rfl⟩
abbrev main_v65 : Ref sig .tc := ⟨.hbm, 182, rfl⟩
abbrev main_v66 : Ref sig .tc := ⟨.hbm, 183, rfl⟩
abbrev main_v67 : Ref sig .tc := ⟨.hbm, 184, rfl⟩
abbrev main_v68 : Ref sig .tc := ⟨.hbm, 185, rfl⟩
abbrev main_v69 : Ref sig .tc := ⟨.hbm, 186, rfl⟩
abbrev main_v70 : Ref sig .tc := ⟨.hbm, 187, rfl⟩
abbrev main_c_22 : Ref sig .tc := ⟨.hbm, 188, rfl⟩
abbrev main_v71 : Ref sig .tc := ⟨.hbm, 189, rfl⟩
abbrev main_v72 : Ref sig .tc := ⟨.hbm, 190, rfl⟩
abbrev main_c_23 : Ref sig .tc := ⟨.hbm, 191, rfl⟩
abbrev main_v73 : Ref sig .tc := ⟨.hbm, 192, rfl⟩
abbrev main_v74 : Ref sig .tc := ⟨.hbm, 193, rfl⟩
abbrev main_v75 : Ref sig .tc := ⟨.hbm, 194, rfl⟩
abbrev main_v76 : Ref sig .tc := ⟨.hbm, 195, rfl⟩
abbrev main_v77 : Ref sig .tc := ⟨.hbm, 196, rfl⟩
abbrev main_v78 : Ref sig .tc := ⟨.hbm, 197, rfl⟩
abbrev main_v79 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_cst_24 : Ref sig .tc := ⟨.hbm, 203, rfl⟩
abbrev main_v84 : Ref sig .tc := ⟨.hbm, 204, rfl⟩
abbrev main_c_25 : Ref sig .tc := ⟨.hbm, 205, rfl⟩
abbrev main_v85 : Ref sig .tc := ⟨.hbm, 206, rfl⟩
abbrev main_v86 : Ref sig .tc := ⟨.hbm, 207, rfl⟩
abbrev main_c_26 : Ref sig .tc := ⟨.hbm, 208, rfl⟩
abbrev main_v87 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_v91 : Ref sig .tc := ⟨.hbm, 213, rfl⟩
abbrev main_v92 : Ref sig .tc := ⟨.hbm, 214, rfl⟩
abbrev main_v93 : Ref sig .tc := ⟨.hbm, 215, rfl⟩
abbrev main_v94 : Ref sig .tc := ⟨.hbm, 216, rfl⟩
abbrev main_v95 : Ref sig .tc := ⟨.hbm, 217, rfl⟩
abbrev main_v96 : Ref sig .tc := ⟨.hbm, 218, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  shapeCasts_S2048x2048_S4194304 : S2048x2048.ShapeCasts S4194304
  natLt_1_32 : 1 < 32
  bcast_S_S_ : S_.BroadcastsInDim S_ (![] : Fin 0 → Fin S_.rank)
  reduceWindows_S4194304_S4194304_w4194304s1p4194303_0 : S4194304.ReduceWindows (![4194304] : Fin 1 → Nat) ![1] ![4194303] ![0] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S2048x2048_S_d0_1 : S2048x2048.ReducesTo [0, 1] S_
  concatenates_S4194304_S4194304_S8388608_d0 : Shape.Concatenates [S4194304, S4194304] S8388608 0
  concatenates_S8388608_S2048_S8390656_d0 : Shape.Concatenates [S8388608, S2048] S8390656 0
  bcast_S_S2048 : S_.BroadcastsInDim S2048 (![] : Fin 0 → Fin S2048.rank)
  bcast_S_S8390656 : S_.BroadcastsInDim S8390656 (![] : Fin 0 → Fin S8390656.rank)
  bcast_S8390656_S8390656x1_0 : S8390656.BroadcastsInDim S8390656x1 (![0] : Fin 1 → Fin S8390656x1.rank)
  bcast_S8390656x1_S8390656x16_0_1 : S8390656x1.BroadcastsInDim S8390656x16 (![0, 1] : Fin 2 → Fin S8390656x16.rank)
  bcast_S_S2048x16 : S_.BroadcastsInDim S2048x16 (![] : Fin 0 → Fin S2048x16.rank)
  bcast_S16_S1x16_1 : S16.BroadcastsInDim S1x16 (![1] : Fin 1 → Fin S1x16.rank)
  bcast_S1x16_S2048x16_0_1 : S1x16.BroadcastsInDim S2048x16 (![0, 1] : Fin 2 → Fin S2048x16.rank)
  transposes_S2048x16_S16x2048_1_0 : S2048x16.Transposes [1, 0] S16x2048
  scatter_S4194304_S4194304x1_S4194304_n_0_0_1_wf : ScatterDims.WF S4194304 S4194304x1 S4194304 [] [0] [0] 1
  dot_S2048x16_S16x16_S2048x16_1_0_0_1_n_n_wf : DotDims.WF S2048x16 S16x16 S2048x16 [1] [0] [0] [1] [] []
  scatter_S2048_S8390656x1_S8390656_n_0_0_1_wf : ScatterDims.WF S2048 S8390656x1 S8390656 [] [0] [0] 1
  gather_S2048_S8390656x1_S8390656_n_0_n_n_0_1_1_wf : GatherDims.WF S2048 S8390656x1 S8390656 [] [0] [] [0] [] 1 ![1]
  gather_S2048x16_S8390656x1_S8390656x16_1_0_n_n_0_1_116_wf : GatherDims.WF S2048x16 S8390656x1 S8390656x16 [1] [0] [] [0] [] 1 ![1, 16]
  scatter_S2048x16_S8390656x1_S8390656x16_1_0_0_1_wf : ScatterDims.WF S2048x16 S8390656x1 S8390656x16 [1] [0] [0] 1

variable [Facts₀]

def scatter_S4194304_S4194304x1_S4194304_n_0_0_1 : ScatterDims S4194304 S4194304x1 S4194304 where
  updateWindowDims := []
  insertedWindowDims := [0]
  scatterDimsToOperandDims := [0]
  indexVectorDim := 1
  wf := scatter_S4194304_S4194304x1_S4194304_n_0_0_1_wf
def dot_S2048x16_S16x16_S2048x16_1_0_0_1_n_n : DotDims S2048x16 S16x16 S2048x16 where
  lhsContracting := [1]
  rhsContracting := [0]
  lhsNonContracting := [0]
  rhsNonContracting := [1]
  lhsBatch := []
  rhsBatch := []
  wf := dot_S2048x16_S16x16_S2048x16_1_0_0_1_n_n_wf
def scatter_S2048_S8390656x1_S8390656_n_0_0_1 : ScatterDims S2048 S8390656x1 S8390656 where
  updateWindowDims := []
  insertedWindowDims := [0]
  scatterDimsToOperandDims := [0]
  indexVectorDim := 1
  wf := scatter_S2048_S8390656x1_S8390656_n_0_0_1_wf
def gather_S2048_S8390656x1_S8390656_n_0_n_n_0_1_1 : GatherDims S2048 S8390656x1 S8390656 where
  offsetDims := []
  collapsedSliceDims := [0]
  operandBatchingDims := []
  startIndicesBatchingDims := []
  startIndexMap := [0]
  indexVectorDim := 1
  sliceSizes := ![1]
  wf := gather_S2048_S8390656x1_S8390656_n_0_n_n_0_1_1_wf
def gather_S2048x16_S8390656x1_S8390656x16_1_0_n_n_0_1_116 : GatherDims S2048x16 S8390656x1 S8390656x16 where
  offsetDims := [1]
  collapsedSliceDims := [0]
  operandBatchingDims := []
  startIndicesBatchingDims := []
  startIndexMap := [0]
  indexVectorDim := 1
  sliceSizes := ![1, 16]
  wf := gather_S2048x16_S8390656x1_S8390656x16_1_0_n_n_0_1_116_wf
def scatter_S2048x16_S8390656x1_S8390656x16_1_0_0_1 : ScatterDims S2048x16 S8390656x1 S8390656x16 where
  updateWindowDims := [1]
  insertedWindowDims := [0]
  scatterDimsToOperandDims := [0]
  indexVectorDim := 1
  wf := scatter_S2048x16_S8390656x1_S8390656x16_1_0_0_1_wf

class Facts : Prop extends Facts₀ where

variable [Facts]
-- ==== Proof.KernelValue.lean ====
/-
  The idealized kernel's result array as ONE term of the argument arrays.

  The kernel is launched once (a grid of one point) and every operand's block is the whole operand, so the
  array the run leaves in the result is the body's arithmetic applied to the whole arrays: with
  `colsum j = Σ_i adj i j`, `dinv j = rsqrt (2 * colsum j + 1)`, `ht = Wᵀ xᵀ`, `hht = ht * dinv`,
  `st = hht · adj`, the result is `tanh (dinv * (2 * st + hht) + b)` — the body's payload — read at the
  adjacency matrix, the weights, the features and the bias laid out as a column.
-/
import proofs.«117461_g8057358648341_cont_sun_m_1039_2_alg».proof.Proof.Gen.KernelIdeal.Value
import Idealize.ShloMosaic.Lib.Pipeline.Value
import Idealize.ShloMosaic.Lib.StableHlo.Run

noncomputable section

namespace Cert.KernelIdeal.WholeValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem origin2 : (![0, 0] : Fin 2 → Nat) = fun _ => 0 := funext fun a => by fin_cases a <;> rfl

/-- Every operand's block index is the origin at the one grid point. -/
theorem idx_origin : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The features' block is the whole feature matrix. -/
theorem blk_x (c : Dev nD) (t : Fin cfg0.N) : (iblk m c 0 t : S2048x16.Idx → Elt F .f32) = V m c main_arg0 := by
  obtain ⟨e0, e1, -⟩ := idx_origin t
  funext y
  show V m c main_arg0 (((cfg0.win 0).blk t).view.emb y) = V m c main_arg0 y
  congr 1
  funext a; apply Fin.ext
  match a with
  | ⟨0, _⟩ => show win0_0.index t (0 : Fin 2) * 2048 + 1 * (y 0).val = (y 0).val; omega
  | ⟨1, _⟩ => show win0_0.index t (1 : Fin 2) * 16 + 1 * (y 1).val = (y 1).val; omega

/-- The adjacency matrix's block is the whole matrix. -/
theorem blk_adj (c : Dev nD) (t : Fin cfg0.N) : (iblk m c 1 t : S2048x2048.Idx → Elt F .f32) = V m c main_arg1 := by
  obtain ⟨-, -, e0, e1, -⟩ := idx_origin t
  funext y
  show V m c main_arg1 (((cfg0.win 1).blk t).view.emb y) = V m c main_arg1 y
  congr 1
  funext a; apply Fin.ext
  match a with
  | ⟨0, _⟩ => show win0_1.index t (0 : Fin 2) * 2048 + 1 * (y 0).val = (y 0).val; omega
  | ⟨1, _⟩ => show win0_1.index t (1 : Fin 2) * 2048 + 1 * (y 1).val = (y 1).val; omega

/-- The weights' block is the whole weight matrix. -/
theorem blk_w (c : Dev nD) (t : Fin cfg0.N) : (iblk m c 2 t : S16x16.Idx → Elt F .f32) = V m c main_arg2 := by
  obtain ⟨-, -, -, -, e0, e1, -⟩ := idx_origin t
  funext y
  show V m c main_arg2 (((cfg0.win 2).blk t).view.emb y) = V m c main_arg2 y
  congr 1
  funext a; apply Fin.ext
  match a with
  | ⟨0, _⟩ => show win0_2.index t (0 : Fin 2) * 16 + 1 * (y 0).val = (y 0).val; omega
  | ⟨1, _⟩ => show win0_2.index t (1 : Fin 2) * 16 + 1 * (y 1).val = (y 1).val; omega

/-- The bias column's block is the whole column. -/
theorem blk_b (c : Dev nD) (t : Fin cfg0.N) : (iblk m c 3 t : S16x1.Idx → Elt F .f32) = V m c main_v0 := by
  obtain ⟨-, -, -, -, -, -, e0, e1, -⟩ := idx_origin t
  funext y
  show V m c main_v0 (((cfg0.win 3).blk t).view.emb y) = V m c main_v0 y
  congr 1
  funext a; apply Fin.ext
  match a with
  | ⟨0, _⟩ => show win0_3.index t (0 : Fin 2) * 16 + 1 * (y 0).val = (y 0).val; omega
  | ⟨1, _⟩ => show win0_3.index t (1 : Fin 2) * 1 + 1 * (y 1).val = (y 1).val; omega

/-- What the one point writes back is the body's arithmetic of the whole arrays, read through the result's (whole) block. -/
theorem flushed_eq (c : Dev nD) (t : Fin cfg0.N) :
    (dats m 0 c).flushed 4 t = ((cfg0.win 4).blk t).view.read (Elt F)
      (k0_pay1 (V m c main_arg1) (V m c main_arg2) (V m c main_arg0) (V m c main_v0)) := by
  rw [Value.flushed4]
  unfold out0_4
  rw [View.canon_unit_zero origin2]
  simp only [View.ld_unit_zero (S := S2048x2048) origin2, View.ld_unit_zero (S := S16x16) origin2,
    View.ld_unit_zero (S := S2048x16) origin2, View.ld_unit_zero (S := S16x1) origin2]
  rw [blk_x, blk_adj, blk_w, blk_b]
  obtain ⟨-, -, -, -, -, -, -, -, e0, e1⟩ := idx_origin t
  funext y
  show k0_pay1 (V m c main_arg1) (V m c main_arg2) (V m c main_arg0) (V m c main_v0) y
    = k0_pay1 (V m c main_arg1) (V m c main_arg2) (V m c main_arg0) (V m c main_v0) (((cfg0.win 4).blk t).view.emb y)
  congr 1
  funext a; apply Fin.ext
  match a with
  | ⟨0, _⟩ => show (y 0).val = win0_4.index t (0 : Fin 2) * 16 + 1 * (y 0).val; omega
  | ⟨1, _⟩ => show (y 1).val = win0_4.index t (1 : Fin 2) * 2048 + 1 * (y 1).val; omega

/-- Every index of the result lies in the one point's block. -/
theorem cover (i : S16x2048.Idx) : ∃ t : Fin cfg0.N, (cfg0.win 4).flush t = true ∧ i ∈ ((cfg0.win 4).blk t).view.set := by
  refine ⟨t0_0, flush0_4 t0_0, ?_⟩
  obtain ⟨-, -, -, -, -, -, -, -, e0, e1⟩ := idx_origin t0_0
  show i ∈ ((View.whole main_v1).slice (win0_4.rect t0_0)).set
  rw [View.set_slice_whole, Rect.mem_set_unit]
  intro a
  have h0 : (i 0).val < 16 := (i 0).isLt
  have h1 : (i 1).val < 2048 := (i 1).isLt
  match a with
  | ⟨0, _⟩ => show win0_4.index t0_0 (0 : Fin 2) * 16 ≤ (i 0).val ∧ (i 0).val < win0_4.index t0_0 (0 : Fin 2) * 16 + 16; omega
  | ⟨1, _⟩ => show win0_4.index t0_0 (1 : Fin 2) * 2048 ≤ (i 1).val ∧ (i 1).val < win0_4.index t0_0 (1 : Fin 2) * 2048 + 2048; omega

/-- The bias column the region finds is the bias vector laid out as a column. -/
theorem V_bias (c : Dev nD) :
    (V m c main_v0 : S16x1.Idx → Elt F .f32) = shapeCast S16x1 (m ((c : Thread nD τ).loc main_arg3)) shapeCasts_S16_S16x1 := by
  dsimp only [Gen.V, Gen.hostOps0]
  after_results
  rfl

/-- The result array after the run, as the body's arithmetic of the argument arrays as launched. -/
theorem final (c : Dev nD) : (dats m 0 c).arrAt 4 cfg0.N
    = k0_pay1 (m ((c : Thread nD τ).loc main_arg1)) (m ((c : Thread nD τ).loc main_arg2)) (m ((c : Thread nD τ).loc main_arg0))
        (shapeCast S16x1 (m ((c : Thread nD τ).loc main_arg3)) shapeCasts_S16_S16x1) := by
  rw [← V_main_arg0 m c, ← V_main_arg1 m c, ← V_main_arg2 m c, ← V_bias m c]
  exact (dats m 0 c).arrAt_eq_of_cover 4 _ (fun t _ => flushed_eq m c t) cover

/-- The idealized kernel's run: the result array is the body's arithmetic of the arguments, which end unchanged. -/
theorem run : θ_run defs (onTc (τ := τ) (main (F := F))) ⟨m, fun _ => 0, ρ⟩ fun r => ∀ c : Dev nD,
      r.2.mem ((c : Thread nD τ).loc main_v1)
        = k0_pay1 (m ((c : Thread nD τ).loc main_arg1)) (m ((c : Thread nD τ).loc main_arg2)) (m ((c : Thread nD τ).loc main_arg0))
            (shapeCast S16x1 (m ((c : Thread nD τ).loc main_arg3)) shapeCasts_S16_S16x1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.WholeValue

end
-- ==== Proof.Spec.lean ====
/-
  The graph-convolution layer as ONE function of its four arrays, index by index.

  For an adjacency matrix `adj` (n × n, n = 2048), features `x` (n × 16), weights `W` (16 × 16) and bias `b` (16):
    colsum j   = Σ_i adj i j                         (the number of edges into node j when adj is 0/1)
    dinv j     = (2 · colsum j + 1)^(-1/2)            (each edge counted twice, one self-loop)
    feat n o   = Σ_k W k o · x n k                    (the linear layer)
    scaled n o = feat n o · dinv n
    agg o j    = Σ_i scaled i o · adj i j             (messages into node j)
    result o j = tanh (dinv j · (2 · agg o j + scaled j o) + b o)
  over the extended reals, the result laid out 16 × n.
-/
import Idealize.ShloMosaic.PureOps.Ideal
import Idealize.ShloMosaic.Lib.ValueIdx

noncomputable section

namespace Cert.Gcn

open Idealize.ShloMosaic Idealize.ShloMosaic.ValueIdx

/-- The sum of column `j` of the adjacency matrix. -/
def colsum (adj : (⟨2, ![2048, 2048]⟩ : Shape).Idx → EReal) (j : Fin 2048) : EReal := ∑ i : Fin 2048, adj (ix2 i j)

/-- The symmetric normalisation's factor of node `j`: its degree — twice the column sum, plus the self-loop — to the power −1/2. -/
def dinv (adj : (⟨2, ![2048, 2048]⟩ : Shape).Idx → EReal) (j : Fin 2048) : EReal := Ideal.rsqrt (2 * colsum adj j + 1)

/-- The linear layer: output channel `o` of node `n`. -/
def feat (x : (⟨2, ![2048, 16]⟩ : Shape).Idx → EReal) (W : (⟨2, ![16, 16]⟩ : Shape).Idx → EReal) (n : Fin 2048) (o : Fin 16) : EReal :=
  ∑ k : Fin 16, W (ix2 k o) * x (ix2 n k)

/-- The linear layer's output scaled by the source node's factor. -/
def scaled (x : (⟨2, ![2048, 16]⟩ : Shape).Idx → EReal) (adj : (⟨2, ![2048, 2048]⟩ : Shape).Idx → EReal)
    (W : (⟨2, ![16, 16]⟩ : Shape).Idx → EReal) (n : Fin 2048) (o : Fin 16) : EReal := feat x W n o * dinv adj n

/-- The messages into node `j`, channel `o`: the scaled features of every node, weighted by the adjacency column. -/
def agg (x : (⟨2, ![2048, 16]⟩ : Shape).Idx → EReal) (adj : (⟨2, ![2048, 2048]⟩ : Shape).Idx → EReal)
    (W : (⟨2, ![16, 16]⟩ : Shape).Idx → EReal) (o : Fin 16) (j : Fin 2048) : EReal :=
  ∑ i : Fin 2048, scaled x adj W i o * adj (ix2 i j)

/-- The layer's result at channel `o`, node `j`. -/
def layerAt (x : (⟨2, ![2048, 16]⟩ : Shape).Idx → EReal) (adj : (⟨2, ![2048, 2048]⟩ : Shape).Idx → EReal)
    (W : (⟨2, ![16, 16]⟩ : Shape).Idx → EReal) (b : (⟨1, ![16]⟩ : Shape).Idx → EReal) (o : Fin 16) (j : Fin 2048) : EReal :=
  Ideal.tanh (dinv adj j * (2 * agg x adj W o j + scaled x adj W j o) + b (ix1 o))

/-- The layer's result array, 16 × 2048. -/
def layer (x : (⟨2, ![2048, 16]⟩ : Shape).Idx → EReal) (adj : (⟨2, ![2048, 2048]⟩ : Shape).Idx → EReal)
    (W : (⟨2, ![16, 16]⟩ : Shape).Idx → EReal) (b : (⟨1, ![16]⟩ : Shape).Idx → EReal) : (⟨2, ![16, 2048]⟩ : Shape).Idx → EReal :=
  fun i => layerAt x adj W b (i 0) (i 1)

theorem layer_ix2 (x : (⟨2, ![2048, 16]⟩ : Shape).Idx → EReal) (adj : (⟨2, ![2048, 2048]⟩ : Shape).Idx → EReal)
    (W : (⟨2, ![16, 16]⟩ : Shape).Idx → EReal) (b : (⟨1, ![16]⟩ : Shape).Idx → EReal) (o : Fin 16) (j : Fin 2048) :
    layer x adj W b (ix2 o j) = layerAt x adj W b o j := rfl

end Cert.Gcn

end
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.KernelIsLayer.lean ====
/-
  The kernel body's arithmetic, read at an index, is the layer.

  The body computes the column sums of the adjacency block by a reduction over its rows, turns them into the row
  `dinv` (one entry per node), forms `Wᵀ xᵀ` by a matrix product contracting the weights' first axis with the
  features' second, scales column `n` by `dinv n`, multiplies by the adjacency block (contracting over source
  nodes), and finishes pointwise. Each matrix product into a zero accumulator is the plain sum over its one
  contraction axis; the reduction is the plain sum over rows; the broadcasts read the row or the column they
  spread. So entry (o, n) is `layerAt … o n`.
-/
import proofs.«117461_g8057358648341_cont_sun_m_1039_2_alg».proof.Proof.Gen.KernelIdeal.Skeleton
import proofs.«117461_g8057358648341_cont_sun_m_1039_2_alg».proof.Proof.Spec
import proofs.«117461_g8057358648341_cont_sun_m_1039_2_alg».proof.Proof.LibColumnLayouts
import Idealize.ShloMosaic.Lib.Pipeline.Value
import Idealize.ShloMosaic.Lib.ValueLayout
import Idealize.ShloMosaic.PureOps.Ideal.Laws

noncomputable section

namespace Cert.KernelIdeal.IsLayer

open Cert.KernelIdeal Cert.KernelIdeal.Gen Idealize.ShloMosaic Idealize.ShloMosaic.ValueIdx Cert.Gcn Cert.ColumnLayouts

/-- The word of 2.0 is the real 2. -/
theorem ofBits_two : Ideal.ofBits .f32 0x40000000#32 = 2 := by
  simp [Ideal.ofBits, Ideal.ieee]
  norm_num
  rw [← EReal.coe_mul, show ((8388608 : ℝ) * (1 / 4194304)) = 2 by norm_num]
  rfl

/-- The word of 1.0 is the real 1. -/
theorem ofBits_one : Ideal.ofBits .f32 0x3F800000#32 = 1 := by
  simp [Ideal.ofBits, Ideal.ieee]
  exact_mod_cast (by norm_num : (8388608 : ℝ) * (2 ^ 23)⁻¹ = 1)

/-- The reduced index `n` with row `k` put back is (k, n). -/
theorem lift_col (h : S2048x2048.Reduces [0] S2048) (n : Fin 2048) (k : Fin (S2048x2048.size 0)) :
    h.lift (ix1 n) k = ix2 (⟨k.val, k.isLt⟩ : Fin 2048) n := by
  funext c; apply Fin.ext
  fin_cases c <;> rfl

/-- The body's normalisation row: `rsqrt (2 · colsum + 1)` of the adjacency block. -/
def normRow (adj : FVec Ideal S2048x2048 .f32) : FVec Ideal S1x2048 .f32 :=
  rsqrt (addf (mulf (broadcast S1x2048 (Scalar.ofBits .f32 0x40000000#32))
      (shapeCast S1x2048 (multiReduction .add [0] S2048 adj 0x00000000#32 reduces_S2048x2048_S2048 (.inl rfl) rfl) shapeCasts_S2048_S1x2048))
    (broadcast S1x2048 (Scalar.ofBits .f32 0x3F800000#32)))

/-- The reduction over the rows of the adjacency block, at column `n`, is that column's sum. -/
theorem reduce_rows (adj : FVec Ideal S2048x2048 .f32) (h : S2048x2048.Reduces [0] S2048) (hφ : FKind.Formats .f32)
    (hacc : (0x00000000#32 : BitVec 32) = 0x00000000#32) (n : Fin 2048) :
    multiReduction .add [0] S2048 adj 0x00000000#32 h hφ hacc (ix1 n) = colsum adj n :=
  (Ideal.multiReduction_add_single adj 0x00000000#32 h hφ hacc (ix1 n)).trans
    (Finset.sum_congr rfl fun k _ => congrArg adj (lift_col h n k))

theorem normRow_apply (adj : FVec Ideal S2048x2048 .f32) (u : Fin 1) (n : Fin 2048) : normRow adj (ix2 u n) = dinv adj n := by
  show Ideal.rsqrt (Ideal.ofBits .f32 0x40000000#32
      * shapeCast S1x2048 (multiReduction .add [0] S2048 adj 0x00000000#32 reduces_S2048x2048_S2048 (.inl rfl) rfl) shapeCasts_S2048_S1x2048 (ix2 u n)
      + Ideal.ofBits .f32 0x3F800000#32) = _
  rw [shapeCast_a_1a_apply, ofBits_two, ofBits_one]
  exact congrArg (fun s => Ideal.rsqrt (2 * s + 1)) (reduce_rows adj _ _ _ n)

/-- The first product, `Wᵀ xᵀ`, at (o, n): the linear layer's channel `o` of node `n`. -/
theorem matmul_feat (W : FVec Ideal S16x16 .f32) (x : FVec Ideal S2048x16 .f32) (o : Fin 16) (n : Fin 2048) :
    matmul dot_S16x16_S2048x16_S16x2048_0_1_1_0_n_n none W x (constant S16x2048 .f32 0x00000000#32) (ix2 o n) = feat x W n o := by
  refine (Ideal.matmul_constant_zero_apply dot_S16x16_S2048x16_S16x2048_0_1_1_0_n_n none W x (ix2 o n)).trans ?_
  unfold feat
  rw [← Equiv.sum_comp (contrEquiv1 dot_S16x16_S2048x16_S16x2048_0_1_1_0_n_n 16 rfl rfl).symm]
  refine Finset.sum_congr rfl fun k _ => ?_
  have hl : dot_S16x16_S2048x16_S16x2048_0_1_1_0_n_n.lhsIdx (ix2 o n)
      ((contrEquiv1 dot_S16x16_S2048x16_S16x2048_0_1_1_0_n_n 16 rfl rfl).symm k) = ix2 k o := by
    funext a; apply Fin.ext
    match a with
    | ⟨0, _⟩ =>
      exact (DotDims.lhsIdx_val_of_single dot_S16x16_S2048x16_S16x2048_0_1_1_0_n_n (cl := 0) rfl _ _).trans
        (contrEquiv1_symm_val dot_S16x16_S2048x16_S16x2048_0_1_1_0_n_n 16 rfl rfl k)
    | ⟨1, _⟩ => rfl
  have hr : dot_S16x16_S2048x16_S16x2048_0_1_1_0_n_n.rhsIdx (ix2 o n)
      ((contrEquiv1 dot_S16x16_S2048x16_S16x2048_0_1_1_0_n_n 16 rfl rfl).symm k) = ix2 n k := by
    funext a; apply Fin.ext
    match a with
    | ⟨0, _⟩ => rfl
    | ⟨1, _⟩ =>
      exact (DotDims.rhsIdx_val_of_single dot_S16x16_S2048x16_S16x2048_0_1_1_0_n_n (cr := 1) rfl _ _).trans
        (contrEquiv1_symm_val dot_S16x16_S2048x16_S16x2048_0_1_1_0_n_n 16 rfl rfl k)
  rw [hl, hr]

/-- The second product, by the adjacency block, at (o, j): the sum over source nodes `i` of the left operand at (o, i)
    times the adjacency at (i, j). -/
theorem matmul_adj (L : FVec Ideal S16x2048 .f32) (adj : FVec Ideal S2048x2048 .f32) (o : Fin 16) (j : Fin 2048) :
    matmul dot_S16x2048_S2048x2048_S16x2048_1_0_0_1_n_n none L adj (constant S16x2048 .f32 0x00000000#32) (ix2 o j)
      = ∑ i : Fin 2048, L (ix2 o i) * adj (ix2 i j) := by
  refine (Ideal.matmul_constant_zero_apply dot_S16x2048_S2048x2048_S16x2048_1_0_0_1_n_n none L adj (ix2 o j)).trans ?_
  rw [← Equiv.sum_comp (contrEquiv1 dot_S16x2048_S2048x2048_S16x2048_1_0_0_1_n_n 2048 rfl rfl).symm]
  refine Finset.sum_congr rfl fun i _ => ?_
  have hl : dot_S16x2048_S2048x2048_S16x2048_1_0_0_1_n_n.lhsIdx (ix2 o j)
      ((contrEquiv1 dot_S16x2048_S2048x2048_S16x2048_1_0_0_1_n_n 2048 rfl rfl).symm i) = ix2 o i := by
    funext a; apply Fin.ext
    match a with
    | ⟨0, _⟩ => rfl
    | ⟨1, _⟩ =>
      exact (DotDims.lhsIdx_val_of_single dot_S16x2048_S2048x2048_S16x2048_1_0_0_1_n_n (cl := 1) rfl _ _).trans
        (contrEquiv1_symm_val dot_S16x2048_S2048x2048_S16x2048_1_0_0_1_n_n 2048 rfl rfl i)
  have hr : dot_S16x2048_S2048x2048_S16x2048_1_0_0_1_n_n.rhsIdx (ix2 o j)
      ((contrEquiv1 dot_S16x2048_S2048x2048_S16x2048_1_0_0_1_n_n 2048 rfl rfl).symm i) = ix2 i j := by
    funext a; apply Fin.ext
    match a with
    | ⟨0, _⟩ =>
      exact (DotDims.rhsIdx_val_of_single dot_S16x2048_S2048x2048_S16x2048_1_0_0_1_n_n (cr := 0) rfl _ _).trans
        (contrEquiv1_symm_val dot_S16x2048_S2048x2048_S16x2048_1_0_0_1_n_n 2048 rfl rfl i)
    | ⟨1, _⟩ => rfl
  rw [hl, hr]

/-- The body's scaled features: the first product, column `n` multiplied by `dinv n`. -/
def scaledK (adj : FVec Ideal S2048x2048 .f32) (W : FVec Ideal S16x16 .f32) (x : FVec Ideal S2048x16 .f32) : FVec Ideal S16x2048 .f32 :=
  mulf (matmul dot_S16x16_S2048x16_S16x2048_0_1_1_0_n_n none W x (constant S16x2048 .f32 0x00000000#32))
    (broadcastTo S16x2048 (normRow adj) broadcasts_S1x2048_S16x2048)

theorem scaledK_apply (adj : FVec Ideal S2048x2048 .f32) (W : FVec Ideal S16x16 .f32) (x : FVec Ideal S2048x16 .f32)
    (o : Fin 16) (n : Fin 2048) : scaledK adj W x (ix2 o n) = scaled x adj W n o := by
  show matmul dot_S16x16_S2048x16_S16x2048_0_1_1_0_n_n none W x (constant S16x2048 .f32 0x00000000#32) (ix2 o n)
      * broadcastTo S16x2048 (normRow adj) broadcasts_S1x2048_S16x2048 (ix2 o n) = _
  rw [matmul_feat, broadcastTo_1b_ab_apply, normRow_apply]
  rfl

/-- The body's arithmetic with its two shared pieces named. -/
theorem pay_unfold (adj : FVec Ideal S2048x2048 .f32) (W : FVec Ideal S16x16 .f32) (x : FVec Ideal S2048x16 .f32)
    (bcol : FVec Ideal S16x1 .f32) :
    k0_pay1 (F := Ideal) adj W x bcol
      = tanh (addf (mulf (broadcastTo S16x2048 (normRow adj) broadcasts_S1x2048_S16x2048)
            (addf (mulf (broadcast S16x2048 (Scalar.ofBits .f32 0x40000000#32))
                (matmul dot_S16x2048_S2048x2048_S16x2048_1_0_0_1_n_n none (scaledK adj W x) adj (constant S16x2048 .f32 0x00000000#32)))
              (scaledK adj W x)))
          (broadcastTo S16x2048 (shapeCast S16x1 bcol shapeCasts_S16x1_S16x1) broadcasts_S16x1_S16x2048)) := rfl

/-- THE BODY IS THE LAYER: at the adjacency, the weights, the features and the bias laid out as a column, the body's
    arithmetic is the layer's result array. -/
theorem pay_eq (adj : FVec Ideal S2048x2048 .f32) (W : FVec Ideal S16x16 .f32) (x : FVec Ideal S2048x16 .f32) (b : FVec Ideal S16 .f32) :
    k0_pay1 (F := Ideal) adj W x (shapeCast S16x1 b shapeCasts_S16_S16x1) = layer x adj W b := by
  funext j
  obtain ⟨o, n, rfl⟩ : ∃ (o : Fin 16) (n : Fin 2048), j = ix2 o n := ⟨j 0, j 1, eq_ix2 j⟩
  rw [layer_ix2, pay_unfold]
  show Ideal.tanh (broadcastTo S16x2048 (normRow adj) broadcasts_S1x2048_S16x2048 (ix2 o n)
      * (Ideal.ofBits .f32 0x40000000#32
          * matmul dot_S16x2048_S2048x2048_S16x2048_1_0_0_1_n_n none (scaledK adj W x) adj (constant S16x2048 .f32 0x00000000#32) (ix2 o n)
        + scaledK adj W x (ix2 o n))
      + broadcastTo S16x2048 (shapeCast S16x1 (shapeCast S16x1 b shapeCasts_S16_S16x1) shapeCasts_S16x1_S16x1) broadcasts_S16x1_S16x2048 (ix2 o n)) = _
  rw [broadcastTo_1b_ab_apply, normRow_apply, matmul_adj, scaledK_apply, broadcastTo_a1_ab_apply, shapeCast_self,
    shapeCast_a_a1_apply, ofBits_two]
  unfold layerAt agg
  simp only [scaledK_apply]

end Cert.KernelIdeal.IsLayer

end
-- ==== Proof.RefRun.lean ====
/-
  The reference program's run, read back as a fold of its host operations.

  The reference's entry function is a straight line of host operations; the functions it calls (the two running
  sums, the clip, the floor division and the remainder, the selects, the count of nonzeros) are straight lines
  too, so each call is its callee's operations over that call's own buffers. Listed in order they are ONE list
  (215 operations), the entry function is the sequence of that list, and every weakly fair execution terminates
  with each buffer at the list's fold over the contents at launch.
-/
import proofs.«117461_g8057358648341_cont_sun_m_1039_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- An array of the 4194304 list slots laid end to end with a second array of them. -/
def twice {α : Type} (a b : S4194304.Idx → α) : S8388608.Idx → α :=
  concatenate S8388608 0 [⟨S4194304, a⟩, ⟨S4194304, b⟩] concatenates_S4194304_S4194304_S8388608_d0

/-- An array over the doubled list followed by an array over the 2048 nodes (the self-loops). -/
def withLoops {α : Type} (a : S8388608.Idx → α) (b : S2048.Idx → α) : S8390656.Idx → α :=
  concatenate S8390656 0 [⟨S8388608, a⟩, ⟨S2048, b⟩] concatenates_S8388608_S2048_S8390656_d0

/-- The entry function's operations in order, each call replaced by its callee's operations over the call's buffers. -/
abbrev ops : List (HloOp τ sig (Elt F)) :=
  [
    StableHlo.nullary main_cst (constant S_ .f32 0x00000000#32),
    StableHlo.unary main_cst main_v0 (broadcastInDim S2048x2048 ![] bcast_S_S2048x2048 : (⟨S_, .f32⟩ : BufTy).Contents (Elt F) → (⟨S2048x2048, .f32⟩ : BufTy).Contents (Elt F)),
    StableHlo.binary main_arg1 main_v0 main_v1 (cmpf .une : (⟨S2048x2048, .f32⟩ : BufTy).Contents (Elt F) → (⟨S2048x2048, .f32⟩ : BufTy).Contents (Elt F) → (⟨S2048x2048, .i1⟩ : BufTy).Contents (Elt F)),
    StableHlo.TRef.reshape ((.of main_v1) : StableHlo.TRef sig ⟨S2048x2048, .i1⟩) main_call0.v0 rfl shapeCasts_S2048x2048_S4194304,
    StableHlo.TRef.unary main_call0.v0 main_call0.v1 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v1 main_call0.call0.v0 main_call0.call0.v1 (fun x v => Host.reduceWindow IntOp.addi ![4194304] ![1] ![4194303] ![0] x v reduceWindows_S4194304_S4194304_w4194304s1p4194303_0 h_S_),
    StableHlo.nullary main_c (constantI S_ 32 0#32),
    StableHlo.unary main_c main_v3 (broadcastInDim S4194304 ![] bcast_S_S4194304 : (⟨S_, .i32⟩ : BufTy).Contents (Elt F) → (⟨S4194304, .i32⟩ : BufTy).Contents (Elt F)),
    StableHlo.nullary main_c_0 (constantI S_ 32 0#32),
    StableHlo.TRef.unary ((.of main_c_0) : StableHlo.TRef sig ⟨S_, .i32⟩) main_call1.v0 id,
    StableHlo.TRef.unary main_call1.v0 main_call1.v1 (broadcastInDim S4194304 ![] bcast_S_S4194304),
    StableHlo.TRef.binary main_call1.v1 ((.of main_v2) : StableHlo.TRef sig ⟨S4194304, .i32⟩) main_call1.v2 maxsi,
    StableHlo.nullary main_c_1 (constantI S_ 32 0#32),
    StableHlo.unary main_c_1 main_v5 (broadcastInDim S4194304 ![] bcast_S_S4194304 : (⟨S_, .i32⟩ : BufTy).Contents (Elt F) → (⟨S4194304, .i32⟩ : BufTy).Contents (Elt F)),
    StableHlo.binary main_v4 main_v5 main_v6 (cmpi .slt : (⟨S4194304, .i32⟩ : BufTy).Contents (Elt F) → (⟨S4194304, .i32⟩ : BufTy).Contents (Elt F) → (⟨S4194304, .i1⟩ : BufTy).Contents (Elt F)),
    StableHlo.nullary main_c_2 (constantI S_ 32 4194304#32),
    StableHlo.unary main_c_2 main_v7 (broadcastInDim S4194304 ![] bcast_S_S4194304 : (⟨S_, .i32⟩ : BufTy).Contents (Elt F) → (⟨S4194304, .i32⟩ : BufTy).Contents (Elt F)),
    StableHlo.binary main_v4 main_v7 main_v8 (addi : (⟨S4194304, .i32⟩ : BufTy).Contents (Elt F) → (⟨S4194304, .i32⟩ : BufTy).Contents (Elt F) → (⟨S4194304, .i32⟩ : BufTy).Contents (Elt F)),
    StableHlo.ternary main_v6 main_v8 main_v4 main_v9 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    StableHlo.unary main_v9 main_v10 (broadcastInDim S4194304x1 ![0] bcast_S4194304_S4194304x1_0 : (⟨S4194304, .i32⟩ : BufTy).Contents (Elt F) → (⟨S4194304x1, .i32⟩ : BufTy).Contents (Elt F)),
    StableHlo.nullary main_c_3 (constantI S_ 32 1#32),
    StableHlo.unary main_c_3 main_v11 (broadcastInDim S4194304 ![] bcast_S_S4194304 : (⟨S_, .i32⟩ : BufTy).Contents (Elt F) → (⟨S4194304, .i32⟩ : BufTy).Contents (Elt F)),
    StableHlo.ternary main_v3 main_v10 main_v11 main_v12 ((fun x i u => Host.scatter scatter_S4194304_S4194304x1_S4194304_n_0_0_1 IntOp.addi x i u) : (⟨S4194304, .i32⟩ : BufTy).Contents (Elt F) → (⟨S4194304x1, .i32⟩ : BufTy).Contents (Elt F) → (⟨S4194304, .i32⟩ : BufTy).Contents (Elt F) → (⟨S4194304, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary ((.of main_v12) : StableHlo.TRef sig ⟨S4194304, .i32⟩) main_call2.call0.v0 main_call2.call0.v1 (fun x v => Host.reduceWindow IntOp.addi ![4194304] ![1] ![4194303] ![0] x v reduceWindows_S4194304_S4194304_w4194304s1p4194303_0 h_S_),
    StableHlo.nullary main_c_4 (constantI S_ 32 2048#32),
    StableHlo.TRef.unary ((.of main_c_4) : StableHlo.TRef sig ⟨S_, .i32⟩) main_call3.v0 (broadcastInDim S4194304 ![] bcast_S_S4194304),
    StableHlo.TRef.binary ((.of main_v13) : StableHlo.TRef sig ⟨S4194304, .i32⟩) main_call3.v0 main_call3.v1 Host.divsi,
    StableHlo.TRef.unary ((.of main_v13) : StableHlo.TRef sig ⟨S4194304, .i32⟩) main_call3.v2 signi,
    StableHlo.TRef.unary ((.of main_c_4) : StableHlo.TRef sig ⟨S_, .i32⟩) main_call3.v3 signi,
    StableHlo.TRef.unary main_call3.v3 main_call3.v4 (broadcastInDim S4194304 ![] bcast_S_S4194304),
    StableHlo.TRef.binary main_call3.v2 main_call3.v4 main_call3.v5 (cmpi .ne),
    StableHlo.TRef.unary ((.of main_c_4) : StableHlo.TRef sig ⟨S_, .i32⟩) main_call3.v6 (broadcastInDim S4194304 ![] bcast_S_S4194304),
    StableHlo.TRef.binary ((.of main_v13) : StableHlo.TRef sig ⟨S4194304, .i32⟩) main_call3.v6 main_call3.v7 Host.remsi,
    StableHlo.TRef.nullary main_call3.c (constantI S_ 32 0#32),
    StableHlo.TRef.unary main_call3.c main_call3.v8 (broadcastInDim S4194304 ![] bcast_S_S4194304),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S4194304 ![] bcast_S_S4194304),
    StableHlo.TRef.binary main_call3.v1 main_call3.v11 main_call3.v12 subi,
    StableHlo.TRef.ternary main_call3.v10 main_call3.v12 main_call3.v1 main_call3.call0.v0 select,
    StableHlo.nullary main_c_5 (constantI S_ 32 2048#32),
    StableHlo.TRef.unary ((.of main_c_5) : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S4194304 ![] bcast_S_S4194304),
    StableHlo.TRef.binary ((.of main_v14) : StableHlo.TRef sig ⟨S4194304, .i32⟩) main_call4.v3 main_call4.v4 Host.remsi,
    StableHlo.TRef.nullary main_call4.c_1 (constantI S_ 32 0#32),
    StableHlo.TRef.unary main_call4.c_1 main_call4.v5 (broadcastInDim S4194304 ![] bcast_S_S4194304),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S4194304 ![] bcast_S_S4194304),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S4194304 ![] bcast_S_S4194304),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S4194304 ![] bcast_S_S4194304),
    StableHlo.TRef.binary main_call4.v4 main_call4.v13 main_call4.v14 addi,
    StableHlo.TRef.ternary main_call4.v12 main_call4.v14 main_call4.v4 main_call4.v15 select,
    StableHlo.nullary main_c_6 (constantI S_ 32 1#32),
    StableHlo.TRef.unary ((.of main_c_6) : StableHlo.TRef sig ⟨S_, .i32⟩) main_call5.v0 (broadcastInDim S4194304 ![] bcast_S_S4194304),
    StableHlo.TRef.binary ((.of main_v13) : StableHlo.TRef sig ⟨S4194304, .i32⟩) main_call5.v0 main_call5.v1 Host.divsi,
    StableHlo.TRef.unary ((.of main_v13) : StableHlo.TRef sig ⟨S4194304, .i32⟩) main_call5.v2 signi,
    StableHlo.TRef.unary ((.of main_c_6) : StableHlo.TRef sig ⟨S_, .i32⟩) main_call5.v3 signi,
    StableHlo.TRef.unary main_call5.v3 main_call5.v4 (broadcastInDim S4194304 ![] bcast_S_S4194304),
    StableHlo.TRef.binary main_call5.v2 main_call5.v4 main_call5.v5 (cmpi .ne),
    StableHlo.TRef.unary ((.of main_c_6) : StableHlo.TRef sig ⟨S_, .i32⟩) main_call5.v6 (broadcastInDim S4194304 ![] bcast_S_S4194304),
    StableHlo.TRef.binary ((.of main_v13) : StableHlo.TRef sig ⟨S4194304, .i32⟩) main_call5.v6 main_call5.v7 Host.remsi,
    StableHlo.TRef.nullary main_call5.c (constantI S_ 32 0#32),
    StableHlo.TRef.unary main_call5.c main_call5.v8 (broadcastInDim S4194304 ![] bcast_S_S4194304),
    StableHlo.TRef.binary main_call5.v7 main_call5.v8 main_call5.v9 (cmpi .ne),
    StableHlo.TRef.binary main_call5.v5 main_call5.v9 main_call5.v10 andi,
    StableHlo.TRef.nullary main_call5.c_0 (constantI S_ 32 1#32),
    StableHlo.TRef.unary main_call5.c_0 main_call5.v11 (broadcastInDim S4194304 ![] bcast_S_S4194304),
    StableHlo.TRef.binary main_call5.v1 main_call5.v11 main_call5.v12 subi,
    StableHlo.TRef.ternary main_call5.v10 main_call5.v12 main_call5.v1 main_call5.call0.v0 select,
    StableHlo.nullary main_c_7 (constantI S_ 32 2048#32),
    StableHlo.TRef.unary ((.of main_c_7) : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S4194304 ![] bcast_S_S4194304),
    StableHlo.TRef.binary ((.of main_v16) : StableHlo.TRef sig ⟨S4194304, .i32⟩) main_call6.v3 main_call6.v4 Host.remsi,
    StableHlo.TRef.nullary main_call6.c_1 (constantI S_ 32 0#32),
    StableHlo.TRef.unary main_call6.c_1 main_call6.v5 (broadcastInDim S4194304 ![] bcast_S_S4194304),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S4194304 ![] bcast_S_S4194304),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S4194304 ![] bcast_S_S4194304),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S4194304 ![] bcast_S_S4194304),
    StableHlo.TRef.binary main_call6.v4 main_call6.v13 main_call6.v14 addi,
    StableHlo.TRef.ternary main_call6.v12 main_call6.v14 main_call6.v4 main_call6.v15 select,
    StableHlo.nullary main_v18 (iotaInDim S4194304 32 0),
    StableHlo.unary main_v1 main_v19 ((extui 32 · natLt_1_32) : (⟨S2048x2048, .i1⟩ : BufTy).Contents (Elt F) → (⟨S2048x2048, .i32⟩ : BufTy).Contents (Elt F)),
    StableHlo.nullary main_c_8 (constantI S_ 32 0#32),
    StableHlo.binary main_v19 main_c_8 main_v20 ((fun x v => Host.reduce IntOp.addi x v reducesTo_S2048x2048_S_d0_1 h_S_) : (⟨S2048x2048, .i32⟩ : BufTy).Contents (Elt F) → (⟨S_, .i32⟩ : BufTy).Contents (Elt F) → (⟨S_, .i32⟩ : BufTy).Contents (Elt F)),
    StableHlo.unary main_v20 main_v21 (broadcastInDim S4194304 ![] bcast_S_S4194304 : (⟨S_, .i32⟩ : BufTy).Contents (Elt F) → (⟨S4194304, .i32⟩ : BufTy).Contents (Elt F)),
    StableHlo.binary main_v18 main_v21 main_v22 (cmpi .sge : (⟨S4194304, .i32⟩ : BufTy).Contents (Elt F) → (⟨S4194304, .i32⟩ : BufTy).Contents (Elt F) → (⟨S4194304, .i1⟩ : BufTy).Contents (Elt F)),
    StableHlo.nullary main_c_9 (constantI S_ 32 0#32),
    StableHlo.TRef.unary ((.of main_c_9) : StableHlo.TRef sig ⟨S_, .i32⟩) main_call7.v0 id,
    StableHlo.TRef.unary main_call7.v0 main_call7.v1 (broadcastInDim S4194304 ![] bcast_S_S4194304),
    StableHlo.TRef.ternary ((.of main_v22) : StableHlo.TRef sig ⟨S4194304, .i1⟩) main_call7.v1 ((.of main_v15) : StableHlo.TRef sig ⟨S4194304, .i32⟩) main_call7.v2 select,
    StableHlo.nullary main_c_10 (constantI S_ 32 0#32),
    StableHlo.TRef.unary ((.of main_c_10) : StableHlo.TRef sig ⟨S_, .i32⟩) main_call8.v0 id,
    StableHlo.TRef.unary main_call8.v0 main_call8.v1 (broadcastInDim S4194304 ![] bcast_S_S4194304),
    StableHlo.TRef.ternary ((.of main_v22) : StableHlo.TRef sig ⟨S4194304, .i1⟩) main_call8.v1 ((.of main_v17) : StableHlo.TRef sig ⟨S4194304, .i32⟩) main_call8.v2 select,
    StableHlo.nullary main_v25 (iotaInDim S4194304 32 0),
    StableHlo.TRef.nullary main_call9.cst (constant S_ .f32 0x00000000#32),
    StableHlo.TRef.unary main_call9.cst main_call9.v0 (broadcastInDim S2048x2048 ![] bcast_S_S2048x2048),
    StableHlo.TRef.binary ((.of main_arg1) : StableHlo.TRef sig ⟨S2048x2048, .f32⟩) main_call9.v0 main_call9.v1 (cmpf .une),
    StableHlo.TRef.unary main_call9.v1 main_call9.v2 (extui 32 · natLt_1_32),
    StableHlo.TRef.nullary main_call9.c (constantI S_ 32 0#32),
    StableHlo.TRef.binary main_call9.v2 main_call9.c main_call9.v3 (fun x v => Host.reduce IntOp.addi x v reducesTo_S2048x2048_S_d0_1 h_S_),
    StableHlo.unary main_v26 main_v27 (broadcastInDim S4194304 ![] bcast_S_S4194304 : (⟨S_, .i32⟩ : BufTy).Contents (Elt F) → (⟨S4194304, .i32⟩ : BufTy).Contents (Elt F)),
    StableHlo.binary main_v25 main_v27 main_v28 (cmpi .slt : (⟨S4194304, .i32⟩ : BufTy).Contents (Elt F) → (⟨S4194304, .i32⟩ : BufTy).Contents (Elt F) → (⟨S4194304, .i1⟩ : BufTy).Contents (Elt F)),
    StableHlo.unary main_v28 main_v29 (uitofp .f32 : (⟨S4194304, .i1⟩ : BufTy).Contents (Elt F) → (⟨S4194304, .f32⟩ : BufTy).Contents (Elt F)),
    StableHlo.unary main_v24 main_v30 (Host.reverse [0] : (⟨S4194304, .i32⟩ : BufTy).Contents (Elt F) → (⟨S4194304, .i32⟩ : BufTy).Contents (Elt F)),
    StableHlo.unary main_v23 main_v31 (Host.reverse [0] : (⟨S4194304, .i32⟩ : BufTy).Contents (Elt F) → (⟨S4194304, .i32⟩ : BufTy).Contents (Elt F)),
    StableHlo.unary main_v29 main_v32 (Host.reverse [0] : (⟨S4194304, .f32⟩ : BufTy).Contents (Elt F) → (⟨S4194304, .f32⟩ : BufTy).Contents (Elt F)),
    StableHlo.binary main_v31 main_v31 main_v33 (twice : (⟨S4194304, .i32⟩ : BufTy).Contents (Elt F) → (⟨S4194304, .i32⟩ : BufTy).Contents (Elt F) → (⟨S8388608, .i32⟩ : BufTy).Contents (Elt F)),
    StableHlo.binary main_v30 main_v30 main_v34 (twice : (⟨S4194304, .i32⟩ : BufTy).Contents (Elt F) → (⟨S4194304, .i32⟩ : BufTy).Contents (Elt F) → (⟨S8388608, .i32⟩ : BufTy).Contents (Elt F)),
    StableHlo.binary main_v32 main_v32 main_v35 (twice : (⟨S4194304, .f32⟩ : BufTy).Contents (Elt F) → (⟨S4194304, .f32⟩ : BufTy).Contents (Elt F) → (⟨S8388608, .f32⟩ : BufTy).Contents (Elt F)),
    StableHlo.binary main_arg0 main_arg2 main_v36 ((fun l r => Host.dotGeneral dot_S2048x16_S16x16_S2048x16_1_0_0_1_n_n none l r) : (⟨S2048x16, .f32⟩ : BufTy).Contents (Elt F) → (⟨S16x16, .f32⟩ : BufTy).Contents (Elt F) → (⟨S2048x16, .f32⟩ : BufTy).Contents (Elt F)),
    StableHlo.nullary main_v37 (iotaInDim S2048 32 0),
    StableHlo.binary main_v33 main_v37 main_v38 (withLoops : (⟨S8388608, .i32⟩ : BufTy).Contents (Elt F) → (⟨S2048, .i32⟩ : BufTy).Contents (Elt F) → (⟨S8390656, .i32⟩ : BufTy).Contents (Elt F)),
    StableHlo.binary main_v34 main_v37 main_v39 (withLoops : (⟨S8388608, .i32⟩ : BufTy).Contents (Elt F) → (⟨S2048, .i32⟩ : BufTy).Contents (Elt F) → (⟨S8390656, .i32⟩ : BufTy).Contents (Elt F)),
    StableHlo.nullary main_cst_11 (constant S_ .f32 0x3F800000#32),
    StableHlo.unary main_cst_11 main_v40 (broadcastInDim S2048 ![] bcast_S_S2048 : (⟨S_, .f32⟩ : BufTy).Contents (Elt F) → (⟨S2048, .f32⟩ : BufTy).Contents (Elt F)),
    StableHlo.binary main_v35 main_v40 main_v41 (withLoops : (⟨S8388608, .f32⟩ : BufTy).Contents (Elt F) → (⟨S2048, .f32⟩ : BufTy).Contents (Elt F) → (⟨S8390656, .f32⟩ : BufTy).Contents (Elt F)),
    StableHlo.nullary main_cst_12 (constant S_ .f32 0x00000000#32),
    StableHlo.unary main_cst_12 main_v42 (broadcastInDim S2048 ![] bcast_S_S2048 : (⟨S_, .f32⟩ : BufTy).Contents (Elt F) → (⟨S2048, .f32⟩ : BufTy).Contents (Elt F)),
    StableHlo.nullary main_c_13 (constantI S_ 32 0#32),
    StableHlo.unary main_c_13 main_v43 (broadcastInDim S8390656 ![] bcast_S_S8390656 : (⟨S_, .i32⟩ : BufTy).Contents (Elt F) → (⟨S8390656, .i32⟩ : BufTy).Contents (Elt F)),
    StableHlo.binary main_v39 main_v43 main_v44 (cmpi .slt : (⟨S8390656, .i32⟩ : BufTy).Contents (Elt F) → (⟨S8390656, .i32⟩ : BufTy).Contents (Elt F) → (⟨S8390656, .i1⟩ : BufTy).Contents (Elt F)),
    StableHlo.nullary main_c_14 (constantI S_ 32 2048#32),
    StableHlo.unary main_c_14 main_v45 (broadcastInDim S8390656 ![] bcast_S_S8390656 : (⟨S_, .i32⟩ : BufTy).Contents (Elt F) → (⟨S8390656, .i32⟩ : BufTy).Contents (Elt F)),
    StableHlo.binary main_v39 main_v45 main_v46 (addi : (⟨S8390656, .i32⟩ : BufTy).Contents (Elt F) → (⟨S8390656, .i32⟩ : BufTy).Contents (Elt F) → (⟨S8390656, .i32⟩ : BufTy).Contents (Elt F)),
    StableHlo.ternary main_v44 main_v46 main_v39 main_v47 (select : (⟨S8390656, .i1⟩ : BufTy).Contents (Elt F) → (⟨S8390656, .i32⟩ : BufTy).Contents (Elt F) → (⟨S8390656, .i32⟩ : BufTy).Contents (Elt F) → (⟨S8390656, .i32⟩ : BufTy).Contents (Elt F)),
    StableHlo.unary main_v47 main_v48 (broadcastInDim S8390656x1 ![0] bcast_S8390656_S8390656x1_0 : (⟨S8390656, .i32⟩ : BufTy).Contents (Elt F) → (⟨S8390656x1, .i32⟩ : BufTy).Contents (Elt F)),
    StableHlo.ternary main_v42 main_v48 main_v41 main_v49 ((fun x i u => Host.scatterAdd scatter_S2048_S8390656x1_S8390656_n_0_0_1 x i u) : (⟨S2048, .f32⟩ : BufTy).Contents (Elt F) → (⟨S8390656x1, .i32⟩ : BufTy).Contents (Elt F) → (⟨S8390656, .f32⟩ : BufTy).Contents (Elt F) → (⟨S2048, .f32⟩ : BufTy).Contents (Elt F)),
    StableHlo.nullary main_cst_15 (constant S_ .f32 0x00000000#32),
    StableHlo.unary main_cst_15 main_v50 (broadcastInDim S2048 ![] bcast_S_S2048 : (⟨S_, .f32⟩ : BufTy).Contents (Elt F) → (⟨S2048, .f32⟩ : BufTy).Contents (Elt F)),
    StableHlo.binary main_v49 main_v50 main_v51 (cmpf .ogt : (⟨S2048, .f32⟩ : BufTy).Contents (Elt F) → (⟨S2048, .f32⟩ : BufTy).Contents (Elt F) → (⟨S2048, .i1⟩ : BufTy).Contents (Elt F)),
    StableHlo.nullary main_cst_16 (constant S_ .f32 0x2B8CBCCC#32),
    StableHlo.unary main_cst_16 main_v52 (broadcastInDim S2048 ![] bcast_S_S2048 : (⟨S_, .f32⟩ : BufTy).Contents (Elt F) → (⟨S2048, .f32⟩ : BufTy).Contents (Elt F)),
    StableHlo.binary main_v49 main_v52 main_v53 (maximumf : (⟨S2048, .f32⟩ : BufTy).Contents (Elt F) → (⟨S2048, .f32⟩ : BufTy).Contents (Elt F) → (⟨S2048, .f32⟩ : BufTy).Contents (Elt F)),
    StableHlo.unary main_v53 main_v54 (Host.rsqrt : (⟨S2048, .f32⟩ : BufTy).Contents (Elt F) → (⟨S2048, .f32⟩ : BufTy).Contents (Elt F)),
    StableHlo.nullary main_cst_17 (constant S_ .f32 0x00000000#32),
    StableHlo.TRef.unary ((.of main_cst_17) : StableHlo.TRef sig ⟨S_, .f32⟩) main_call10.v0 id,
    StableHlo.TRef.unary main_call10.v0 main_call10.v1 (broadcastInDim S2048 ![] bcast_S_S2048),
    StableHlo.TRef.ternary ((.of main_v51) : StableHlo.TRef sig ⟨S2048, .i1⟩) ((.of main_v54) : StableHlo.TRef sig ⟨S2048, .f32⟩) main_call10.v1 main_call10.v2 select,
    StableHlo.nullary main_c_18 (constantI S_ 32 0#32),
    StableHlo.unary main_c_18 main_v56 (broadcastInDim S8390656 ![] bcast_S_S8390656 : (⟨S_, .i32⟩ : BufTy).Contents (Elt F) → (⟨S8390656, .i32⟩ : BufTy).Contents (Elt F)),
    StableHlo.binary main_v38 main_v56 main_v57 (cmpi .slt : (⟨S8390656, .i32⟩ : BufTy).Contents (Elt F) → (⟨S8390656, .i32⟩ : BufTy).Contents (Elt F) → (⟨S8390656, .i1⟩ : BufTy).Contents (Elt F)),
    StableHlo.nullary main_c_19 (constantI S_ 32 2048#32),
    StableHlo.unary main_c_19 main_v58 (broadcastInDim S8390656 ![] bcast_S_S8390656 : (⟨S_, .i32⟩ : BufTy).Contents (Elt F) → (⟨S8390656, .i32⟩ : BufTy).Contents (Elt F)),
    StableHlo.binary main_v38 main_v58 main_v59 (addi : (⟨S8390656, .i32⟩ : BufTy).Contents (Elt F) → (⟨S8390656, .i32⟩ : BufTy).Contents (Elt F) → (⟨S8390656, .i32⟩ : BufTy).Contents (Elt F)),
    StableHlo.ternary main_v57 main_v59 main_v38 main_v60 (select : (⟨S8390656, .i1⟩ : BufTy).Contents (Elt F) → (⟨S8390656, .i32⟩ : BufTy).Contents (Elt F) → (⟨S8390656, .i32⟩ : BufTy).Contents (Elt F) → (⟨S8390656, .i32⟩ : BufTy).Contents (Elt F)),
    StableHlo.unary main_v60 main_v61 (broadcastInDim S8390656x1 ![0] bcast_S8390656_S8390656x1_0 : (⟨S8390656, .i32⟩ : BufTy).Contents (Elt F) → (⟨S8390656x1, .i32⟩ : BufTy).Contents (Elt F)),
    StableHlo.binary main_v55 main_v61 main_v62 ((fun x i => Host.gather gather_S2048_S8390656x1_S8390656_n_0_n_n_0_1_1 x i) : (⟨S2048, .f32⟩ : BufTy).Contents (Elt F) → (⟨S8390656x1, .i32⟩ : BufTy).Contents (Elt F) → (⟨S8390656, .f32⟩ : BufTy).Contents (Elt F)),
    StableHlo.nullary main_c_20 (constantI S_ 32 0#32),
    StableHlo.unary main_c_20 main_v63 (broadcastInDim S8390656 ![] bcast_S_S8390656 : (⟨S_, .i32⟩ : BufTy).Contents (Elt F) → (⟨S8390656, .i32⟩ : BufTy).Contents (Elt F)),
    StableHlo.binary main_v39 main_v63 main_v64 (cmpi .slt : (⟨S8390656, .i32⟩ : BufTy).Contents (Elt F) → (⟨S8390656, .i32⟩ : BufTy).Contents (Elt F) → (⟨S8390656, .i1⟩ : BufTy).Contents (Elt F)),
    StableHlo.nullary main_c_21 (constantI S_ 32 2048#32),
    StableHlo.unary main_c_21 main_v65 (broadcastInDim S8390656 ![] bcast_S_S8390656 : (⟨S_, .i32⟩ : BufTy).Contents (Elt F) → (⟨S8390656, .i32⟩ : BufTy).Contents (Elt F)),
    StableHlo.binary main_v39 main_v65 main_v66 (addi : (⟨S8390656, .i32⟩ : BufTy).Contents (Elt F) → (⟨S8390656, .i32⟩ : BufTy).Contents (Elt F) → (⟨S8390656, .i32⟩ : BufTy).Contents (Elt F)),
    StableHlo.ternary main_v64 main_v66 main_v39 main_v67 (select : (⟨S8390656, .i1⟩ : BufTy).Contents (Elt F) → (⟨S8390656, .i32⟩ : BufTy).Contents (Elt F) → (⟨S8390656, .i32⟩ : BufTy).Contents (Elt F) → (⟨S8390656, .i32⟩ : BufTy).Contents (Elt F)),
    StableHlo.unary main_v67 main_v68 (broadcastInDim S8390656x1 ![0] bcast_S8390656_S8390656x1_0 : (⟨S8390656, .i32⟩ : BufTy).Contents (Elt F) → (⟨S8390656x1, .i32⟩ : BufTy).Contents (Elt F)),
    StableHlo.binary main_v55 main_v68 main_v69 ((fun x i => Host.gather gather_S2048_S8390656x1_S8390656_n_0_n_n_0_1_1 x i) : (⟨S2048, .f32⟩ : BufTy).Contents (Elt F) → (⟨S8390656x1, .i32⟩ : BufTy).Contents (Elt F) → (⟨S8390656, .f32⟩ : BufTy).Contents (Elt F)),
    StableHlo.binary main_v62 main_v69 main_v70 (mulf : (⟨S8390656, .f32⟩ : BufTy).Contents (Elt F) → (⟨S8390656, .f32⟩ : BufTy).Contents (Elt F) → (⟨S8390656, .f32⟩ : BufTy).Contents (Elt F)),
    StableHlo.nullary main_c_22 (constantI S_ 32 0#32),
    StableHlo.unary main_c_22 main_v71 (broadcastInDim S8390656 ![] bcast_S_S8390656 : (⟨S_, .i32⟩ : BufTy).Contents (Elt F) → (⟨S8390656, .i32⟩ : BufTy).Contents (Elt F)),
    StableHlo.binary main_v38 main_v71 main_v72 (cmpi .slt : (⟨S8390656, .i32⟩ : BufTy).Contents (Elt F) → (⟨S8390656, .i32⟩ : BufTy).Contents (Elt F) → (⟨S8390656, .i1⟩ : BufTy).Contents (Elt F)),
    StableHlo.nullary main_c_23 (constantI S_ 32 2048#32),
    StableHlo.unary main_c_23 main_v73 (broadcastInDim S8390656 ![] bcast_S_S8390656 : (⟨S_, .i32⟩ : BufTy).Contents (Elt F) → (⟨S8390656, .i32⟩ : BufTy).Contents (Elt F)),
    StableHlo.binary main_v38 main_v73 main_v74 (addi : (⟨S8390656, .i32⟩ : BufTy).Contents (Elt F) → (⟨S8390656, .i32⟩ : BufTy).Contents (Elt F) → (⟨S8390656, .i32⟩ : BufTy).Contents (Elt F)),
    StableHlo.ternary main_v72 main_v74 main_v38 main_v75 (select : (⟨S8390656, .i1⟩ : BufTy).Contents (Elt F) → (⟨S8390656, .i32⟩ : BufTy).Contents (Elt F) → (⟨S8390656, .i32⟩ : BufTy).Contents (Elt F) → (⟨S8390656, .i32⟩ : BufTy).Contents (Elt F)),
    StableHlo.unary main_v75 main_v76 (broadcastInDim S8390656x1 ![0] bcast_S8390656_S8390656x1_0 : (⟨S8390656, .i32⟩ : BufTy).Contents (Elt F) → (⟨S8390656x1, .i32⟩ : BufTy).Contents (Elt F)),
    StableHlo.binary main_v36 main_v76 main_v77 ((fun x i => Host.gather gather_S2048x16_S8390656x1_S8390656x16_1_0_n_n_0_1_116 x i) : (⟨S2048x16, .f32⟩ : BufTy).Contents (Elt F) → (⟨S8390656x1, .i32⟩ : BufTy).Contents (Elt F) → (⟨S8390656x16, .f32⟩ : BufTy).Contents (Elt F)),
    StableHlo.unary main_v70 main_v78 (broadcastInDim S8390656x1 ![0] bcast_S8390656_S8390656x1_0 : (⟨S8390656, .f32⟩ : BufTy).Contents (Elt F) → (⟨S8390656x1, .f32⟩ : BufTy).Contents (Elt F)),
    StableHlo.unary main_v78 main_v79 (broadcastInDim S8390656x16 ![0, 1] bcast_S8390656x1_S8390656x16_0_1 : (⟨S8390656x1, .f32⟩ : BufTy).Contents (Elt F) → (⟨S8390656x16, .f32⟩ : BufTy).Contents (Elt F)),
    StableHlo.binary main_v77 main_v79 main_v80 (mulf : (⟨S8390656x16, .f32⟩ : BufTy).Contents (Elt F) → (⟨S8390656x16, .f32⟩ : BufTy).Contents (Elt F) → (⟨S8390656x16, .f32⟩ : BufTy).Contents (Elt F)),
    StableHlo.unary main_v41 main_v81 (broadcastInDim S8390656x1 ![0] bcast_S8390656_S8390656x1_0 : (⟨S8390656, .f32⟩ : BufTy).Contents (Elt F) → (⟨S8390656x1, .f32⟩ : BufTy).Contents (Elt F)),
    StableHlo.unary main_v81 main_v82 (broadcastInDim S8390656x16 ![0, 1] bcast_S8390656x1_S8390656x16_0_1 : (⟨S8390656x1, .f32⟩ : BufTy).Contents (Elt F) → (⟨S8390656x16, .f32⟩ : BufTy).Contents (Elt F)),
    StableHlo.binary main_v80 main_v82 main_v83 (mulf : (⟨S8390656x16, .f32⟩ : BufTy).Contents (Elt F) → (⟨S8390656x16, .f32⟩ : BufTy).Contents (Elt F) → (⟨S8390656x16, .f32⟩ : BufTy).Contents (Elt F)),
    StableHlo.nullary main_cst_24 (constant S_ .f32 0x00000000#32),
    StableHlo.unary main_cst_24 main_v84 (broadcastInDim S2048x16 ![] bcast_S_S2048x16 : (⟨S_, .f32⟩ : BufTy).Contents (Elt F) → (⟨S2048x16, .f32⟩ : BufTy).Contents (Elt F)),
    StableHlo.nullary main_c_25 (constantI S_ 32 0#32),
    StableHlo.unary main_c_25 main_v85 (broadcastInDim S8390656 ![] bcast_S_S8390656 : (⟨S_, .i32⟩ : BufTy).Contents (Elt F) → (⟨S8390656, .i32⟩ : BufTy).Contents (Elt F)),
    StableHlo.binary main_v39 main_v85 main_v86 (cmpi .slt : (⟨S8390656, .i32⟩ : BufTy).Contents (Elt F) → (⟨S8390656, .i32⟩ : BufTy).Contents (Elt F) → (⟨S8390656, .i1⟩ : BufTy).Contents (Elt F)),
    StableHlo.nullary main_c_26 (constantI S_ 32 2048#32),
    StableHlo.unary main_c_26 main_v87 (broadcastInDim S8390656 ![] bcast_S_S8390656 : (⟨S_, .i32⟩ : BufTy).Contents (Elt F) → (⟨S8390656, .i32⟩ : BufTy).Contents (Elt F)),
    StableHlo.binary main_v39 main_v87 main_v88 (addi : (⟨S8390656, .i32⟩ : BufTy).Contents (Elt F) → (⟨S8390656, .i32⟩ : BufTy).Contents (Elt F) → (⟨S8390656, .i32⟩ : BufTy).Contents (Elt F)),
    StableHlo.ternary main_v86 main_v88 main_v39 main_v89 (select : (⟨S8390656, .i1⟩ : BufTy).Contents (Elt F) → (⟨S8390656, .i32⟩ : BufTy).Contents (Elt F) → (⟨S8390656, .i32⟩ : BufTy).Contents (Elt F) → (⟨S8390656, .i32⟩ : BufTy).Contents (Elt F)),
    StableHlo.unary main_v89 main_v90 (broadcastInDim S8390656x1 ![0] bcast_S8390656_S8390656x1_0 : (⟨S8390656, .i32⟩ : BufTy).Contents (Elt F) → (⟨S8390656x1, .i32⟩ : BufTy).Contents (Elt F)),
    StableHlo.ternary main_v84 main_v90 main_v83 main_v91 ((fun x i u => Host.scatterAdd scatter_S2048x16_S8390656x1_S8390656x16_1_0_0_1 x i u) : (⟨S2048x16, .f32⟩ : BufTy).Contents (Elt F) → (⟨S8390656x1, .i32⟩ : BufTy).Contents (Elt F) → (⟨S8390656x16, .f32⟩ : BufTy).Contents (Elt F) → (⟨S2048x16, .f32⟩ : BufTy).Contents (Elt F)),
    StableHlo.unary main_arg3 main_v92 (broadcastInDim S1x16 ![1] bcast_S16_S1x16_1 : (⟨S16, .f32⟩ : BufTy).Contents (Elt F) → (⟨S1x16, .f32⟩ : BufTy).Contents (Elt F)),
    StableHlo.unary main_v92 main_v93 (broadcastInDim S2048x16 ![0, 1] bcast_S1x16_S2048x16_0_1 : (⟨S1x16, .f32⟩ : BufTy).Contents (Elt F) → (⟨S2048x16, .f32⟩ : BufTy).Contents (Elt F)),
    StableHlo.binary main_v91 main_v93 main_v94 (addf : (⟨S2048x16, .f32⟩ : BufTy).Contents (Elt F) → (⟨S2048x16, .f32⟩ : BufTy).Contents (Elt F) → (⟨S2048x16, .f32⟩ : BufTy).Contents (Elt F)),
    StableHlo.unary main_v94 main_v95 (Host.tanh : (⟨S2048x16, .f32⟩ : BufTy).Contents (Elt F) → (⟨S2048x16, .f32⟩ : BufTy).Contents (Elt F)),
    StableHlo.unary main_v95 main_v96 ((transpose S16x2048 [1, 0] · transposes_S2048x16_S16x2048_1_0) : (⟨S2048x16, .f32⟩ : BufTy).Contents (Elt F) → (⟨S16x2048, .f32⟩ : BufTy).Contents (Elt F)) ]

set_option maxRecDepth 16384 in
/-- The entry function is the sequence of that list: the callees unfolded at their calls, sequencing reassociated. -/
theorem main_eq (c : Dev nD) : main (F := F) c = seq ops := by
  simp only [main, main_part0, main_part1, main_part2, fn_cumsum_0.body, fn_cumsum.body, fn_clip.body, fn_cumsum_1.body, fn_where.body, fn_floor_divide.body, fn_where_2.body, fn_remainder.body, fn_where_3.body, fn_count_nonzero.body, fn_where_4.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., binary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., nullary_bufs_sub .., unary_bufs_sub .., binary_bufs_sub .., unary_bufs_sub .., nullary_bufs_sub .., binary_bufs_sub .., unary_bufs_sub .., binary_bufs_sub .., unary_bufs_sub .., unary_bufs_sub .., unary_bufs_sub .., unary_bufs_sub .., binary_bufs_sub .., binary_bufs_sub .., binary_bufs_sub .., binary_bufs_sub .., nullary_bufs_sub .., binary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., unary_bufs_sub .., unary_bufs_sub ..⟩

/-- From any memory with zero counters, every weakly fair execution of the reference terminates with every buffer
    at the fold of the operations over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefStages.lean ====
/-
  The reference as equations between its buffers after the run.

  Every buffer is written once, so after the whole run each stage buffer holds a function of the stage buffers before
  it. HEAD (the list of nonzero positions): the nonzero mask of the adjacency matrix; its running count over the
  flattened matrix; the histogram of the running count; the running sum of the histogram (slot `k` holds the flat
  position of the `k`-th nonzero); quotient and remainder by the row length (row and column); the slots past the
  count zeroed; the validity weights. TAIL: the edge list (slots reversed, twice, then self-loops); the degrees; the
  guarded `deg^(-1/2)`; its product over the two ends of each edge; the scaled source features; their accumulation at
  the targets; bias, `tanh`, transpose.
  Each equation is read off the fold of the operations: the list is cut just before the stage's own operations, the
  contents at the cut are an arbitrary valuation, and each operation's result is its function of what it reads.
-/
import proofs.«117461_g8057358648341_cont_sun_m_1039_2_alg».proof.Proof.RefRun

noncomputable section

namespace Cert.ReferenceIdeal.Stages

open Cert.ReferenceIdeal Cert.ReferenceIdeal.Gen Cert.ReferenceIdeal.HandRun Idealize.ShloMosaic Idealize.ShloMosaic.TcCoe
open Idealize.SL.Sem Idealize.ShloMosaic.StableHlo

variable {F : FTy → Type} [FloatOps F]

/-- Running two lines one after the other is running their concatenation. -/
theorem after_append' {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

/-- The fold's buffers read in one simp pass: each operation's result at its own buffer is its function of the buffers
    it reads, at any other buffer what was there; the callees' typed builders are the plain ones at their buffers. -/
macro "fold_results" : tactic =>
  `(tactic| (simp (disch := decide) only [after_cons, after_nil,
      TRef.nullary, TRef.unary, TRef.binary, TRef.ternary, TRef.reshape, TRef.toBuf, TRef.ofBuf, cast_eq,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

/-- A stage equation: cut the list before the stage's own operations, forget what the contents at the cut are, read the rest. -/
macro "stage_eq" c:num "of" l:term : tactic =>
  `(tactic| (rw [← List.take_append_drop $c $l, after_append']
             generalize after (List.take $c $l) _ = W
             simp only [ops, List.drop_succ_cons, List.drop_zero]
             fold_results))

/-! ## The stage functions -/

/-- A zero word at every position of the flattened matrix. -/
abbrev zeros32 : IVec S4194304 32 := broadcastInDim S4194304 ![] bcast_S_S4194304 (constantI S_ 32 0#32)

/-- The running sum of an integer array over the flattened matrix (a window reduction padded in front). -/
def running (m : IVec S4194304 32) : IVec S4194304 32 :=
  Host.reduceWindow IntOp.addi ![4194304] ![1] ![4194303] ![0] m (broadcastInDim S_ ![] bcast_S_S_ (constantI S_ 32 0#32))
    reduceWindows_S4194304_S4194304_w4194304s1p4194303_0 h_S_

/-- The histogram of an array of counts: slot `k` holds how many positions have count `k` (counts clipped below at zero,
    a negative count read from the end, a count outside the array dropped). -/
def hist (c : IVec S4194304 32) : IVec S4194304 32 :=
  Host.scatter scatter_S4194304_S4194304x1_S4194304_n_0_0_1 IntOp.addi zeros32
    (broadcastInDim S4194304x1 ![0] bcast_S4194304_S4194304x1_0
      (select (cmpi .slt (maxsi (broadcastInDim S4194304 ![] bcast_S_S4194304 (id (constantI S_ 32 0#32))) c) zeros32)
        (addi (maxsi (broadcastInDim S4194304 ![] bcast_S_S4194304 (id (constantI S_ 32 0#32))) c)
          (broadcastInDim S4194304 ![] bcast_S_S4194304 (constantI S_ 32 4194304#32)))
        (maxsi (broadcastInDim S4194304 ![] bcast_S_S4194304 (id (constantI S_ 32 0#32))) c)))
    (broadcastInDim S4194304 ![] bcast_S_S4194304 (constantI S_ 32 1#32))

/-- `jnp.floor_divide` by a scalar: the truncated quotient, one less where the signs differ and the division is inexact. -/
def floorDiv (x : IVec S4194304 32) (d : IVec S_ 32) : IVec S4194304 32 :=
  select (andi (cmpi .ne (signi x) (broadcastInDim S4194304 ![] bcast_S_S4194304 (signi d)))
      (cmpi .ne (Host.remsi x (broadcastInDim S4194304 ![] bcast_S_S4194304 d)) zeros32))
    (subi (Host.divsi x (broadcastInDim S4194304 ![] bcast_S_S4194304 d)) (broadcastInDim S4194304 ![] bcast_S_S4194304 (constantI S_ 32 1#32)))
    (Host.divsi x (broadcastInDim S4194304 ![] bcast_S_S4194304 d))

/-- The divisor `jnp.remainder` really uses: one in place of zero. -/
def safeDiv (d : IVec S_ 32) : IVec S_ 32 := select (cmpi .eq (id d) (constantI S_ 32 0#32)) (constantI S_ 32 1#32) (id d)

/-- `jnp.remainder` by a scalar: the truncated remainder, the divisor added where it is nonzero and of the other sign. -/
def floorRem (x : IVec S4194304 32) (d : IVec S_ 32) : IVec S4194304 32 :=
  select (andi (cmpi .ne (cmpi .slt (Host.remsi x (broadcastInDim S4194304 ![] bcast_S_S4194304 (safeDiv d))) zeros32)
        (broadcastInDim S4194304 ![] bcast_S_S4194304 (cmpi .slt (safeDiv d) (constantI S_ 32 0#32))))
      (cmpi .ne (Host.remsi x (broadcastInDim S4194304 ![] bcast_S_S4194304 (safeDiv d))) zeros32))
    (addi (Host.remsi x (broadcastInDim S4194304 ![] bcast_S_S4194304 (safeDiv d))) (broadcastInDim S4194304 ![] bcast_S_S4194304 (safeDiv d)))
    (Host.remsi x (broadcastInDim S4194304 ![] bcast_S_S4194304 (safeDiv d)))

/-- The number of ones of a mask over the matrix, as a word. -/
def countOnes (m : IVec S2048x2048 1) : IVec S_ 32 :=
  Host.reduce IntOp.addi (extui 32 m natLt_1_32) (constantI S_ 32 0#32) reducesTo_S2048x2048_S_d0_1 h_S_

/-- An index array made ready to index an axis of extent 2048: a negative index counts from the end, and the array
    is laid out as a column. -/
def wrap (c : IVec S8390656 32) : IVec S8390656x1 32 :=
  broadcastInDim S8390656x1 ![0] bcast_S8390656_S8390656x1_0
    (select (cmpi .slt c (broadcastInDim S8390656 ![] bcast_S_S8390656 (constantI S_ 32 0#32)))
      (addi c (broadcastInDim S8390656 ![] bcast_S_S8390656 (constantI S_ 32 2048#32))) c)

/-- The edge list's index array from the list slots' array: reversed, twice, then the nodes themselves (self-loops). -/
def edgeIdx (a : IVec S4194304 32) : IVec S8390656 32 :=
  withLoops (twice (Host.reverse [0] a) (Host.reverse [0] a)) (iotaInDim S2048 32 0)

/-- The edge list's weights from the list slots' validity: reversed, twice, then ones (self-loops). -/
def edgeWeight (v : FVec F S4194304 .f32) : FVec F S8390656 .f32 :=
  withLoops (twice (Host.reverse [0] v) (Host.reverse [0] v)) (broadcastInDim S2048 ![] bcast_S_S2048 (constant S_ .f32 0x3F800000#32))

/-- A per-edge scalar spread along the 16 channels. -/
def perEdge (v : FVec F S8390656 .f32) : FVec F S8390656x16 .f32 :=
  broadcastInDim S8390656x16 ![0, 1] bcast_S8390656x1_S8390656x16_0_1 (broadcastInDim S8390656x1 ![0] bcast_S8390656_S8390656x1_0 v)

set_option maxRecDepth 16384

/-! ## The head -/

theorem mask_eq (V : Valuation τ sig (Elt F)) :
    after ops V (main_v1 : DevRef τ sig)
      = cmpf .une (V (main_arg1 : DevRef τ sig)) (broadcastInDim S2048x2048 ![] bcast_S_S2048x2048 (constant S_ .f32 0x00000000#32)) := by
  fold_results

theorem hist_eq (V : Valuation τ sig (Elt F)) :
    after ops V (main_v12 : DevRef τ sig) = hist (after ops V (main_v2 : DevRef τ sig)) := by
  unfold hist; stage_eq 8 of (ops (F := F))

theorem slots_eq (V : Valuation τ sig (Elt F)) :
    after ops V (main_v13 : DevRef τ sig) = running (after ops V (main_v12 : DevRef τ sig)) := by
  unfold running; stage_eq 25 of (ops (F := F))

theorem quot_eq (V : Valuation τ sig (Elt F)) :
    after ops V (main_v14 : DevRef τ sig) = floorDiv (after ops V (main_v13 : DevRef τ sig)) (constantI S_ 32 2048#32) := by
  unfold floorDiv; stage_eq 28 of (ops (F := F))

theorem rowRaw_eq (V : Valuation τ sig (Elt F)) :
    after ops V (main_v15 : DevRef τ sig) = floorRem (after ops V (main_v14 : DevRef τ sig)) (constantI S_ 32 2048#32) := by
  unfold floorRem safeDiv; stage_eq 45 of (ops (F := F))

theorem quot1_eq (V : Valuation τ sig (Elt F)) :
    after ops V (main_v16 : DevRef τ sig) = floorDiv (after ops V (main_v13 : DevRef τ sig)) (constantI S_ 32 1#32) := by
  unfold floorDiv; stage_eq 67 of (ops (F := F))

theorem colRaw_eq (V : Valuation τ sig (Elt F)) :
    after ops V (main_v17 : DevRef τ sig) = floorRem (after ops V (main_v16 : DevRef τ sig)) (constantI S_ 32 2048#32) := by
  unfold floorRem safeDiv; stage_eq 84 of (ops (F := F))

theorem count_eq (V : Valuation τ sig (Elt F)) :
    after ops V (main_v20 : DevRef τ sig) = countOnes (after ops V (main_v1 : DevRef τ sig)) := by
  unfold countOnes; stage_eq 106 of (ops (F := F))

theorem past_eq (V : Valuation τ sig (Elt F)) :
    after ops V (main_v22 : DevRef τ sig)
      = cmpi .sge (iotaInDim S4194304 32 0) (broadcastInDim S4194304 ![] bcast_S_S4194304 (after ops V (main_v20 : DevRef τ sig))) := by
  stage_eq 106 of (ops (F := F))

theorem row_eq (V : Valuation τ sig (Elt F)) :
    after ops V (main_v23 : DevRef τ sig)
      = select (after ops V (main_v22 : DevRef τ sig)) (broadcastInDim S4194304 ![] bcast_S_S4194304 (id (constantI S_ 32 0#32)))
          (after ops V (main_v15 : DevRef τ sig)) := by
  stage_eq 112 of (ops (F := F))

theorem col_eq (V : Valuation τ sig (Elt F)) :
    after ops V (main_v24 : DevRef τ sig)
      = select (after ops V (main_v22 : DevRef τ sig)) (broadcastInDim S4194304 ![] bcast_S_S4194304 (id (constantI S_ 32 0#32)))
          (after ops V (main_v17 : DevRef τ sig)) := by
  stage_eq 116 of (ops (F := F))

theorem valid_eq (V : Valuation τ sig (Elt F)) :
    after ops V (main_v29 : DevRef τ sig)
      = uitofp .f32 (cmpi .slt (iotaInDim S4194304 32 0) (broadcastInDim S4194304 ![] bcast_S_S4194304
          (countOnes (cmpf .une (V (main_arg1 : DevRef τ sig)) (broadcastInDim S2048x2048 ![] bcast_S_S2048x2048 (constant S_ .f32 0x00000000#32)))))) := by
  unfold countOnes; fold_results

/-! ## The tail -/

theorem src_eq (V : Valuation τ sig (Elt F)) :
    after ops V (main_v38 : DevRef τ sig) = edgeIdx (after ops V (main_v23 : DevRef τ sig)) := by
  unfold edgeIdx; stage_eq 130 of (ops (F := F))

theorem tgt_eq (V : Valuation τ sig (Elt F)) :
    after ops V (main_v39 : DevRef τ sig) = edgeIdx (after ops V (main_v24 : DevRef τ sig)) := by
  unfold edgeIdx; stage_eq 130 of (ops (F := F))

theorem wgt_eq (V : Valuation τ sig (Elt F)) :
    after ops V (main_v41 : DevRef τ sig) = edgeWeight (after ops V (main_v29 : DevRef τ sig)) := by
  unfold edgeWeight; stage_eq 130 of (ops (F := F))

theorem lin_eq (V : Valuation τ sig (Elt F)) :
    after ops V (main_v36 : DevRef τ sig)
      = Host.dotGeneral dot_S2048x16_S16x16_S2048x16_1_0_0_1_n_n none (V (main_arg0 : DevRef τ sig)) (V (main_arg2 : DevRef τ sig)) := by
  fold_results

theorem deg_eq (V : Valuation τ sig (Elt F)) :
    after ops V (main_v49 : DevRef τ sig)
      = Host.scatterAdd scatter_S2048_S8390656x1_S8390656_n_0_0_1 (broadcastInDim S2048 ![] bcast_S_S2048 (constant S_ .f32 0x00000000#32))
          (wrap (after ops V (main_v39 : DevRef τ sig))) (after ops V (main_v41 : DevRef τ sig)) := by
  unfold wrap; stage_eq 143 of (ops (F := F))

theorem dis_eq (V : Valuation τ sig (Elt F)) :
    after ops V (main_v55 : DevRef τ sig)
      = select (cmpf .ogt (after ops V (main_v49 : DevRef τ sig)) (broadcastInDim S2048 ![] bcast_S_S2048 (constant S_ .f32 0x00000000#32)))
          (Host.rsqrt (maximumf (after ops V (main_v49 : DevRef τ sig)) (broadcastInDim S2048 ![] bcast_S_S2048 (constant S_ .f32 0x2B8CBCCC#32))))
          (broadcastInDim S2048 ![] bcast_S_S2048 (id (constant S_ .f32 0x00000000#32))) := by
  stage_eq 154 of (ops (F := F))

theorem norm_eq (V : Valuation τ sig (Elt F)) :
    after ops V (main_v70 : DevRef τ sig)
      = mulf (Host.gather gather_S2048_S8390656x1_S8390656_n_0_n_n_0_1_1 (after ops V (main_v55 : DevRef τ sig)) (wrap (after ops V (main_v38 : DevRef τ sig))))
          (Host.gather gather_S2048_S8390656x1_S8390656_n_0_n_n_0_1_1 (after ops V (main_v55 : DevRef τ sig)) (wrap (after ops V (main_v39 : DevRef τ sig)))) := by
  unfold wrap; stage_eq 165 of (ops (F := F))

theorem msg_eq (V : Valuation τ sig (Elt F)) :
    after ops V (main_v83 : DevRef τ sig)
      = mulf (mulf (Host.gather gather_S2048x16_S8390656x1_S8390656x16_1_0_n_n_0_1_116 (after ops V (main_v36 : DevRef τ sig)) (wrap (after ops V (main_v38 : DevRef τ sig))))
            (perEdge (after ops V (main_v70 : DevRef τ sig))))
          (perEdge (after ops V (main_v41 : DevRef τ sig))) := by
  unfold wrap perEdge; stage_eq 184 of (ops (F := F))

theorem acc_eq (V : Valuation τ sig (Elt F)) :
    after ops V (main_v91 : DevRef τ sig)
      = Host.scatterAdd scatter_S2048x16_S8390656x1_S8390656x16_1_0_0_1 (broadcastInDim S2048x16 ![] bcast_S_S2048x16 (constant S_ .f32 0x00000000#32))
          (wrap (after ops V (main_v39 : DevRef τ sig))) (after ops V (main_v83 : DevRef τ sig)) := by
  unfold wrap; stage_eq 199 of (ops (F := F))

theorem out_eq (V : Valuation τ sig (Elt F)) :
    after ops V (main_v96 : DevRef τ sig)
      = transpose S16x2048 [1, 0] (Host.tanh (addf (after ops V (main_v91 : DevRef τ sig))
          (broadcastInDim S2048x16 ![0, 1] bcast_S1x16_S2048x16_0_1 (broadcastInDim S1x16 ![1] bcast_S16_S1x16_1 (after ops V (main_arg3 : DevRef τ sig))))))
          transposes_S2048x16_S16x2048_1_0 := by
  stage_eq 210 of (ops (F := F))

end Cert.ReferenceIdeal.Stages

end
-- ==== Proof.RefSlots.lean ====
/-
  The three arrays the head of the reference leaves for the tail, and the adjacency matrix, at their types.
-/
import proofs.«117461_g8057358648341_cont_sun_m_1039_2_alg».proof.Proof.RefStages
import Idealize.ShloMosaic.PureOps.Ideal
import Idealize.ShloMosaic.Lib.ValueIdx

noncomputable section

namespace Cert.ReferenceIdeal.Head

open Cert.ReferenceIdeal Cert.ReferenceIdeal.Gen Cert.ReferenceIdeal.HandRun Idealize.ShloMosaic Idealize.ShloMosaic.TcCoe
open Idealize.SL.Sem Idealize.ShloMosaic.StableHlo

/-- The row of each list slot after the run. -/
abbrev rowSlots (V : Valuation τ sig (Elt Ideal)) : IVec S4194304 32 := after ops V (main_v23 : DevRef τ sig)
/-- The column of each list slot after the run. -/
abbrev colSlots (V : Valuation τ sig (Elt Ideal)) : IVec S4194304 32 := after ops V (main_v24 : DevRef τ sig)
/-- The validity weight of each list slot after the run. -/
abbrev valSlots (V : Valuation τ sig (Elt Ideal)) : S4194304.Idx → EReal := after ops V (main_v29 : DevRef τ sig)
/-- The adjacency matrix at launch. -/
abbrev adjOf (V : Valuation τ sig (Elt Ideal)) : S2048x2048.Idx → EReal := V (main_arg1 : DevRef τ sig)

end Cert.ReferenceIdeal.Head

end
-- ==== Proof.LibNonzeroEnum.lean ====
/-
  Listing the members of a set of naturals by two running sums.

  Let `P` hold only below `M`. Write `c p = #{q ≤ p | P q}` (the running count, inclusive) and, for `k < #{q < M | P q}`,
  let `nth k` be the `k`-th member of `P` in increasing order. The running count passes `k` exactly at `nth k`:
  `c p ≤ k ↔ p < nth k`. Hence the number of positions `p < M` with `c p ≤ k` — which is the running sum, up to `k`, of the
  histogram `k' ↦ #{p < M | c p = k'}` — IS `nth k`: a histogram of the running count followed by a running sum lists the
  members in order. And a sum over that list is the sum over the members.
-/
import Mathlib.Data.Nat.Nth
import Mathlib.Algebra.BigOperators.Group.Finset.Basic

namespace Cert.NonzeroEnum

open Finset

variable {P : ℕ → Prop} [DecidablePred P]

/-- Below the count of members under `M`, every finiteness witness of `P` has more than `k` members. -/
theorem lt_card_of_lt_count {M k : ℕ} (hk : k < Nat.count P M) (hf : (Set.ofPred P).Finite) : k < #hf.toFinset :=
  lt_of_lt_of_le hk (Nat.count_le_card hf M)

/-- The `k`-th member lies below `M` and is a member. -/
theorem nth_lt {M k : ℕ} (hk : k < Nat.count P M) : Nat.nth P k < M := Nat.nth_lt_of_lt_count hk

theorem nth_mem {M k : ℕ} (hk : k < Nat.count P M) : P (Nat.nth P k) :=
  Nat.nth_mem k fun hf => lt_card_of_lt_count hk hf

/-- THE RUNNING COUNT PASSES `k` EXACTLY AT THE `k`-TH MEMBER. -/
theorem count_succ_le_iff {M k : ℕ} (hk : k < Nat.count P M) (p : ℕ) : Nat.count P (p + 1) ≤ k ↔ p < Nat.nth P k := by
  have hcount : Nat.count P (Nat.nth P k) = k := Nat.count_nth fun hf => lt_card_of_lt_count hk hf
  constructor
  · intro h
    by_contra hp
    have hle : Nat.nth P k + 1 ≤ p + 1 := Nat.succ_le_succ (not_lt.mp hp)
    have h1 : Nat.count P (Nat.nth P k + 1) = k + 1 := by
      rw [Nat.count_succ, if_pos (nth_mem hk), hcount]
    have := Nat.count_monotone P hle
    omega
  · intro h
    have := Nat.count_monotone P (show p + 1 ≤ Nat.nth P k from h)
    omega

/-- So the number of positions below `M` whose running count is at most `k` is the `k`-th member. -/
theorem card_count_le {M k : ℕ} (hk : k < Nat.count P M) :
    #{p ∈ range M | Nat.count P (p + 1) ≤ k} = Nat.nth P k := by
  have hlt := nth_lt hk
  have : {p ∈ range M | Nat.count P (p + 1) ≤ k} = range (Nat.nth P k) := by
    ext p
    simp only [mem_filter, mem_range, count_succ_le_iff hk]
    constructor
    · exact fun h => h.2
    · exact fun h => ⟨lt_trans h hlt, h⟩
  rw [this, card_range]

/-- The running sum of a histogram counts the positions at or below the bound: for any `c`,
    `Σ_{k' ≤ k} #{p ∈ s | c p = k'} = #{p ∈ s | c p ≤ k}`. -/
theorem sum_hist_eq_card_le {ι : Type*} (s : Finset ι) (c : ι → ℕ) (k : ℕ) :
    ∑ k' ∈ range (k + 1), #{p ∈ s | c p = k'} = #{p ∈ s | c p ≤ k} := by
  have H : ((({p ∈ s | c p ≤ k} : Finset ι)) : Set ι).MapsTo c (range (k + 1)) := by
    intro p hp
    simp only [coe_filter, Set.mem_setOf_eq] at hp
    simp only [coe_range, Set.mem_Iio]
    omega
  rw [card_eq_sum_card_fiberwise H]
  refine sum_congr rfl fun k' hk' => ?_
  congr 1
  ext p
  simp only [mem_filter, mem_range] at hk' ⊢
  constructor
  · rintro ⟨hp, rfl⟩; exact ⟨⟨hp, by omega⟩, rfl⟩
  · rintro ⟨⟨hp, -⟩, h⟩; exact ⟨hp, h⟩

/-- A SUM OVER THE LIST IS THE SUM OVER THE MEMBERS: when `P` holds only below `M`,
    `Σ_{k < #members} f (nth k) = Σ_{p < M, P p} f p`. -/
theorem sum_nth_eq_sum_filter {A : Type*} [AddCommMonoid A] {M : ℕ} (f : ℕ → A) :
    ∑ k ∈ range (Nat.count P M), f (Nat.nth P k) = ∑ p ∈ range M with P p, f p := by
  refine sum_nbij (Nat.nth P) ?_ ?_ ?_ fun _ _ => rfl
  · intro k hk
    simp only [mem_range] at hk
    simp only [mem_filter, mem_range]
    exact ⟨nth_lt hk, nth_mem hk⟩
  · intro a ha b hb hab
    simp only [coe_range, Set.mem_Iio] at ha hb
    by_contra hne
    rcases lt_or_gt_of_ne hne with h | h
    · exact absurd hab (ne_of_lt (Nat.nth_lt_nth' h fun hf => lt_card_of_lt_count hb hf))
    · exact absurd hab.symm (ne_of_lt (Nat.nth_lt_nth' h fun hf => lt_card_of_lt_count ha hf))
  · intro p hp
    simp only [coe_filter, mem_range, Set.mem_setOf_eq] at hp
    refine ⟨Nat.count P p, ?_, Nat.nth_count hp.2⟩
    simp only [coe_range, Set.mem_Iio]
    have h1 : Nat.count P (p + 1) = Nat.count P p + 1 := by rw [Nat.count_succ, if_pos hp.2]
    have := Nat.count_monotone P (show p + 1 ≤ M from hp.1)
    omega

end Cert.NonzeroEnum
-- ==== Proof.LibPrefixWindow.lean ====
/-
  A running sum written as a window reduction.

  `jnp.cumsum` of an integer array of `n` entries lowers to a `reduce_window` with one window of `n` positions, stride one,
  `n − 1` padding entries in front and none behind, the body an addition and the initial value zero. Output `j` folds the
  window's `n` positions `m = 0 … n − 1` in order; position `m` holds entry `j + m − (n − 1)` of the operand when that is not
  negative, and padding (zero) otherwise. Reading the window backwards (`t = n − 1 − m`) it holds entry `j − t` for
  `t ≤ j`: the fold is `x 0 + … + x j`, in the words' wrapping arithmetic.
-/
import Mathlib.Data.BitVec
import Mathlib.Algebra.BigOperators.Fin
import Idealize.ShloMosaic.PureOps.Contract
import Idealize.ShloMosaic.Lib.ValueIdx

noncomputable section

namespace Cert.PrefixWindow

open Idealize.ShloMosaic Idealize.ShloMosaic.ValueIdx

/-- A left fold that adds one term per list entry is the start plus the sum of the terms. -/
theorem foldl_add_eq {α M : Type*} [AddCommMonoid M] (g : α → M) (v : M) (l : List α) :
    l.foldl (fun r m => r + g m) v = v + (l.map g).sum := by
  induction l generalizing v with
  | nil => simp
  | cons a l ih => simp [ih, add_assoc]

variable {n w : ℕ}

/-- An index of a one-axis array is its one coordinate. -/
def idx1Equiv (n : Nat) : (⟨1, ![n]⟩ : Shape).Idx ≃ Fin n where
  toFun u := u 0
  invFun := ix1
  left_inv u := (eq_ix1 u).symm
  right_inv _ := rfl

/-- The operand read at a natural-number position, zero beyond its end. -/
def at0 (x : IVec ⟨1, ![n]⟩ w) (k : ℕ) : BitVec w := if hk : k < n then x (ix1 ⟨k, hk⟩) else 0

/-- Reflecting `[0, j]`: the entries at or below `j`, summed from `j` downwards, are the entries summed upwards. -/
theorem sum_reflect (x : IVec ⟨1, ![n]⟩ w) (j : Fin n) :
    ∑ t : Fin n, (if t.val ≤ j.val then at0 x (j.val - t.val) else 0) = ∑ q : Fin n with q ≤ j, x (ix1 q) := by
  rw [Finset.sum_filter]
  refine Finset.sum_nbij' (fun t => if h : t.val ≤ j.val then ⟨j.val - t.val, by omega⟩ else t)
    (fun t => if h : t.val ≤ j.val then ⟨j.val - t.val, by omega⟩ else t) ?_ ?_ ?_ ?_ ?_
  · intro _ _; exact Finset.mem_univ _
  · intro _ _; exact Finset.mem_univ _
  · intro t _
    by_cases h : t.val ≤ j.val
    · simp only [dif_pos h]
      have h' : j.val - t.val ≤ j.val := by omega
      simp only [dif_pos h']
      exact Fin.ext (by simp only; omega)
    · simp only [dif_neg h]
  · intro t _
    by_cases h : t.val ≤ j.val
    · simp only [dif_pos h]
      have h' : j.val - t.val ≤ j.val := by omega
      simp only [dif_pos h']
      exact Fin.ext (by simp only; omega)
    · simp only [dif_neg h]
  · intro t _
    by_cases h : t.val ≤ j.val
    · have h' : (⟨j.val - t.val, by omega⟩ : Fin n) ≤ j := Nat.sub_le _ _
      rw [if_pos h, dif_pos h, if_pos h']
      unfold at0
      rw [dif_pos (by omega)]
    · have h' : ¬ t ≤ j := h
      rw [if_neg h, dif_neg h, if_neg h']

/-- THE WINDOW REDUCTION IS THE RUNNING SUM: with a window of all `n` positions, stride one, `lo = n − 1` padding entries
    in front, an adding body and initial value zero, output `j` is `x 0 + … + x j`. -/
theorem reduceWindow_cumsum_apply (x : IVec ⟨1, ![n]⟩ w) (init : IVec ⟨0, ![]⟩ w) (lo : ℕ) (hlo : lo + 1 = n)
    (h : (⟨1, ![n]⟩ : Shape).ReduceWindows ![n] ![1] ![lo] ![0] ⟨1, ![n]⟩) (hu : 0 < (⟨0, ![]⟩ : Shape).numel)
    (hinit : init (Shape.Idx.first hu) = 0) (j : Fin n) :
    Host.reduceWindow IntOp.addi ![n] ![1] ![lo] ![0] x init h hu (ix1 j) = ∑ q : Fin n with q ≤ j, x (ix1 q) := by
  unfold Host.reduceWindow
  simp only [hinit]
  -- each window position's term, by the position's one coordinate
  have hterm : ∀ m : Fin (⟨1, ![n]⟩ : Shape).numel,
      (if h_1 : ∀ a : Fin 1, ![lo] a ≤ ((ix1 j (Fin.cast h.1.symm a)).val) * ![1] a + (((⟨1, ![n]⟩ : Shape).rowMajor.symm m a)).val
            ∧ ((ix1 j (Fin.cast h.1.symm a)).val) * ![1] a + (((⟨1, ![n]⟩ : Shape).rowMajor.symm m a)).val - ![lo] a < ![n] a
        then x fun a => ⟨((ix1 j (Fin.cast h.1.symm a)).val) * ![1] a + (((⟨1, ![n]⟩ : Shape).rowMajor.symm m a)).val - ![lo] a, (h_1 a).2⟩
        else (0 : BitVec w))
      = (if lo ≤ j.val + (((⟨1, ![n]⟩ : Shape).rowMajor.symm m) 0).val
          then at0 x (j.val + (((⟨1, ![n]⟩ : Shape).rowMajor.symm m) 0).val - lo) else 0) := by
    intro m
    have hm : (((⟨1, ![n]⟩ : Shape).rowMajor.symm m) 0).val < n := (((⟨1, ![n]⟩ : Shape).rowMajor.symm m) 0).isLt
    have hj := j.isLt
    by_cases hc : lo ≤ j.val + (((⟨1, ![n]⟩ : Shape).rowMajor.symm m) 0).val
    · rw [if_pos hc, dif_pos]
      · unfold at0
        rw [dif_pos (by omega)]
        congr 1
        funext a
        obtain rfl : a = 0 := Subsingleton.elim _ _
        refine Fin.ext ?_
        show j.val * 1 + (((⟨1, ![n]⟩ : Shape).rowMajor.symm m) 0).val - lo = j.val + (((⟨1, ![n]⟩ : Shape).rowMajor.symm m) 0).val - lo
        omega
      · intro a
        obtain rfl : a = 0 := Subsingleton.elim _ _
        show lo ≤ j.val * 1 + _ ∧ j.val * 1 + _ - lo < n
        omega
    · rw [if_neg hc, dif_neg]
      intro hall
      have := (hall 0).1
      apply hc
      have e : lo ≤ j.val * 1 + (((⟨1, ![n]⟩ : Shape).rowMajor.symm m) 0).val := this
      omega
  have hfun : (fun (r : BitVec w) (m : Fin (⟨1, ![n]⟩ : Shape).numel) => IntOp.addi r
      (if h_1 : ∀ a : Fin 1, ![lo] a ≤ ((ix1 j (Fin.cast h.1.symm a)).val) * ![1] a + (((⟨1, ![n]⟩ : Shape).rowMajor.symm m a)).val
            ∧ ((ix1 j (Fin.cast h.1.symm a)).val) * ![1] a + (((⟨1, ![n]⟩ : Shape).rowMajor.symm m a)).val - ![lo] a < ![n] a
        then x fun a => ⟨((ix1 j (Fin.cast h.1.symm a)).val) * ![1] a + (((⟨1, ![n]⟩ : Shape).rowMajor.symm m a)).val - ![lo] a, (h_1 a).2⟩
        else (0 : BitVec w)))
      = fun r m => r + (if lo ≤ j.val + (((⟨1, ![n]⟩ : Shape).rowMajor.symm m) 0).val
          then at0 x (j.val + (((⟨1, ![n]⟩ : Shape).rowMajor.symm m) 0).val - lo) else 0) := by
    funext r m
    rw [hterm m]
    rfl
  rw [hfun, foldl_add_eq, zero_add, ← Fin.sum_univ_def]
  -- the window positions are the operand's positions; read the window backwards
  rw [← Equiv.sum_comp (⟨1, ![n]⟩ : Shape).rowMajor]
  simp only [Equiv.symm_apply_apply]
  rw [← Equiv.sum_comp (idx1Equiv n).symm]
  rw [← sum_reflect, ← Equiv.sum_comp Fin.revPerm]
  refine Finset.sum_congr rfl fun k _ => ?_
  have hk := k.isLt
  have hj := j.isLt
  show (if lo ≤ j.val + (Fin.rev k).val then at0 x (j.val + (Fin.rev k).val - lo) else 0)
    = (if k.val ≤ j.val then at0 x (j.val - k.val) else 0)
  rw [Fin.val_rev]
  by_cases hc : k.val ≤ j.val
  · rw [if_pos hc, if_pos (by omega)]
    congr 1; omega
  · rw [if_neg hc, if_neg (by omega)]

end Cert.PrefixWindow

end
-- ==== Proof.LibEdgeOps.lean ====
/-
  Indexing by an edge list, read at an index: `x[idx]`, `x[idx, :]`, `zeros.at[idx].add(v)`, `zeros.at[idx, :].add(v)`.

  An integer array `idx` of `E` entries, laid out `[E, 1]`, names for each edge `e` a position of an array of extent `N`
  (or a row of an `[N, C]` array). A gather reads the named position, the index read signed and clamped into
  `[0, N − 1]`; an accumulating scatter adds update `e` at the named position, and drops it when the index, read
  signed, falls outside `[0, N)`. Over the extended reals the accumulated array at `j` is the operand at `j` plus the sum
  of the updates of the edges that name `j`.
-/
import Idealize.ShloMosaic.PureOps.Ideal
import Idealize.ShloMosaic.PureOps.Contract
import Idealize.ShloMosaic.Lib.ValueIdx

noncomputable section

namespace Cert.EdgeOps

open Idealize.ShloMosaic Idealize.ShloMosaic.ValueIdx

/-! ## Accumulating at positions of a one-axis array -/

/-- The dimension numbers of `x.at[idx].add(v)` for `x : [N]`, `idx : [E, 1]`, `v : [E]`. -/
abbrev addDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat}

theorem addDims_start (wf : ScatterDims.WF ⟨1, ![N]⟩ ⟨2, ![E, 1]⟩ ⟨1, ![E]⟩ [] [0] [0] 1) (idx : IVec ⟨2, ![E, 1]⟩ w) (e : Fin E) :
    (addDims N E wf).start (ix1 e) idx 0 = (idx (ix2 e (0 : Fin 1))).toInt := by
  unfold ScatterDims.start
  rw [dif_pos (show (0 : Fin 1) ∈ (addDims N E wf).scatterDimsToOperandDims from List.mem_singleton.mpr rfl)]
  congr 2
  funext b; refine Fin.ext ?_
  match b with
  | ⟨0, _⟩ => rfl
  | ⟨1, _⟩ => rfl

theorem addDims_window (wf : ScatterDims.WF ⟨1, ![N]⟩ ⟨2, ![E, 1]⟩ ⟨1, ![E]⟩ [] [0] [0] 1) (e : Fin E) :
    (addDims N E wf).window (ix1 e) 0 = 0 := by
  unfold ScatterDims.window
  rw [dif_neg]
  simp [ScatterDims.sKept, Shape.kept]

/-- WHERE UPDATE `e` LANDS: at the position its index names, when that is inside the array. -/
theorem addDims_resultIdx_eq_some_iff (wf : ScatterDims.WF ⟨1, ![N]⟩ ⟨2, ![E, 1]⟩ ⟨1, ![E]⟩ [] [0] [0] 1)
    (idx : IVec ⟨2, ![E, 1]⟩ w) (e : Fin E) (j : Fin N) :
    (addDims N E wf).resultIdx? (ix1 e) idx = some (ix1 j) ↔ (idx (ix2 e (0 : Fin 1))).toInt = (j.val : Int) := by
  unfold ScatterDims.resultIdx?
  have hs := addDims_start wf idx e
  have hw := addDims_window (N := N) wf e
  split
  · next h =>
    have h0 := h 0
    rw [hs, hw] at h0
    constructor
    · intro heq
      have := congrFun (Option.some.inj heq) 0
      have hv := congrArg Fin.val this
      simp only at hv
      rw [hs, hw] at hv
      simp only [Nat.cast_zero, add_zero] at hv h0
      show _ = ((ix1 j (0 : Fin 1)).val : Int)
      have h1 : ((idx (ix2 e (0 : Fin 1))).toInt.toNat : Int) = (idx (ix2 e (0 : Fin 1))).toInt := Int.toNat_of_nonneg h0.1
      exact h1.symm.trans (congrArg (fun n : Nat => (n : Int)) hv)
    · intro heq
      congr 1
      funext a
      obtain rfl : a = 0 := Subsingleton.elim _ _
      refine Fin.ext ?_
      show ((addDims N E wf).start (ix1 e) idx 0 + ((addDims N E wf).window (ix1 e) 0 : Int)).toNat = j.val
      rw [hs, hw, heq]; simp
  · next h =>
    constructor
    · intro heq; exact absurd heq (by simp)
    · intro heq
      exfalso; apply h
      intro a
      obtain rfl : a = 0 := Subsingleton.elim _ _
      rw [hs, hw, heq]
      have := j.isLt
      simp only [Nat.cast_zero, add_zero]
      exact ⟨by omega, by exact_mod_cast this⟩

/-- An index of a one-axis array is its one coordinate. -/
def idx1Equiv (n : Nat) : (⟨1, ![n]⟩ : Shape).Idx ≃ Fin n where
  toFun u := u 0
  invFun := ix1
  left_inv u := (eq_ix1 u).symm
  right_inv _ := rfl

/-- THE ACCUMULATED ARRAY AT `j`, over the extended reals: the operand there plus the updates of the edges that name `j`. -/
theorem scatterAdd_addDims_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (j : Fin N) :
    Host.scatterAdd (addDims N E wf) x idx upd (ix1 j)
      = x (ix1 j) + ∑ e : Fin E with (idx (ix2 e (0 : Fin 1))).toInt = (j.val : Int), upd (ix1 e) := by
  show Ideal.hostScatterAdd (addDims N E wf) x idx upd (ix1 j) = _
  unfold Ideal.hostScatterAdd
  congr 1
  refine Finset.sum_equiv (idx1Equiv E) (fun u => ?_) (fun u _ => ?_)
  · obtain ⟨e, rfl⟩ : ∃ e : Fin E, u = ix1 e := ⟨u 0, eq_ix1 u⟩
    simp only [Finset.mem_filter, Finset.mem_univ, true_and]
    exact addDims_resultIdx_eq_some_iff wf idx e j
  · obtain ⟨e, rfl⟩ : ∃ e : Fin E, u = ix1 e := ⟨u 0, eq_ix1 u⟩
    rfl

/-! ## The same accumulation as a fold of single updates (an integer `.at[idx].add(v)`: a histogram) -/

/-- A fold of single updates — entry `n` adds `val n` at the position `tgt n` names, or is dropped — leaves at `i₀` the
    start there plus the values of the entries that name `i₀`. -/
theorem foldl_update_apply {ι κ A : Type*} [DecidableEq ι] [AddCommMonoid A] (tgt : κ → Option ι) (val : κ → A)
    (l : List κ) (x : ι → A) (i₀ : ι) :
    (l.foldl (fun r n => match tgt n with
        | some i => fun i' => if i' = i then r i + val n else r i'
        | none => r) x) i₀
      = x i₀ + ((l.filter fun n => decide (tgt n = some i₀)).map val).sum := by
  induction l generalizing x with
  | nil => simp
  | cons a l ih =>
    rw [List.foldl_cons, ih]
    cases hta : tgt a with
    | none => simp [hta]
    | some i =>
      by_cases hi : i₀ = i
      · subst hi
        simp [hta, add_assoc]
      · have : ¬ (some i = some i₀) := fun h => hi (Option.some.inj h).symm
        simp [hta, hi, this]

/-- The sum over the entries a test keeps is the sum of the entries' values where the test holds, zero elsewhere. -/
theorem sum_filter_map {κ A : Type*} [AddCommMonoid A] (l : List κ) (p : κ → Bool) (val : κ → A) :
    ((l.filter p).map val).sum = (l.map fun n => if p n then val n else 0).sum := by
  induction l with
  | nil => rfl
  | cons a l ih => by_cases h : p a <;> simp [List.filter_cons, h, ih]

/-- THE FOLDED ACCUMULATION AT `j`: `Host.scatter` with an adding body, over a commutative monoid, leaves at `j` the operand
    there plus the updates of the edges that name `j`. -/
theorem scatter_add_addDims_apply {A : Type} [AddCommMonoid A] (wf : ScatterDims.WF ⟨1, ![N]⟩ ⟨2, ![E, 1]⟩ ⟨1, ![E]⟩ [] [0] [0] 1)
    (x : (⟨1, ![N]⟩ : Shape).Idx → A) (idx : IVec ⟨2, ![E, 1]⟩ w) (upd : (⟨1, ![E]⟩ : Shape).Idx → A) (j : Fin N) :
    Host.scatter (addDims N E wf) (fun a b => a + b) x idx upd (ix1 j)
      = x (ix1 j) + ∑ e : Fin E with (idx (ix2 e (0 : Fin 1))).toInt = (j.val : Int), upd (ix1 e) := by
  unfold Host.scatter
  have key := foldl_update_apply (fun n => (addDims N E wf).resultIdx? ((⟨1, ![E]⟩ : Shape).rowMajor.symm n) idx)
    (fun n => upd ((⟨1, ![E]⟩ : Shape).rowMajor.symm n)) (List.finRange (⟨1, ![E]⟩ : Shape).numel) x (ix1 j)
  beta_reduce
  refine Eq.trans ?_ (key.trans ?_)
  · congr!
    funext motive o h₁ h₂
    cases o <;> rfl
  congr 1
  rw [sum_filter_map, ← Fin.sum_univ_def, ← Finset.sum_filter]
  refine Finset.sum_equiv ((⟨1, ![E]⟩ : Shape).rowMajor.symm.trans (idx1Equiv E)) (fun n => ?_) (fun n _ => ?_)
  · obtain ⟨e, he⟩ : ∃ e : Fin E, (⟨1, ![E]⟩ : Shape).rowMajor.symm n = ix1 e := ⟨_, eq_ix1 _⟩
    simp only [Finset.mem_filter, Finset.mem_univ, true_and, decide_eq_true_eq, Equiv.trans_apply]
    rw [he]
    exact addDims_resultIdx_eq_some_iff wf idx e j
  · obtain ⟨e, he⟩ : ∃ e : Fin E, (⟨1, ![E]⟩ : Shape).rowMajor.symm n = ix1 e := ⟨_, eq_ix1 _⟩
    simp only [Equiv.trans_apply]
    rw [he]
    rfl

/-! ## Accumulating rows of a two-axis array -/

/-- The dimension numbers of `x.at[idx].add(v)` for `x : [N, C]`, `idx : [E, 1]`, `v : [E, C]`: update row `e` lands on row `idx e`. -/
abbrev addRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {C : Nat}

theorem addRows_start0 (wf : ScatterDims.WF ⟨2, ![N, C]⟩ ⟨2, ![E, 1]⟩ ⟨2, ![E, C]⟩ [1] [0] [0] 1) (idx : IVec ⟨2, ![E, 1]⟩ w)
    (e : Fin E) (o : Fin C) : (addRows N C E wf).start (ix2 e o) idx 0 = (idx (ix2 e (0 : Fin 1))).toInt := by
  unfold ScatterDims.start
  rw [dif_pos (show (0 : Fin 2) ∈ (addRows N C E wf).scatterDimsToOperandDims from List.mem_singleton.mpr rfl)]
  congr 2
  funext b; refine Fin.ext ?_
  match b with
  | ⟨0, _⟩ => rfl
  | ⟨1, _⟩ => rfl

theorem addRows_start1 (wf : ScatterDims.WF ⟨2, ![N, C]⟩ ⟨2, ![E, 1]⟩ ⟨2, ![E, C]⟩ [1] [0] [0] 1) (idx : IVec ⟨2, ![E, 1]⟩ w)
    (e : Fin E) (o : Fin C) : (addRows N C E wf).start (ix2 e o) idx 1 = 0 := by
  unfold ScatterDims.start
  rw [dif_neg]
  simp

theorem addRows_window0 (wf : ScatterDims.WF ⟨2, ![N, C]⟩ ⟨2, ![E, 1]⟩ ⟨2, ![E, C]⟩ [1] [0] [0] 1) (e : Fin E) (o : Fin C) :
    (addRows N C E wf).window (ix2 e o) 0 = 0 := by
  unfold ScatterDims.window
  rw [dif_neg]
  simp [ScatterDims.sKept, Shape.kept]

theorem addRows_window1 (wf : ScatterDims.WF ⟨2, ![N, C]⟩ ⟨2, ![E, 1]⟩ ⟨2, ![E, C]⟩ [1] [0] [0] 1) (e : Fin E) (o : Fin C) :
    (addRows N C E wf).window (ix2 e o) 1 = o.val := by
  unfold ScatterDims.window
  rw [dif_pos (by simp [ScatterDims.sKept, Shape.kept])]
  rfl

/-- WHERE UPDATE ENTRY (e, o') LANDS: on row `idx e`, same column, when the row is inside the array. -/
theorem addRows_resultIdx_eq_some_iff (wf : ScatterDims.WF ⟨2, ![N, C]⟩ ⟨2, ![E, 1]⟩ ⟨2, ![E, C]⟩ [1] [0] [0] 1)
    (idx : IVec ⟨2, ![E, 1]⟩ w) (e : Fin E) (o' : Fin C) (j : Fin N) (o : Fin C) :
    (addRows N C E wf).resultIdx? (ix2 e o') idx = some (ix2 j o)
      ↔ (idx (ix2 e (0 : Fin 1))).toInt = (j.val : Int) ∧ o' = o := by
  unfold ScatterDims.resultIdx?
  have hs0 := addRows_start0 wf idx e o'
  have hs1 := addRows_start1 wf idx e o'
  have hw0 := addRows_window0 (N := N) wf e o'
  have hw1 := addRows_window1 (N := N) wf e o'
  split
  · next h =>
    have h0 := h 0
    rw [hs0, hw0] at h0
    simp only [Nat.cast_zero, add_zero] at h0
    constructor
    · intro heq
      have e0 := congrArg Fin.val (congrFun (Option.some.inj heq) 0)
      have e1 := congrArg Fin.val (congrFun (Option.some.inj heq) 1)
      simp only at e0 e1
      rw [hs0, hw0] at e0
      rw [hs1, hw1] at e1
      simp only [Nat.cast_zero, add_zero, zero_add, Int.toNat_natCast] at e0 e1
      have h1 : ((idx (ix2 e (0 : Fin 1))).toInt.toNat : Int) = (idx (ix2 e (0 : Fin 1))).toInt := Int.toNat_of_nonneg h0.1
      exact ⟨h1.symm.trans (congrArg (fun n : Nat => (n : Int)) e0), Fin.ext e1⟩
    · rintro ⟨heq, rfl⟩
      congr 1
      funext a
      refine Fin.ext ?_
      match a with
      | ⟨0, _⟩ =>
        show ((addRows N C E wf).start (ix2 e o') idx 0 + ((addRows N C E wf).window (ix2 e o') 0 : Int)).toNat = j.val
        rw [hs0, hw0, heq]; simp
      | ⟨1, _⟩ =>
        show ((addRows N C E wf).start (ix2 e o') idx 1 + ((addRows N C E wf).window (ix2 e o') 1 : Int)).toNat = o'.val
        rw [hs1, hw1]; simp
  · next h =>
    constructor
    · intro heq; exact absurd heq (by simp)
    · rintro ⟨heq, rfl⟩
      exfalso; apply h
      intro a
      match a with
      | ⟨0, _⟩ =>
        show 0 ≤ (addRows N C E wf).start (ix2 e o') idx 0 + ((addRows N C E wf).window (ix2 e o') 0 : Int)
          ∧ (addRows N C E wf).start (ix2 e o') idx 0 + ((addRows N C E wf).window (ix2 e o') 0 : Int) < (N : Int)
        rw [hs0, hw0, heq]
        have := j.isLt
        simp only [Nat.cast_zero, add_zero]
        exact ⟨by omega, by exact_mod_cast this⟩
      | ⟨1, _⟩ =>
        show 0 ≤ (addRows N C E wf).start (ix2 e o') idx 1 + ((addRows N C E wf).window (ix2 e o') 1 : Int)
          ∧ (addRows N C E wf).start (ix2 e o') idx 1 + ((addRows N C E wf).window (ix2 e o') 1 : Int) < (C : Int)
        rw [hs1, hw1]
        have := o'.isLt
        simp only [zero_add]
        exact ⟨by omega, by exact_mod_cast this⟩

/-- THE ACCUMULATED ARRAY AT (j, o), over the extended reals: the operand there plus the entries, in column `o`, of the
    update rows of the edges that name row `j`. -/
theorem scatterAdd_addRows_apply {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (j : Fin N) (o : Fin C) :
    Host.scatterAdd (addRows N C E wf) x idx upd (ix2 j o)
      = x (ix2 j o) + ∑ e : Fin E with (idx (ix2 e (0 : Fin 1))).toInt = (j.val : Int), upd (ix2 e o) := by
  show Ideal.hostScatterAdd (addRows N C E wf) x idx upd (ix2 j o) = _
  unfold Ideal.hostScatterAdd
  congr 1
  symm
  refine Finset.sum_nbij (fun e => ix2 e o) ?_ ?_ ?_ (fun _ _ => rfl)
  · intro e he
    simp only [Finset.mem_filter, Finset.mem_univ, true_and] at he ⊢
    exact (addRows_resultIdx_eq_some_iff wf idx e o j o).mpr ⟨he, rfl⟩
  · intro a _ b _ hab
    have := congrFun hab 0
    exact this
  · intro u hu
    obtain ⟨e, o', rfl⟩ : ∃ (e : Fin E) (o' : Fin C), u = ix2 e o' := ⟨u 0, u 1, eq_ix2 u⟩
    simp only [Finset.coe_filter, Finset.mem_univ, true_and, Set.mem_setOf_eq] at hu
    obtain ⟨he, rfl⟩ := (addRows_resultIdx_eq_some_iff wf idx e o' j o).mp hu
    exact ⟨e, by simpa using he, rfl⟩

/-! ## Reading at the positions an edge list names -/

/-- The dimension numbers of `x[idx]` for `x : [N]`, `idx : [E, 1]`: result `[E]`. -/
abbrev takeDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `x[idx]` AT EDGE `e`: the operand at `idx e`, read signed and clamped into `[0, N − 1]`. -/
theorem gather_take1_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (takeDims1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (takeDims1 N E wf).start (ix1 e) idx 0 + (takeDims1 N E wf).batchCoord (ix1 e) 0 + (takeDims1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims1 N E wf).startIndexMap from List.mem_singleton.mpr rfl)]
  have hsi : (takeDims1 N E wf).siIdx (ix1 e) ⟨List.idxOf (0 : Fin 1) (takeDims1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx, :]` for `x : [N, C]`, `idx : [E, 1]`: result `[E, C]`, row `e` the operand's row `idx e`. -/
abbrev takeRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[idx, :]` AT (e, o): the operand at row `idx e` (read signed, clamped into `[0, N − 1]`), column `o`. -/
theorem gather_rows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (takeRows N C E wf) x idx (ix2 e o)
      = x (ix2 ⟨min (idx (ix2 e (0 : Fin 1))).toInt.toNat (N - 1), by omega⟩ o) := by
  unfold Host.gather
  congr 1
  funext a
  refine Fin.ext ?_
  match a with
  | ⟨0, _⟩ =>
    show (takeRows N C E wf).start (ix2 e o) idx 0 + (takeRows N C E wf).batchCoord (ix2 e o) 0 + (takeRows N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows N C E wf).startIndexMap from List.mem_singleton.mpr rfl)]
    have hsi : (takeRows N C E wf).siIdx (ix2 e o) ⟨List.idxOf (0 : Fin 2) (takeRows N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (takeRows N C E wf).start (ix2 e o) idx 1 + (takeRows N C E wf).batchCoord (ix2 e o) 1 + (takeRows N C E wf).offCoord (ix2 e o) 1 = o.val
    rw [GatherDims.batchCoord_eq_zero _ _ _ List.not_mem_nil]
    have hst : (takeRows N C E wf).start (ix2 e o) idx 1 = 0 := by
      unfold GatherDims.start
      rw [dif_neg]
      simp
    rw [hst]
    simp only [Nat.zero_add, Nat.add_zero]
    unfold GatherDims.offCoord
    rw [dif_pos (by simp [GatherDims.sKept, Shape.kept])]
    rfl

end Cert.EdgeOps

end
-- ==== Proof.RefHead.lean ====
/-
  What the head of the reference leaves in the three slot arrays.

  The head lists the nonzero positions of the adjacency matrix in row-major order: slot `k` below the number of
  nonzeros holds the row and the column of the `k`-th nonzero and validity 1; every later slot holds row 0, column 0
  and validity 0. Stated the way the tail uses it: every slot's row and column lie in `[0, 2048)`, its validity is 0 or
  1, and for every column `j` a sum over the slots whose column is `j` of a function of the slot's row, weighted by the
  validity, is the sum of the function over the rows `i` at which the matrix is nonzero in column `j`.
-/
import proofs.«117461_g8057358648341_cont_sun_m_1039_2_alg».proof.Proof.RefSlots
import proofs.«117461_g8057358648341_cont_sun_m_1039_2_alg».proof.Proof.LibNonzeroEnum
import proofs.«117461_g8057358648341_cont_sun_m_1039_2_alg».proof.Proof.LibPrefixWindow
import proofs.«117461_g8057358648341_cont_sun_m_1039_2_alg».proof.Proof.LibEdgeOps
import Idealize.ShloMosaic.PureOps.Ideal.Laws
import Idealize.ShloMosaic.Lib.Pipeline.Value
import Idealize.ShloMosaic.Lib.IdealHost

noncomputable section

namespace Cert.ReferenceIdeal.Head

open Cert.ReferenceIdeal Cert.ReferenceIdeal.Gen Cert.ReferenceIdeal.HandRun Idealize.ShloMosaic Idealize.ShloMosaic.TcCoe
open Idealize.SL.Sem Idealize.ShloMosaic.StableHlo Idealize.ShloMosaic.ValueIdx
open Cert.ReferenceIdeal.Stages

variable {F : FTy → Type} [FloatOps F]
set_option maxRecDepth 16384
/-- The running count: the window reduction of the flattened mask, widened to words. -/
theorem runcount_eq (V : Valuation τ sig (Elt F)) :
    after ops V (main_v2 : DevRef τ sig)
      = running (extui 32 (fun i => shapeCast S4194304 (after ops V (main_v1 : DevRef τ sig)) shapeCasts_S2048x2048_S4194304 i) natLt_1_32) := by
  unfold running; stage_eq 3 of (ops (F := F)); rfl

/-! ## Words -/

/-- A sum of words read as a natural is the sum of the words' naturals, reduced. -/
theorem toNat_sum_mod {ι : Type*} {w : ℕ} (s : Finset ι) (f : ι → BitVec w) :
    (∑ i ∈ s, f i).toNat = (∑ i ∈ s, (f i).toNat) % 2 ^ w := by
  induction s using Finset.cons_induction with
  | empty => simp
  | cons a s ha ih => rw [Finset.sum_cons, Finset.sum_cons, BitVec.toNat_add, ih, Nat.add_mod_mod]

/-- With no wrap the sum of words is the sum of their naturals. -/
theorem toNat_sum_of_lt {ι : Type*} {w : ℕ} (s : Finset ι) (f : ι → BitVec w) (h : ∑ i ∈ s, (f i).toNat < 2 ^ w) :
    (∑ i ∈ s, f i).toNat = ∑ i ∈ s, (f i).toNat := by
  rw [toNat_sum_mod, Nat.mod_eq_of_lt h]

/-- A word below `2^31` is not negative: its sign bit is clear and it reads signed as it reads unsigned. -/
theorem msb_of_lt (x : BitVec 32) (hx : x.toNat < 2 ^ 31) : x.msb = false := by
  rw [BitVec.msb_eq_false_iff_two_mul_lt]; omega

theorem toInt_of_lt (x : BitVec 32) (hx : x.toNat < 2 ^ 31) : x.toInt = (x.toNat : Int) :=
  BitVec.toInt_eq_toNat_of_msb (msb_of_lt x hx)

theorem slt_zero_of_lt (x : BitVec 32) (hx : x.toNat < 2 ^ 31) : x.slt 0#32 = false := by
  rw [BitVec.slt_eq_decide, toInt_of_lt x hx]
  simp

/-- The signed maximum with zero of a word that is not negative is the word. -/
theorem maxsi_zero (x : BitVec 32) (hx : x.toNat < 2 ^ 31) : IntOp.maxsi 0#32 x = x := by
  unfold IntOp.maxsi
  rw [slt_zero_of_lt x hx]; rfl

/-- "Below zero" is false at a word that is not negative. -/
theorem cmpi_slt_zero (x : BitVec 32) (hx : x.toNat < 2 ^ 31) : IntOp.cmpi .slt x 0#32 = 0#1 := by
  show BitVec.ofBool (x.slt 0#32) = 0#1
  rw [slt_zero_of_lt x hx]; rfl

/-- The sign word of a word. -/
def sgn (x : BitVec 32) : BitVec 32 := if x = 0 then 0 else if x.msb then -1 else 1

/-- The host's signed division and remainder of a word that is not negative by a positive word are the unsigned ones. -/
theorem divsi_host (x d : BitVec 32) (hx : x.toNat < 2 ^ 31) (hd0 : 0 < d.toNat) (hd : d.toNat < 2 ^ 31) :
    IntOp.divsi .host x d = x / d := by
  unfold IntOp.divsi
  have hne : ¬ IntOp.SDivCorner x d := by
    rintro (h | ⟨-, h⟩)
    · rw [h] at hd0; simp at hd0
    · rw [h] at hd; simp at hd
  rw [if_neg hne, BitVec.sdiv_eq, msb_of_lt x hx, msb_of_lt d hd]
  rfl

theorem remsi_host (x d : BitVec 32) (hx : x.toNat < 2 ^ 31) (hd0 : 0 < d.toNat) (hd : d.toNat < 2 ^ 31) :
    IntOp.remsi .host x d = x % d := by
  unfold IntOp.remsi
  have hne : ¬ IntOp.SDivCorner x d := by
    rintro (h | ⟨-, h⟩)
    · rw [h] at hd0; simp at hd0
    · rw [h] at hd; simp at hd
  rw [if_neg hne, BitVec.srem_eq, msb_of_lt x hx, msb_of_lt d hd]

/-- The floor division of words, as the program computes it. -/
def fdW (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

theorem sgn_pos (x : BitVec 32) (hx0 : x ≠ 0) (hx : x.toNat < 2 ^ 31) : sgn x = 1 := by
  unfold sgn; rw [if_neg hx0, msb_of_lt x hx]; rfl

theorem fdW_eq (x d : BitVec 32) (hx : x.toNat < 2 ^ 31) (hd0 : 0 < d.toNat) (hd : d.toNat < 2 ^ 31) :
    fdW x d = x / d := by
  unfold fdW
  have hd1 : d ≠ 0 := by rintro rfl; simp at hd0
  have hc : IntOp.andi (IntOp.cmpi .ne (sgn x) (sgn d)) (IntOp.cmpi .ne (IntOp.remsi .host x d) 0#32) = 0#1 := by
    by_cases hx0 : x = 0
    · have : IntOp.remsi .host x d = 0#32 := by rw [remsi_host x d hx hd0 hd, hx0]; simp
      rw [this]
      show _ &&& BitVec.ofBool (0#32 != 0#32) = 0#1
      simp
    · rw [sgn_pos x hx0 hx, sgn_pos d hd1 hd]
      show BitVec.ofBool ((1 : BitVec 32) != 1) &&& _ = 0#1
      simp
  rw [hc, select_zero, divsi_host x d hx hd0 hd]

/-- The floor remainder of words, as the program computes it (the divisor is not zero). -/
def frW (x d : BitVec 32) : BitVec 32 :=
  Scalar.select (IntOp.andi (IntOp.cmpi .ne (IntOp.cmpi .slt (IntOp.remsi .host x d) 0#32) (IntOp.cmpi .slt d 0#32))
      (IntOp.cmpi .ne (IntOp.remsi .host x d) 0#32))
    (IntOp.addi (IntOp.remsi .host x d) d) (IntOp.remsi .host x d)

theorem frW_eq (x d : BitVec 32) (hx : x.toNat < 2 ^ 31) (hd0 : 0 < d.toNat) (hd : d.toNat < 2 ^ 31) :
    frW x d = x % d := by
  unfold frW
  rw [remsi_host x d hx hd0 hd]
  have hr : (x % d).toNat < 2 ^ 31 := by
    rw [BitVec.toNat_umod]; exact lt_of_le_of_lt (Nat.mod_le _ _) hx
  rw [cmpi_slt_zero _ hr, cmpi_slt_zero d hd]
  have : IntOp.cmpi .ne (0#1) (0#1) = 0#1 := rfl
  rw [this]
  show Scalar.select (0#1 &&& _) _ _ = _
  rw [BitVec.zero_and, select_zero]

/-! ## Sums over an initial segment -/

/-- A sum over the positions of `Fin n` at or below `p` is the sum over `range (p + 1)`. -/
theorem sum_fin_le {A : Type*} [AddCommMonoid A] (n : ℕ) (f : ℕ → A) (p : Fin n) :
    ∑ q : Fin n with q ≤ p, f q.val = ∑ q ∈ Finset.range (p.val + 1), f q := by
  rw [Finset.sum_filter]
  refine Eq.trans (Finset.sum_congr rfl fun q _ => ?_)
    ((Fin.sum_univ_eq_sum_range (fun q => if q ≤ p.val then f q else 0) n).trans ?_)
  · rfl
  rw [← Finset.sum_filter]
  congr 1
  ext q
  simp only [Finset.mem_filter, Finset.mem_range]
  have := p.isLt
  omega

/-- The number of positions of `Fin n` whose value passes a test, as a sum of ones. -/
theorem sum_fin_filter_one (n : ℕ) (t : ℕ → Prop) [DecidablePred t] :
    ∑ e : Fin n with t e.val, 1 = Finset.card {p ∈ Finset.range n | t p} := by
  rw [Finset.sum_filter, Finset.card_filter]
  exact Fin.sum_univ_eq_sum_range (fun p => if t p then 1 else 0) n

/-! ## The list of nonzeros -/

theorem numel_eq : S2048x2048.numel = 4194304 := by decide

/-- The matrix index at a flat position. -/
def cell (p : Fin 4194304) : S2048x2048.Idx := S2048x2048.rowMajor.symm (Fin.cast numel_eq.symm p)

theorem rowMajor_cell (p : Fin 4194304) : (S2048x2048.rowMajor (cell p)).val = p.val := by
  unfold cell; rw [Equiv.apply_symm_apply]; rfl

section
variable (V : Valuation τ sig (Elt Ideal))

/-- The flat position `q` is inside the matrix and the matrix is not zero there. -/
def nz (q : ℕ) : Prop := ∃ h : q < 4194304, adjOf V (cell ⟨q, h⟩) ≠ 0

instance nzDec : DecidablePred (nz V) := fun _ => Classical.propDecidable _

/-- The mask's bit at a flat position, as a natural. -/
theorem mask_toNat (p : Fin 4194304) :
    ((after ops V (main_v1 : DevRef τ sig) : IVec S2048x2048 1) (cell p)).toNat = if nz V p.val then 1 else 0 := by
  rw [mask_eq]
  show (Ideal.cmp .une (adjOf V (cell p)) (Ideal.ofBits .f32 0x00000000#32)).toNat = _
  rw [Ideal.ofBits_zero_f32]
  show (BitVec.ofBool (decide (adjOf V (cell p) ≠ 0))).toNat = _
  by_cases h : adjOf V (cell p) = 0
  · have hn : ¬ nz V p.val := fun ⟨_, h'⟩ => h' h
    rw [if_neg hn]; simp [h]
  · have hn : nz V p.val := ⟨p.isLt, h⟩
    rw [if_pos hn]; simp [h]

/-- The flattened mask, widened to words. -/
def maskFlat : IVec S4194304 32 :=
  extui 32 (fun i => shapeCast S4194304 (after ops V (main_v1 : DevRef τ sig)) shapeCasts_S2048x2048_S4194304 i) natLt_1_32

theorem runcount_eq' : after ops V (main_v2 : DevRef τ sig) = running (maskFlat V) := runcount_eq V

/-- The running sum at a position is the sum of the entries at or before it. -/
theorem running_apply (m : IVec S4194304 32) (j : Fin 4194304) :
    running m (ix1 j) = ∑ q : Fin 4194304 with q ≤ j, m (ix1 q) := by
  unfold running
  exact Cert.PrefixWindow.reduceWindow_cumsum_apply m _ 4194303 rfl _ _ rfl j

theorem maskFlat_toNat (q : Fin 4194304) : (maskFlat V (ix1 q)).toNat = if nz V q.val then 1 else 0 := by
  show (((shapeCast S4194304 (after ops V (main_v1 : DevRef τ sig)) shapeCasts_S2048x2048_S4194304 (ix1 q)) : BitVec 1).setWidth 32).toNat = _
  rw [shapeCast_apply _ _ (ix1 q) (cell q) (by rw [rowMajor_cell, Shape.rowMajor_val_one]), BitVec.toNat_setWidth, mask_toNat]
  split <;> rfl

/-- The running count of the nonzeros up to and including a position. -/
abbrev cnt (p : ℕ) : ℕ := Nat.count (nz V) (p + 1)

theorem cnt_le (p : ℕ) (hp : p < 4194304) : cnt V p ≤ 4194304 :=
  (Nat.count_le (p := nz V) (n := p + 1)).trans (by omega)

/-- THE RUNNING COUNT: the word at position `p` is the number of nonzeros at or before `p`. -/
theorem runcount_toNat (p : Fin 4194304) :
    ((after ops V (main_v2 : DevRef τ sig) : IVec S4194304 32) (ix1 p)).toNat = cnt V p.val := by
  rw [runcount_eq', running_apply]
  have hsum : ∑ q : Fin 4194304 with q ≤ p, (maskFlat V (ix1 q)).toNat = cnt V p.val := by
    simp only [maskFlat_toNat]
    rw [sum_fin_le 4194304 (fun q => if nz V q then 1 else 0) p]
    unfold cnt
    rw [Nat.count_eq_card_filter_range, Finset.card_filter]
  rw [toNat_sum_of_lt _ _ (by rw [hsum]; have := cnt_le V p.val p.isLt; omega), hsum]
end

section
variable (V : Valuation τ sig (Elt Ideal))

/-- The index the histogram's scatter uses at an entry is the count there, when the count is not negative. -/
theorem histIdx_apply (c : IVec S4194304 32) (e : Fin 4194304) (hc : (c (ix1 e)).toNat < 2 ^ 31) :
    (broadcastInDim S4194304x1 ![0] bcast_S4194304_S4194304x1_0
      (select (cmpi .slt (maxsi (broadcastInDim S4194304 ![] bcast_S_S4194304 (id (constantI S_ 32 0#32))) c) zeros32)
        (addi (maxsi (broadcastInDim S4194304 ![] bcast_S_S4194304 (id (constantI S_ 32 0#32))) c)
          (broadcastInDim S4194304 ![] bcast_S_S4194304 (constantI S_ 32 4194304#32)))
        (maxsi (broadcastInDim S4194304 ![] bcast_S_S4194304 (id (constantI S_ 32 0#32))) c))) (ix2 e (0 : Fin 1))
    = c (ix1 e) := by
  rw [broadcastInDim_apply _ _ _ (ix2 e (0 : Fin 1)) (ix1 e)
    (by intro a; obtain rfl : a = 0 := Subsingleton.elim _ _; exact (if_neg (by decide)).symm)]
  show Scalar.select (IntOp.cmpi .slt (IntOp.maxsi 0#32 (c (ix1 e))) 0#32)
    (IntOp.addi (IntOp.maxsi 0#32 (c (ix1 e))) 4194304#32) (IntOp.maxsi 0#32 (c (ix1 e))) = _
  rw [maxsi_zero _ hc, cmpi_slt_zero _ hc, select_zero]

/-- THE HISTOGRAM: slot `k` holds the number of entries whose count is `k`. -/
theorem hist_apply (c : IVec S4194304 32) (hc : ∀ e : Fin 4194304, (c (ix1 e)).toNat < 2 ^ 31) (k : Fin 4194304) :
    hist c (ix1 k) = ∑ e : Fin 4194304 with (c (ix1 e)).toNat = k.val, 1#32 := by
  unfold hist
  refine (Cert.EdgeOps.scatter_add_addDims_apply (A := BitVec 32)
    (scatter_S4194304_S4194304x1_S4194304_n_0_0_1).wf zeros32 _ _ k).trans ?_
  rw [show zeros32 (ix1 k) = 0#32 from rfl, BitVec.zero_add]
  refine Finset.sum_congr ?_ (fun e _ => rfl)
  ext e
  simp only [Finset.mem_filter, Finset.mem_univ, true_and]
  rw [histIdx_apply c e (hc e), toInt_of_lt _ (hc e)]
  exact Nat.cast_inj

theorem runcount_lt (e : Fin 4194304) :
    ((after ops V (main_v2 : DevRef τ sig) : IVec S4194304 32) (ix1 e)).toNat < 2 ^ 31 := by
  rw [runcount_toNat]; have := cnt_le V e.val e.isLt; omega

theorem hist_toNat (k : Fin 4194304) :
    ((after ops V (main_v12 : DevRef τ sig) : IVec S4194304 32) (ix1 k)).toNat
      = Finset.card {p ∈ Finset.range 4194304 | cnt V p = k.val} := by
  rw [hist_eq, hist_apply _ (runcount_lt V) k]
  have hs : ∑ e : Fin 4194304 with ((after ops V (main_v2 : DevRef τ sig) : IVec S4194304 32) (ix1 e)).toNat = k.val, (1#32).toNat
      = Finset.card {p ∈ Finset.range 4194304 | cnt V p = k.val} := by
    have hf : (Finset.univ.filter fun e : Fin 4194304 =>
          ((after ops V (main_v2 : DevRef τ sig) : IVec S4194304 32) (ix1 e)).toNat = k.val)
        = Finset.univ.filter fun e : Fin 4194304 => cnt V e.val = k.val :=
      Finset.filter_congr fun e _ => by rw [runcount_toNat]
    rw [hf]
    exact sum_fin_filter_one 4194304 (fun p => cnt V p = k.val)
  have hle : Finset.card {p ∈ Finset.range 4194304 | cnt V p = k.val} ≤ 4194304 :=
    (Finset.card_filter_le _ _).trans (by rw [Finset.card_range])
  rw [toNat_sum_of_lt _ _ (by rw [hs]; omega), hs]

/-- THE LIST: slot `k` holds the number of positions whose count is at most `k`. -/
theorem list_toNat (k : Fin 4194304) :
    ((after ops V (main_v13 : DevRef τ sig) : IVec S4194304 32) (ix1 k)).toNat
      = Finset.card {p ∈ Finset.range 4194304 | cnt V p ≤ k.val} := by
  rw [slots_eq, running_apply]
  have hs : ∑ q : Fin 4194304 with q ≤ k, ((after ops V (main_v12 : DevRef τ sig) : IVec S4194304 32) (ix1 q)).toNat
      = Finset.card {p ∈ Finset.range 4194304 | cnt V p ≤ k.val} := by
    rw [Finset.sum_congr rfl (fun q _ => hist_toNat V q)]
    rw [sum_fin_le 4194304 (fun q => Finset.card {p ∈ Finset.range 4194304 | cnt V p = q}) k]
    exact Cert.NonzeroEnum.sum_hist_eq_card_le _ _ _
  have hle : Finset.card {p ∈ Finset.range 4194304 | cnt V p ≤ k.val} ≤ 4194304 :=
    (Finset.card_filter_le _ _).trans (by rw [Finset.card_range])
  rw [toNat_sum_of_lt _ _ (by rw [hs]; omega), hs]

/-- Below the number of nonzeros, slot `k` holds the flat position of the `k`-th nonzero. -/
theorem list_nth (k : Fin 4194304) (hk : k.val < Nat.count (nz V) 4194304) :
    ((after ops V (main_v13 : DevRef τ sig) : IVec S4194304 32) (ix1 k)).toNat = Nat.nth (nz V) k.val := by
  rw [list_toNat]
  exact Cert.NonzeroEnum.card_count_le hk
end

section
variable (V : Valuation τ sig (Elt Ideal))

/-- The count of ones of a mask is the sum of its bits over the flat positions. -/
theorem countOnes_apply (m : IVec S2048x2048 1) (j : S_.Idx) :
    countOnes m j = ∑ n : Fin S2048x2048.numel, (m (S2048x2048.rowMajor.symm n)).setWidth 32 := by
  unfold countOnes Host.reduce
  rw [List.filter_eq_self.2 (fun n _ => decide_eq_true (Subsingleton.elim _ _))]
  refine (Cert.PrefixWindow.foldl_add_eq (fun n => (m (S2048x2048.rowMajor.symm n)).setWidth 32) _ _).trans ?_
  rw [← Fin.sum_univ_def]
  exact BitVec.zero_add _

/-- THE TOTAL: the count of ones of the mask is the number of nonzeros. -/
theorem total_toNat (j : S_.Idx) :
    (countOnes (after ops V (main_v1 : DevRef τ sig)) j).toNat = Nat.count (nz V) 4194304 := by
  rw [countOnes_apply]
  have hterm : ∀ n : Fin S2048x2048.numel,
      (((after ops V (main_v1 : DevRef τ sig) : IVec S2048x2048 1) (S2048x2048.rowMajor.symm n)).setWidth 32).toNat
        = if nz V n.val then 1 else 0 := by
    intro n
    have h := mask_toNat V (Fin.cast numel_eq n)
    have hc : cell (Fin.cast numel_eq n) = S2048x2048.rowMajor.symm n := rfl
    rw [hc] at h
    rw [BitVec.toNat_setWidth, h]
    show (if nz V n.val then 1 else 0) % 2 ^ 32 = _
    split <;> rfl
  have hs : ∑ n : Fin S2048x2048.numel,
      (((after ops V (main_v1 : DevRef τ sig) : IVec S2048x2048 1) (S2048x2048.rowMajor.symm n)).setWidth 32).toNat
        = Nat.count (nz V) 4194304 := by
    rw [Finset.sum_congr rfl (fun n _ => hterm n),
      Fin.sum_univ_eq_sum_range (fun q => if nz V q then 1 else 0) S2048x2048.numel, numel_eq,
      Nat.count_eq_card_filter_range, Finset.card_filter]
  have hle : Nat.count (nz V) 4194304 ≤ 4194304 := Nat.count_le _
  rw [toNat_sum_of_lt _ _ (by rw [hs]; omega), hs]

/-- The floor division and remainder at a slot are the words' ones. -/
theorem floorDiv_apply (x : IVec S4194304 32) (d : BitVec 32) (k : Fin 4194304) :
    floorDiv x (constantI S_ 32 d) (ix1 k) = fdW (x (ix1 k)) d := rfl

theorem floorRem_apply (x : IVec S4194304 32) (k : Fin 4194304) :
    floorRem x (constantI S_ 32 2048#32) (ix1 k) = frW (x (ix1 k)) 2048#32 := rfl
end

section
variable (V : Valuation τ sig (Elt Ideal))

theorem total_le : Nat.count (nz V) 4194304 ≤ 4194304 := Nat.count_le _

theorem ofNat_toNat_lt (k : Fin 4194304) : (BitVec.ofNat 32 k.val).toNat = k.val := by
  rw [BitVec.toNat_ofNat]; exact Nat.mod_eq_of_lt (by have := k.isLt; omega)

theorem total_lt (j : S_.Idx) : (countOnes (after ops V (main_v1 : DevRef τ sig)) j).toNat < 2 ^ 31 := by
  rw [total_toNat]; have := total_le V; omega

theorem ofNat_lt (k : Fin 4194304) : (BitVec.ofNat 32 k.val).toNat < 2 ^ 31 := by
  rw [ofNat_toNat_lt]; have := k.isLt; omega

/-- "This slot is past the list": the comparison of the slot's number with the total. -/
theorem past_apply (k : Fin 4194304) :
    (after ops V (main_v22 : DevRef τ sig) : IVec S4194304 1) (ix1 k)
      = BitVec.ofBool (decide (Nat.count (nz V) 4194304 ≤ k.val)) := by
  rw [past_eq, count_eq]
  show IntOp.cmpi .sge (BitVec.ofNat 32 k.val)
    (broadcastInDim S4194304 ![] bcast_S_S4194304 (countOnes (after ops V (main_v1 : DevRef τ sig))) (ix1 k)) = _
  rw [broadcastInDim_scalar_apply]
  show BitVec.ofBool ((countOnes (after ops V (main_v1 : DevRef τ sig)) ix0).sle (BitVec.ofNat 32 k.val)) = _
  rw [BitVec.sle_eq_decide, toInt_of_lt _ (total_lt V ix0), toInt_of_lt _ (ofNat_lt k), total_toNat, ofNat_toNat_lt]
  exact congrArg BitVec.ofBool (decide_eq_decide.2 Nat.cast_le)

/-- The validity of a slot: one below the total, zero from the total on. -/
theorem valid_apply (k : Fin 4194304) :
    valSlots V (ix1 k) = if k.val < Nat.count (nz V) 4194304 then 1 else 0 := by
  show (after ops V (main_v29 : DevRef τ sig) : S4194304.Idx → EReal) (ix1 k) = _
  rw [valid_eq, ← mask_eq]
  show (((IntOp.cmpi .slt (BitVec.ofNat 32 k.val)
    (broadcastInDim S4194304 ![] bcast_S_S4194304 (countOnes (after ops V (main_v1 : DevRef τ sig))) (ix1 k))).toNat : ℝ) : EReal) = _
  rw [broadcastInDim_scalar_apply]
  show (((BitVec.ofBool ((BitVec.ofNat 32 k.val).slt (countOnes (after ops V (main_v1 : DevRef τ sig)) ix0))).toNat : ℝ) : EReal) = _
  rw [BitVec.slt_eq_decide, toInt_of_lt _ (total_lt V ix0), toInt_of_lt _ (ofNat_lt k), total_toNat, ofNat_toNat_lt]
  by_cases h : k.val < Nat.count (nz V) 4194304
  · rw [if_pos h, decide_eq_true (Nat.cast_lt.2 h)]
    show (((1 : ℕ) : ℝ) : EReal) = 1
    simp
  · rw [if_neg h, decide_eq_false (fun h' => h (Nat.cast_lt.1 h'))]
    show (((0 : ℕ) : ℝ) : EReal) = 0
    simp

theorem fdW_toNat (x d : BitVec 32) (hx : x.toNat < 2 ^ 31) (hd0 : 0 < d.toNat) (hd : d.toNat < 2 ^ 31) :
    (fdW x d).toNat = x.toNat / d.toNat := by rw [fdW_eq x d hx hd0 hd, BitVec.toNat_udiv]

theorem frW_toNat (x d : BitVec 32) (hx : x.toNat < 2 ^ 31) (hd0 : 0 < d.toNat) (hd : d.toNat < 2 ^ 31) :
    (frW x d).toNat = x.toNat % d.toNat := by rw [frW_eq x d hx hd0 hd, BitVec.toNat_umod]

/-- BELOW THE TOTAL slot `k` holds the row and the column of the `k`-th nonzero, and validity one. -/
theorem slot_lt (k : Fin 4194304) (hk : k.val < Nat.count (nz V) 4194304) :
    (rowSlots V (ix1 k)).toNat = Nat.nth (nz V) k.val / 2048
    ∧ (colSlots V (ix1 k)).toNat = Nat.nth (nz V) k.val % 2048 ∧ valSlots V (ix1 k) = 1 := by
  have hp : Nat.nth (nz V) k.val < 4194304 := Cert.NonzeroEnum.nth_lt hk
  have hF := list_nth V k hk
  have hF31 : ((after ops V (main_v13 : DevRef τ sig) : IVec S4194304 32) (ix1 k)).toNat < 2 ^ 31 := by rw [hF]; omega
  have hpast : (after ops V (main_v22 : DevRef τ sig) : IVec S4194304 1) (ix1 k) = 0#1 := by
    rw [past_apply, decide_eq_false (by omega)]; rfl
  have h2048 : (2048#32).toNat = 2048 := by decide
  have h1 : (1#32).toNat = 1 := by decide
  have hq : ((after ops V (main_v14 : DevRef τ sig) : IVec S4194304 32) (ix1 k)).toNat = Nat.nth (nz V) k.val / 2048 := by
    rw [quot_eq, floorDiv_apply, fdW_toNat _ _ hF31 (by decide) (by decide), hF, h2048]
  have hq1 : ((after ops V (main_v16 : DevRef τ sig) : IVec S4194304 32) (ix1 k)).toNat = Nat.nth (nz V) k.val := by
    rw [quot1_eq, floorDiv_apply, fdW_toNat _ _ hF31 (by decide) (by decide), hF, h1, Nat.div_one]
  refine ⟨?_, ?_, ?_⟩
  · show ((after ops V (main_v23 : DevRef τ sig) : IVec S4194304 32) (ix1 k)).toNat = _
    rw [row_eq]
    show (Scalar.select ((after ops V (main_v22 : DevRef τ sig) : IVec S4194304 1) (ix1 k)) 0#32
      ((after ops V (main_v15 : DevRef τ sig) : IVec S4194304 32) (ix1 k))).toNat = _
    rw [hpast, select_zero, rowRaw_eq, floorRem_apply, frW_toNat _ _ (by rw [hq]; omega) (by decide) (by decide), hq, h2048]
    omega
  · show ((after ops V (main_v24 : DevRef τ sig) : IVec S4194304 32) (ix1 k)).toNat = _
    rw [col_eq]
    show (Scalar.select ((after ops V (main_v22 : DevRef τ sig) : IVec S4194304 1) (ix1 k)) 0#32
      ((after ops V (main_v17 : DevRef τ sig) : IVec S4194304 32) (ix1 k))).toNat = _
    rw [hpast, select_zero, colRaw_eq, floorRem_apply, frW_toNat _ _ (by rw [hq1]; omega) (by decide) (by decide), hq1, h2048]
  · rw [valid_apply, if_pos hk]

/-- FROM THE TOTAL ON every slot holds row zero, column zero and validity zero. -/
theorem slot_ge (k : Fin 4194304) (hk : Nat.count (nz V) 4194304 ≤ k.val) :
    rowSlots V (ix1 k) = 0#32 ∧ colSlots V (ix1 k) = 0#32 ∧ valSlots V (ix1 k) = 0 := by
  have hpast : (after ops V (main_v22 : DevRef τ sig) : IVec S4194304 1) (ix1 k) = 1#1 := by
    rw [past_apply, decide_eq_true hk]; rfl
  refine ⟨?_, ?_, ?_⟩
  · show (after ops V (main_v23 : DevRef τ sig) : IVec S4194304 32) (ix1 k) = _
    rw [row_eq]
    show Scalar.select ((after ops V (main_v22 : DevRef τ sig) : IVec S4194304 1) (ix1 k)) 0#32 _ = _
    rw [hpast, select_one]
  · show (after ops V (main_v24 : DevRef τ sig) : IVec S4194304 32) (ix1 k) = _
    rw [col_eq]
    show Scalar.select ((after ops V (main_v22 : DevRef τ sig) : IVec S4194304 1) (ix1 k)) 0#32 _ = _
    rw [hpast, select_one]
  · rw [valid_apply, if_neg (by omega)]
end

section
variable (V : Valuation τ sig (Elt Ideal))

/-- The flat positions and the matrix indices correspond. -/
def cellEquiv : Fin 4194304 ≃ S2048x2048.Idx := (finCongr numel_eq.symm).trans S2048x2048.rowMajor.symm

/-- The flat position of the matrix index `(i, b)` is `2048 i + b`. -/
theorem cellEquiv_symm_ix2 (i b : Fin 2048) : (cellEquiv.symm (ix2 i b)).val = i.val * 2048 + b.val := by
  show (S2048x2048.rowMajor (ix2 i b)).val = _
  rw [Shape.rowMajor_val_two]; rfl

theorem nz_cell (u : S2048x2048.Idx) : nz V (cellEquiv.symm u).val ↔ adjOf V u ≠ 0 := by
  have hu : cell ⟨(cellEquiv.symm u).val, (cellEquiv.symm u).isLt⟩ = u := cellEquiv.apply_symm_apply u
  constructor
  · rintro ⟨h, hne⟩
    rwa [hu] at hne
  · intro hne
    refine ⟨(cellEquiv.symm u).isLt, ?_⟩
    rwa [hu]

/-- The sum over the nonzero flat positions in column `j` is the sum over the rows where column `j` is nonzero. -/
theorem nz_sum (j : Fin 2048) (g : ℕ → EReal) :
    ∑ p ∈ Finset.range 4194304 with nz V p, (if p % 2048 = j.val then g (p / 2048) else 0)
      = ∑ i : Fin 2048 with adjOf V (ix2 i j) ≠ 0, g i.val := by
  rw [Finset.sum_filter, Finset.sum_filter]
  rw [← Fin.sum_univ_eq_sum_range (fun p => if nz V p then (if p % 2048 = j.val then g (p / 2048) else 0) else 0) 4194304]
  rw [← Equiv.sum_comp cellEquiv.symm
    (fun p : Fin 4194304 => if nz V p.val then (if p.val % 2048 = j.val then g (p.val / 2048) else 0) else 0)]
  rw [sum_idx2]
  refine Finset.sum_congr rfl fun i _ => ?_
  have hn : ∀ b : Fin 2048, (cellEquiv.symm (ix2 i b)).val % 2048 = b.val ∧ (cellEquiv.symm (ix2 i b)).val / 2048 = i.val := by
    intro b; rw [cellEquiv_symm_ix2]; have := b.isLt; omega
  rw [Finset.sum_eq_single j]
  · rw [(hn j).1, (hn j).2, if_pos rfl]
    by_cases h : adjOf V (ix2 i j) ≠ 0
    · rw [if_pos h, if_pos ((nz_cell V _).2 h)]
    · rw [if_neg h, if_neg (fun h' => h ((nz_cell V _).1 h'))]
  · intro b _ hb
    rw [(hn b).1, if_neg (fun h => hb (Fin.ext h)), ite_self]
  · intro h; exact absurd (Finset.mem_univ j) h
end

/-- Rows, columns and validities of the list slots are in range. -/
theorem slots_in_range (V : Valuation τ sig (Elt Ideal)) (k : Fin 4194304) :
    0 ≤ (rowSlots V (ix1 k)).toInt ∧ (rowSlots V (ix1 k)).toInt < 2048
    ∧ 0 ≤ (colSlots V (ix1 k)).toInt ∧ (colSlots V (ix1 k)).toInt < 2048
    ∧ (valSlots V (ix1 k) = 0 ∨ valSlots V (ix1 k) = 1) := by
  by_cases hk : k.val < Nat.count (nz V) 4194304
  · obtain ⟨hr, hc, hv⟩ := slot_lt V k hk
    have hp : Nat.nth (nz V) k.val < 4194304 := Cert.NonzeroEnum.nth_lt hk
    have hr' : (rowSlots V (ix1 k)).toNat < 2 ^ 31 := by rw [hr]; omega
    have hc' : (colSlots V (ix1 k)).toNat < 2 ^ 31 := by rw [hc]; omega
    rw [toInt_of_lt _ hr', toInt_of_lt _ hc', hr, hc, hv]
    refine ⟨?_, ?_, ?_, ?_, Or.inr rfl⟩ <;> omega
  · obtain ⟨hr, hc, hv⟩ := slot_ge V k (not_lt.mp hk)
    rw [hr, hc, hv]
    exact ⟨by decide, by decide, by decide, by decide, Or.inl rfl⟩

/-- THE SLOTS LIST THE NONZEROS: a validity-weighted sum over the slots of column `j` of a function of the slot's row
    is the sum of the function over the rows where column `j` of the matrix is nonzero. -/
theorem slots_sum (V : Valuation τ sig (Elt Ideal)) (j : Fin 2048) (g : ℕ → EReal) :
    ∑ k : Fin 4194304 with (colSlots V (ix1 k)).toInt = (j.val : Int), g (rowSlots V (ix1 k)).toInt.toNat * valSlots V (ix1 k)
      = ∑ i : Fin 2048 with adjOf V (ix2 i j) ≠ 0, g i.val := by
  have hterm : ∀ k : Fin 4194304,
      (if (colSlots V (ix1 k)).toInt = (j.val : Int) then g (rowSlots V (ix1 k)).toInt.toNat * valSlots V (ix1 k) else 0)
        = (fun k' : ℕ => if k' < Nat.count (nz V) 4194304
            then (if Nat.nth (nz V) k' % 2048 = j.val then g (Nat.nth (nz V) k' / 2048) else 0) else 0) k.val := by
    intro k
    by_cases hk : k.val < Nat.count (nz V) 4194304
    · obtain ⟨hr, hc, hv⟩ := slot_lt V k hk
      have hp : Nat.nth (nz V) k.val < 4194304 := Cert.NonzeroEnum.nth_lt hk
      have hr' : (rowSlots V (ix1 k)).toNat < 2 ^ 31 := by rw [hr]; omega
      have hc' : (colSlots V (ix1 k)).toNat < 2 ^ 31 := by rw [hc]; omega
      rw [toInt_of_lt _ hr', toInt_of_lt _ hc', hr, hc, hv, mul_one, Int.toNat_natCast]
      show _ = if k.val < Nat.count (nz V) 4194304 then _ else 0
      rw [if_pos hk]
      exact if_congr Nat.cast_inj rfl rfl
    · obtain ⟨hr, hc, hv⟩ := slot_ge V k (not_lt.mp hk)
      rw [hv, mul_zero, ite_self]
      show _ = if k.val < Nat.count (nz V) 4194304 then _ else 0
      rw [if_neg hk]
  rw [Finset.sum_filter, Finset.sum_congr rfl (fun k _ => hterm k)]
  rw [Fin.sum_univ_eq_sum_range (fun k' : ℕ => if k' < Nat.count (nz V) 4194304
      then (if Nat.nth (nz V) k' % 2048 = j.val then g (Nat.nth (nz V) k' / 2048) else 0) else 0) 4194304]
  rw [← Finset.sum_filter]
  have hrange : (Finset.range 4194304).filter (fun k' => k' < Nat.count (nz V) 4194304)
      = Finset.range (Nat.count (nz V) 4194304) := by
    ext q; simp only [Finset.mem_filter, Finset.mem_range]; have := total_le V; omega
  rw [hrange, Cert.NonzeroEnum.sum_nth_eq_sum_filter (P := nz V) (M := 4194304)
    (fun p => if p % 2048 = j.val then g (p / 2048) else 0)]
  exact nz_sum V j g

end Cert.ReferenceIdeal.Head

end
-- ==== Proof.RefEdges.lean ====
/-
  The edge list read at an index, and a sum over all edges split into its three stretches.

  The edge list has 8390656 entries: the 4194304 list slots in reverse order, the same again, then one self-loop per
  node. Entry `k` of the first stretch and entry `4194304 + k` of the second read slot `4194303 − k`; entry
  `8388608 + t` is node `t` itself with weight one. A sum over all entries of any function of an entry's source,
  target and weight is therefore the sum over the slots, twice, plus the sum over the nodes.
-/
import proofs.«117461_g8057358648341_cont_sun_m_1039_2_alg».proof.Proof.RefStages
import Idealize.ShloMosaic.PureOps.Ideal
import Idealize.ShloMosaic.Lib.ValueIdx
import Idealize.ShloMosaic.Lib.Pipeline.Value
import Mathlib.Algebra.BigOperators.Fin

noncomputable section

namespace Cert.ReferenceIdeal.Edges

open Cert.ReferenceIdeal Cert.ReferenceIdeal.Gen Cert.ReferenceIdeal.HandRun Cert.ReferenceIdeal.Stages
open Idealize.ShloMosaic Idealize.ShloMosaic.ValueIdx

variable {α : Type}

/-- An entry of the doubled list in its first half reads the first array. -/
theorem twice_left (a b : S4194304.Idx → α) (k : Fin 4194304) (h : k.val < 8388608) :
    twice a b (ix1 (⟨k.val, h⟩ : Fin 8388608)) = a (ix1 k) := by
  unfold twice
  exact concatenate_pair_apply_left 0 a b concatenates_S4194304_S4194304_S8388608_d0 _ rfl (ix1 k) (fun b => by
    obtain rfl : b = 0 := Subsingleton.elim _ _
    rfl)

/-- An entry of the doubled list in its second half reads the second array. -/
theorem twice_right (a b : S4194304.Idx → α) (k : Fin 4194304) (h : 4194304 + k.val < 8388608) :
    twice a b (ix1 (⟨4194304 + k.val, h⟩ : Fin 8388608)) = b (ix1 k) := by
  unfold twice
  refine concatenate_pair_apply_right 0 a b concatenates_S4194304_S4194304_S8388608_d0 _ rfl rfl (ix1 k) (fun b hb => ?_) ?_
  · obtain rfl : b = 0 := Subsingleton.elim _ _
    exact absurd rfl hb
  · show k.val + 4194304 = 4194304 + k.val
    omega

/-- An entry before the self-loops reads the doubled list. -/
theorem withLoops_left (a : S8388608.Idx → α) (b : S2048.Idx → α) (u : Fin 8388608) (h : u.val < 8390656) :
    withLoops a b (ix1 (⟨u.val, h⟩ : Fin 8390656)) = a (ix1 u) := by
  unfold withLoops
  exact concatenate_pair_apply_left 0 a b concatenates_S8388608_S2048_S8390656_d0 _ rfl (ix1 u) (fun b => by
    obtain rfl : b = 0 := Subsingleton.elim _ _
    rfl)

/-- An entry among the self-loops reads the nodes' array. -/
theorem withLoops_right (a : S8388608.Idx → α) (b : S2048.Idx → α) (t : Fin 2048) (h : 8388608 + t.val < 8390656) :
    withLoops a b (ix1 (⟨8388608 + t.val, h⟩ : Fin 8390656)) = b (ix1 t) := by
  unfold withLoops
  refine concatenate_pair_apply_right 0 a b concatenates_S8388608_S2048_S8390656_d0 _ rfl rfl (ix1 t) (fun b hb => ?_) ?_
  · obtain rfl : b = 0 := Subsingleton.elim _ _
    exact absurd rfl hb
  · show t.val + 8388608 = 8388608 + t.val
    omega

/-- A reversed array at slot `k` is the array at the mirrored slot. -/
theorem reverse_apply (a : S4194304.Idx → α) (k : Fin 4194304) : Host.reverse [0] a (ix1 k) = a (ix1 k.rev) := by
  unfold Host.reverse
  congr 1
  funext d
  obtain rfl : d = 0 := Subsingleton.elim _ _
  simp
  rfl

/-- What holds of every slot's entry and of every node's entry holds of every entry of the edge list. -/
theorem forall_edges {β : Type} (P : β → Prop) (r : S4194304.Idx → β) (n : S2048.Idx → β)
    (hr : ∀ k : Fin 4194304, P (r (ix1 k))) (hn : ∀ t : Fin 2048, P (n (ix1 t))) (e : Fin 8390656) :
    P (withLoops (twice (Host.reverse [0] r) (Host.reverse [0] r)) n (ix1 e)) := by
  by_cases h1 : e.val < 4194304
  · have := (withLoops_left (twice (Host.reverse [0] r) (Host.reverse [0] r)) n (⟨e.val, by omega⟩ : Fin 8388608) e.isLt).trans
      ((twice_left (Host.reverse [0] r) (Host.reverse [0] r) ⟨e.val, h1⟩ (by simp; omega)).trans (reverse_apply r ⟨e.val, h1⟩))
    rw [show (⟨e.val, e.isLt⟩ : Fin 8390656) = e from rfl] at this
    rw [this]; exact hr _
  · by_cases h2 : e.val < 8388608
    · have := (withLoops_left (twice (Host.reverse [0] r) (Host.reverse [0] r)) n (⟨4194304 + (e.val - 4194304), by omega⟩ : Fin 8388608) (by simp; omega)).trans
        ((twice_right (Host.reverse [0] r) (Host.reverse [0] r) ⟨e.val - 4194304, by omega⟩ (by simp; omega)).trans (reverse_apply r ⟨e.val - 4194304, by omega⟩))
      have he : (⟨4194304 + (e.val - 4194304), by omega⟩ : Fin 8390656) = e := Fin.ext (by simp; omega)
      rw [he] at this
      rw [this]; exact hr _
    · have := withLoops_right (twice (Host.reverse [0] r) (Host.reverse [0] r)) n ⟨e.val - 8388608, by omega⟩ (by simp; omega)
      have he : (⟨8388608 + (e.val - 8388608), by omega⟩ : Fin 8390656) = e := Fin.ext (by simp; omega)
      rw [he] at this
      rw [this]; exact hn _

/-- A sum over `a + b` positions is the sum over the first `a` plus the sum over the last `b`. -/
theorem sum_fin_split {M : Type} [AddCommMonoid M] (a b c : ℕ) (h : a + b = c) (f : Fin c → M) :
    ∑ e, f e = ∑ u : Fin a, f ⟨u.val, by omega⟩ + ∑ t : Fin b, f ⟨a + t.val, by omega⟩ := by
  subst h
  rw [Fin.sum_univ_add]
  rfl

/-- THE SUM OVER ALL EDGES: of any function of an entry of three edge arrays — built from slot arrays `r`, `c`, `v` and
    node arrays `n₁`, `n₂`, `n₃` in the edge list's way — is the sum over the slots, twice, plus the sum over the nodes. -/
theorem sum_edges {β γ δ M : Type} [AddCommMonoid M] (Φ : β → γ → δ → M)
    (r : S4194304.Idx → β) (c : S4194304.Idx → γ) (v : S4194304.Idx → δ) (n₁ : S2048.Idx → β) (n₂ : S2048.Idx → γ) (n₃ : S2048.Idx → δ) :
    ∑ e : Fin 8390656, Φ (withLoops (twice (Host.reverse [0] r) (Host.reverse [0] r)) n₁ (ix1 e))
        (withLoops (twice (Host.reverse [0] c) (Host.reverse [0] c)) n₂ (ix1 e))
        (withLoops (twice (Host.reverse [0] v) (Host.reverse [0] v)) n₃ (ix1 e))
      = (∑ k : Fin 4194304, Φ (r (ix1 k)) (c (ix1 k)) (v (ix1 k))) + (∑ k : Fin 4194304, Φ (r (ix1 k)) (c (ix1 k)) (v (ix1 k)))
        + ∑ t : Fin 2048, Φ (n₁ (ix1 t)) (n₂ (ix1 t)) (n₃ (ix1 t)) := by
  have first : ∀ {ω : Type} (a : S4194304.Idx → ω) (n : S2048.Idx → ω) (k : Fin 4194304) (h : k.val < 8390656),
      withLoops (twice (Host.reverse [0] a) (Host.reverse [0] a)) n (ix1 (⟨k.val, h⟩ : Fin 8390656)) = a (ix1 k.rev) := by
    intro ω a n k h
    exact (withLoops_left (twice (Host.reverse [0] a) (Host.reverse [0] a)) n (⟨k.val, by omega⟩ : Fin 8388608) h).trans
      ((twice_left (Host.reverse [0] a) (Host.reverse [0] a) k (by omega)).trans (reverse_apply a k))
  have second : ∀ {ω : Type} (a : S4194304.Idx → ω) (n : S2048.Idx → ω) (k : Fin 4194304) (h : 4194304 + k.val < 8390656),
      withLoops (twice (Host.reverse [0] a) (Host.reverse [0] a)) n (ix1 (⟨4194304 + k.val, h⟩ : Fin 8390656)) = a (ix1 k.rev) := by
    intro ω a n k h
    exact (withLoops_left (twice (Host.reverse [0] a) (Host.reverse [0] a)) n (⟨4194304 + k.val, by omega⟩ : Fin 8388608) h).trans
      ((twice_right (Host.reverse [0] a) (Host.reverse [0] a) k (by omega)).trans (reverse_apply a k))
  rw [sum_fin_split 8388608 2048 8390656 (by norm_num)]
  refine congrArg₂ (· + ·) ?_ ?_
  · rw [sum_fin_split 4194304 4194304 8388608 (by norm_num)]
    refine congrArg₂ (· + ·) ?_ ?_
    · rw [← Equiv.sum_comp Fin.revPerm (fun k : Fin 4194304 => Φ (r (ix1 k)) (c (ix1 k)) (v (ix1 k)))]
      refine Finset.sum_congr rfl fun k _ => ?_
      rw [Fin.revPerm_apply]
      exact congr (congr (congrArg Φ (first r n₁ k _)) (first c n₂ k _)) (first v n₃ k _)
    · rw [← Equiv.sum_comp Fin.revPerm (fun k : Fin 4194304 => Φ (r (ix1 k)) (c (ix1 k)) (v (ix1 k)))]
      refine Finset.sum_congr rfl fun k _ => ?_
      rw [Fin.revPerm_apply]
      exact congr (congr (congrArg Φ (second r n₁ k _)) (second c n₂ k _)) (second v n₃ k _)
  · refine Finset.sum_congr rfl fun t _ => ?_
    exact congr (congr (congrArg Φ (withLoops_right _ n₁ t _)) (withLoops_right _ n₂ t _)) (withLoops_right _ n₃ t _)

end Cert.ReferenceIdeal.Edges

end
-- ==== Proof.RefTail.lean ====
/-
  From the list slots to the layer: the tail of the reference, read at an index.

  Given what the head leaves (the slots list the nonzero positions, in range), the degree of node `j` is twice the
  number of nonzeros of column `j` plus one; on 0/1 entries that number is the column sum, so the guarded
  `deg^(-1/2)` is the layer's `dinv`; the accumulated messages at (j, o) are twice the sum over the nonzero rows `i` of
  `h i o · (dinv i · dinv j)`, plus the self-loop's `h j o · (dinv j · dinv j)`; on real entries the common factor
  `dinv j` comes out of the sums and the 0/1 entries turn the sum over nonzero rows into the adjacency-weighted sum.
-/
import proofs.«117461_g8057358648341_cont_sun_m_1039_2_alg».proof.Proof.RefSlots
import proofs.«117461_g8057358648341_cont_sun_m_1039_2_alg».proof.Proof.RefEdges
import proofs.«117461_g8057358648341_cont_sun_m_1039_2_alg».proof.Proof.LibEdgeOps
import proofs.«117461_g8057358648341_cont_sun_m_1039_2_alg».proof.Proof.Spec
import Idealize.ShloMosaic.PureOps.Ideal.Laws
import Idealize.ShloMosaic.Lib.ValueLayout
import Idealize.ShloMosaic.Lib.Pipeline.Value

noncomputable section

namespace Cert.ReferenceIdeal.Tail

open Cert.ReferenceIdeal Cert.ReferenceIdeal.Gen Cert.ReferenceIdeal.HandRun Cert.ReferenceIdeal.Stages Cert.ReferenceIdeal.Edges
open Cert.ReferenceIdeal.Head Cert.EdgeOps Cert.Gcn
open Idealize.ShloMosaic Idealize.ShloMosaic.TcCoe Idealize.SL.Sem Idealize.ShloMosaic.StableHlo Idealize.ShloMosaic.ValueIdx

/-- A nonnegative index is left alone by the wrap-around, and the column layout reads it back. -/
theorem wrap_apply (c : IVec S8390656 32) (e : Fin 8390656) (u : Fin 1) (h : 0 ≤ (c (ix1 e)).toInt) :
    wrap c (ix2 e u) = c (ix1 e) := by
  unfold wrap
  rw [broadcastInDim_apply _ _ _ (ix2 e u) (ix1 e) (fun a => by
    obtain rfl : a = 0 := Subsingleton.elim _ _
    rfl)]
  show Scalar.select (IntOp.cmpi .slt (c (ix1 e)) 0#32) (IntOp.addi (c (ix1 e)) 2048#32) (c (ix1 e)) = c (ix1 e)
  have : IntOp.cmpi .slt (c (ix1 e)) 0#32 = 0#1 := by
    unfold IntOp.cmpi
    simp only [BitVec.slt, BitVec.toInt_zero]
    rw [decide_eq_false (by omega)]
    rfl
  rw [this, select_zero]

/-- A small natural number as a word reads back as itself. -/
theorem toInt_ofNat_small (t : ℕ) (h : t < 2048) : (BitVec.ofNat 32 t).toInt = (t : Int) := by
  have h1 : (BitVec.ofNat 32 t).toNat = t := by
    rw [BitVec.toNat_ofNat]; exact Nat.mod_eq_of_lt (by omega)
  rw [BitVec.toInt_eq_toNat_cond, h1, if_pos (by omega)]

section Abstract

variable (row col : IVec S4194304 32) (val : S4194304.Idx → EReal) (adj : S2048x2048.Idx → EReal)

/-- The hypotheses on the slot arrays: in range, and listing the nonzero positions (RefHead.lean proves them of the run's). -/
structure Lists : Prop where
  range : ∀ k : Fin 4194304, 0 ≤ (row (ix1 k)).toInt ∧ (row (ix1 k)).toInt < 2048
    ∧ 0 ≤ (col (ix1 k)).toInt ∧ (col (ix1 k)).toInt < 2048 ∧ (val (ix1 k) = 0 ∨ val (ix1 k) = 1)
  sum : ∀ (j : Fin 2048) (g : ℕ → EReal),
    ∑ k : Fin 4194304 with (col (ix1 k)).toInt = (j.val : Int), g (row (ix1 k)).toInt.toNat * val (ix1 k)
      = ∑ i : Fin 2048 with adj (ix2 i j) ≠ 0, g i.val

variable {row col val adj}

/-- Every edge's source and target are node numbers. -/
theorem src_range (hL : Lists row col val adj) (e : Fin 8390656) :
    0 ≤ (edgeIdx row (ix1 e)).toInt ∧ (edgeIdx row (ix1 e)).toInt < 2048 := by
  unfold edgeIdx
  refine forall_edges (fun w : BitVec 32 => 0 ≤ w.toInt ∧ w.toInt < 2048) row _ (fun k => ⟨(hL.range k).1, (hL.range k).2.1⟩) (fun t => ?_) e
  show 0 ≤ (BitVec.ofNat 32 t.val).toInt ∧ (BitVec.ofNat 32 t.val).toInt < 2048
  rw [toInt_ofNat_small t.val t.isLt]
  have := t.isLt
  omega

theorem tgt_range (hL : Lists row col val adj) (e : Fin 8390656) :
    0 ≤ (edgeIdx col (ix1 e)).toInt ∧ (edgeIdx col (ix1 e)).toInt < 2048 := by
  unfold edgeIdx
  refine forall_edges (fun w : BitVec 32 => 0 ≤ w.toInt ∧ w.toInt < 2048) col _ (fun k => ⟨(hL.range k).2.2.1, (hL.range k).2.2.2.1⟩) (fun t => ?_) e
  show 0 ≤ (BitVec.ofNat 32 t.val).toInt ∧ (BitVec.ofNat 32 t.val).toInt < 2048
  rw [toInt_ofNat_small t.val t.isLt]
  have := t.isLt
  omega

/-- THE SUM OVER THE EDGES INTO NODE `j` of a function of the source, weighted by the edge weight: the function summed
    over the nonzero rows of column `j`, twice, plus its value at `j` itself (the self-loop, of weight one). -/
theorem sum_into (hL : Lists row col val adj) (j : Fin 2048) (Ψ : ℕ → EReal) :
    ∑ e : Fin 8390656 with (wrap (edgeIdx col) (ix2 e (0 : Fin 1))).toInt = (j.val : Int),
        Ψ (edgeIdx row (ix1 e)).toInt.toNat * edgeWeight (F := Ideal) val (ix1 e)
      = (∑ i : Fin 2048 with adj (ix2 i j) ≠ 0, Ψ i.val) + (∑ i : Fin 2048 with adj (ix2 i j) ≠ 0, Ψ i.val)
        + Ψ j.val * Ideal.ofBits .f32 0x3F800000#32 := by
  have hcond : ∀ e : Fin 8390656, ((wrap (edgeIdx col) (ix2 e (0 : Fin 1))).toInt = (j.val : Int))
      ↔ ((edgeIdx col (ix1 e)).toInt = (j.val : Int)) := fun e => by
    rw [wrap_apply _ e 0 (tgt_range hL e).1]
  rw [Finset.sum_congr (Finset.filter_congr fun e _ => hcond e) fun _ _ => rfl, Finset.sum_filter]
  unfold edgeIdx edgeWeight
  rw [sum_edges (fun (s t : BitVec 32) (w : EReal) => if t.toInt = (j.val : Int) then Ψ s.toInt.toNat * w else 0)]
  rw [← Finset.sum_filter, hL.sum j Ψ]
  congr 1
  rw [Finset.sum_eq_single j]
  · show (if (BitVec.ofNat 32 j.val).toInt = (j.val : Int) then Ψ (BitVec.ofNat 32 j.val).toInt.toNat * Ideal.ofBits .f32 0x3F800000#32 else 0) = _
    rw [toInt_ofNat_small j.val j.isLt, if_pos rfl, Int.toNat_natCast]
  · intro t _ htj
    show (if (BitVec.ofNat 32 t.val).toInt = (j.val : Int) then _ else 0) = 0
    rw [toInt_ofNat_small t.val t.isLt, if_neg]
    intro h
    exact htj (Fin.ext (by exact_mod_cast h))
  · intro h; exact absurd (Finset.mem_univ j) h

/-- A finite sum of reals, as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The degrees the reference accumulates. -/
def deg (col : IVec S4194304 32) (val : S4194304.Idx → EReal) : FVec Ideal S2048 .f32 :=
  Host.scatterAdd scatter_S2048_S8390656x1_S8390656_n_0_0_1 (broadcastInDim S2048 ![] bcast_S_S2048 (constant S_ .f32 0x00000000#32))
    (wrap (edgeIdx col)) (edgeWeight val)

/-- The guarded inverse square root of the degrees. -/
def dis (col : IVec S4194304 32) (val : S4194304.Idx → EReal) : FVec Ideal S2048 .f32 :=
  select (cmpf .ogt (deg col val) (broadcastInDim S2048 ![] bcast_S_S2048 (constant S_ .f32 0x00000000#32)))
    (Host.rsqrt (maximumf (deg col val) (broadcastInDim S2048 ![] bcast_S_S2048 (constant S_ .f32 0x2B8CBCCC#32))))
    (broadcastInDim S2048 ![] bcast_S_S2048 (id (constant S_ .f32 0x00000000#32)))

theorem ofBits_zero : Ideal.ofBits .f32 0x00000000#32 = 0 := Ideal.ofBits_zero_f32

theorem ofBits_one : Ideal.ofBits .f32 0x3F800000#32 = 1 := by
  simp [Ideal.ofBits, Ideal.ieee]
  norm_num
  rw [← EReal.coe_mul, show ((8388608 : ℝ) * (1 / 8388608)) = 1 by norm_num]
  rfl

/-- The degree of node `j`: the number of nonzeros of its column, twice, plus one. -/
theorem deg_apply (hL : Lists row col val adj) (j : Fin 2048) :
    deg col val (ix1 j) = (∑ i : Fin 2048 with adj (ix2 i j) ≠ 0, (1 : EReal)) + (∑ i : Fin 2048 with adj (ix2 i j) ≠ 0, (1 : EReal)) + 1 := by
  unfold deg
  show Host.scatterAdd (addDims 2048 8390656 _) _ _ _ (ix1 j) = _
  rw [scatterAdd_addDims_apply]
  show Ideal.ofBits .f32 0x00000000#32 + _ = _
  rw [ofBits_zero, zero_add]
  have := sum_into hL j (fun _ => (1 : EReal))
  simp only [one_mul, ofBits_one] at this
  exact this

/-- On 0/1 entries the number of nonzeros of a column is the column sum, a nonnegative real. -/
theorem count_eq_colsum (hadj : ∀ i, adj i = 0 ∨ adj i = 1) (j : Fin 2048) :
    ∃ cs : ℝ, 0 ≤ cs ∧ colsum adj j = (cs : EReal) ∧ (∑ i : Fin 2048 with adj (ix2 i j) ≠ 0, (1 : EReal)) = (cs : EReal) := by
  refine ⟨∑ i : Fin 2048, (if adj (ix2 i j) = 0 then (0 : ℝ) else 1), Finset.sum_nonneg fun i _ => by split <;> norm_num, ?_, ?_⟩
  · unfold colsum
    rw [coe_sum]
    refine Finset.sum_congr rfl fun i _ => ?_
    rcases hadj (ix2 i j) with h | h
    · rw [h, if_pos rfl]; rfl
    · rw [h, if_neg (by norm_num)]; rfl
  · rw [coe_sum, Finset.sum_filter]
    refine Finset.sum_congr rfl fun i _ => ?_
    by_cases h : adj (ix2 i j) = 0
    · rw [if_neg (not_not.mpr h), if_pos h]; rfl
    · rw [if_pos h, if_neg h]; rfl

/-- So the degree is `2 · colsum + 1`, a real number at least one. -/
theorem deg_real (hL : Lists row col val adj) (hadj : ∀ i, adj i = 0 ∨ adj i = 1) (j : Fin 2048) :
    ∃ d : ℝ, 1 ≤ d ∧ deg col val (ix1 j) = (d : EReal) ∧ 2 * colsum adj j + 1 = (d : EReal) := by
  obtain ⟨cs, hcs, h1, h2⟩ := count_eq_colsum hadj j
  refine ⟨2 * cs + 1, by linarith, ?_, ?_⟩
  · rw [deg_apply hL j, h2]
    rw [← EReal.coe_add, ← EReal.coe_one, ← EReal.coe_add]
    congr 1; ring
  · rw [h1]
    rw [show (2 : EReal) = ((2 : ℝ) : EReal) from rfl, ← EReal.coe_mul, ← EReal.coe_one, ← EReal.coe_add]

/-- The reference's floor under the degree is below one. -/
theorem eps_le_one : Ideal.ofBits .f32 0x2B8CBCCC#32 ≤ 1 := by
  simp [Ideal.ofBits, Ideal.ieee]
  rw [← EReal.coe_mul, ← EReal.coe_one, EReal.coe_le_coe_iff]
  norm_num

/-- The guard and the floor, at one node, for any degree array. -/
theorem guarded_apply (D : FVec Ideal S2048 .f32) (j : Fin 2048) :
    (select (cmpf .ogt D (broadcastInDim S2048 ![] bcast_S_S2048 (constant S_ .f32 0x00000000#32)))
      (Host.rsqrt (maximumf D (broadcastInDim S2048 ![] bcast_S_S2048 (constant S_ .f32 0x2B8CBCCC#32))))
      (broadcastInDim S2048 ![] bcast_S_S2048 (id (constant S_ .f32 0x00000000#32)))) (ix1 j)
      = Scalar.select (Ideal.cmp .ogt (D (ix1 j)) (Ideal.ofBits .f32 0x00000000#32))
          (Ideal.rsqrt (max (D (ix1 j)) (Ideal.ofBits .f32 0x2B8CBCCC#32))) (Ideal.ofBits .f32 0x00000000#32) := rfl

/-- The guarded inverse square root is the layer's `dinv`: the degree is at least one, so the guard and the floor do nothing. -/
theorem dis_apply (hL : Lists row col val adj) (hadj : ∀ i, adj i = 0 ∨ adj i = 1) (j : Fin 2048) :
    dis col val (ix1 j) = dinv adj j := by
  obtain ⟨d, hd1, hdeg, hcol⟩ := deg_real hL hadj j
  unfold dis dinv
  rw [guarded_apply, hdeg, hcol, ofBits_zero]
  have hpos : Ideal.cmp .ogt ((d : ℝ) : EReal) 0 = 1#1 := by
    have : (0 : EReal) < ((d : ℝ) : EReal) := by exact_mod_cast (by linarith : (0 : ℝ) < d)
    unfold Ideal.cmp
    simp only [this, decide_true]
    rfl
  rw [hpos, select_one]
  exact congrArg Ideal.rsqrt (max_eq_left (le_trans eps_le_one (by exact_mod_cast hd1)))

/-- A feature matrix read at a natural-number row, zero beyond the nodes. -/
def hAt (h : FVec Ideal S2048x16 .f32) (o : Fin 16) (n : ℕ) : EReal := if hn : n < 2048 then h (ix2 ⟨n, hn⟩ o) else 0
/-- A per-node array read at a natural-number node, zero beyond the nodes. -/
def dAt (d : FVec Ideal S2048 .f32) (n : ℕ) : EReal := if hn : n < 2048 then d (ix1 ⟨n, hn⟩) else 0

/-- A per-edge scalar spread along the channels reads back the scalar. -/
theorem perEdge_apply (v : FVec Ideal S8390656 .f32) (e : Fin 8390656) (o : Fin 16) : perEdge v (ix2 e o) = v (ix1 e) := by
  unfold perEdge
  rw [broadcastInDim_apply _ _ _ (ix2 e o) (ix2 e (0 : Fin 1)) (fun a => by
    match a with
    | ⟨0, _⟩ => rfl
    | ⟨1, _⟩ => rfl)]
  rw [broadcastInDim_apply _ _ _ (ix2 e (0 : Fin 1)) (ix1 e) (fun a => by
    obtain rfl : a = 0 := Subsingleton.elim _ _
    rfl)]

/-- The messages the reference forms. -/
def msg (row col : IVec S4194304 32) (val : S4194304.Idx → EReal) (h : FVec Ideal S2048x16 .f32) : FVec Ideal S8390656x16 .f32 :=
  mulf (mulf (Host.gather gather_S2048x16_S8390656x1_S8390656x16_1_0_n_n_0_1_116 h (wrap (edgeIdx row)))
      (perEdge (mulf (Host.gather gather_S2048_S8390656x1_S8390656_n_0_n_n_0_1_1 (dis col val) (wrap (edgeIdx row)))
        (Host.gather gather_S2048_S8390656x1_S8390656_n_0_n_n_0_1_1 (dis col val) (wrap (edgeIdx col))))))
    (perEdge (edgeWeight val))

/-- The printed dimension records are the edge-list forms. -/
theorem takeRows_eq : gather_S2048x16_S8390656x1_S8390656x16_1_0_n_n_0_1_116
    = takeRows 2048 16 8390656 Facts₀.gather_S2048x16_S8390656x1_S8390656x16_1_0_n_n_0_1_116_wf := rfl
theorem take1_eq : gather_S2048_S8390656x1_S8390656_n_0_n_n_0_1_1
    = takeDims1 2048 8390656 Facts₀.gather_S2048_S8390656x1_S8390656_n_0_n_n_0_1_1_wf := rfl
theorem addRows_eq : scatter_S2048x16_S8390656x1_S8390656x16_1_0_0_1
    = addRows 2048 16 8390656 Facts₀.scatter_S2048x16_S8390656x1_S8390656x16_1_0_0_1_wf := rfl

/-- The messages' arithmetic at one entry, for any gathered arrays. -/
theorem msg_form (G : FVec Ideal S8390656x16 .f32) (A B EW : FVec Ideal S8390656 .f32) (e : Fin 8390656) (o : Fin 16) :
    (mulf (mulf G (perEdge (mulf A B))) (perEdge EW)) (ix2 e o) = G (ix2 e o) * (A (ix1 e) * B (ix1 e)) * EW (ix1 e) := by
  show G (ix2 e o) * perEdge (mulf A B) (ix2 e o) * perEdge EW (ix2 e o) = _
  rw [perEdge_apply, perEdge_apply]
  rfl

/-- A message at (e, o): the source's feature times the factors of both ends, times the weight. -/
theorem msg_apply (hL : Lists row col val adj) (h : FVec Ideal S2048x16 .f32) (e : Fin 8390656) (o : Fin 16) :
    msg row col val h (ix2 e o)
      = hAt h o (edgeIdx row (ix1 e)).toInt.toNat
          * (dAt (dis col val) (edgeIdx row (ix1 e)).toInt.toNat * dAt (dis col val) (edgeIdx col (ix1 e)).toInt.toNat)
          * edgeWeight (F := Ideal) val (ix1 e) := by
  obtain ⟨hs0, hs1⟩ := src_range hL e
  obtain ⟨ht0, ht1⟩ := tgt_range hL e
  have hsn : (edgeIdx row (ix1 e)).toInt.toNat < 2048 := by omega
  have htn : (edgeIdx col (ix1 e)).toInt.toNat < 2048 := by omega
  have m1 : min (edgeIdx row (ix1 e)).toInt.toNat (2048 - 1) = (edgeIdx row (ix1 e)).toInt.toNat := by omega
  have m2 : min (edgeIdx col (ix1 e)).toInt.toNat (2048 - 1) = (edgeIdx col (ix1 e)).toInt.toNat := by omega
  unfold msg
  rw [msg_form, takeRows_eq, take1_eq, gather_rows_apply (by norm_num), gather_take1_apply (by norm_num),
    gather_take1_apply (by norm_num)]
  simp only [wrap_apply _ e 0 hs0, wrap_apply _ e 0 ht0, m1, m2]
  unfold hAt dAt
  rw [dif_pos hsn, dif_pos hsn, dif_pos htn]

/-- The accumulated messages. -/
def out (row col : IVec S4194304 32) (val : S4194304.Idx → EReal) (h : FVec Ideal S2048x16 .f32) : FVec Ideal S2048x16 .f32 :=
  Host.scatterAdd scatter_S2048x16_S8390656x1_S8390656x16_1_0_0_1 (broadcastInDim S2048x16 ![] bcast_S_S2048x16 (constant S_ .f32 0x00000000#32))
    (wrap (edgeIdx col)) (msg row col val h)

/-- The zero array at an index, for the accumulation's start. -/
theorem zeros_apply (i : S2048x16.Idx) :
    (broadcastInDim S2048x16 ![] bcast_S_S2048x16 (constant (F := Ideal) S_ .f32 0x00000000#32)) i = Ideal.ofBits .f32 0x00000000#32 := rfl

/-- THE ACCUMULATED MESSAGES AT (j, o): over the nonzero rows `i` of column `j`, twice, the source's feature times the
    factors of `i` and `j`; plus the self-loop's term. -/
theorem out_apply (hL : Lists row col val adj) (h : FVec Ideal S2048x16 .f32) (j : Fin 2048) (o : Fin 16) :
    out row col val h (ix2 j o)
      = (∑ i : Fin 2048 with adj (ix2 i j) ≠ 0, hAt h o i.val * (dAt (dis col val) i.val * dAt (dis col val) j.val))
        + (∑ i : Fin 2048 with adj (ix2 i j) ≠ 0, hAt h o i.val * (dAt (dis col val) i.val * dAt (dis col val) j.val))
        + hAt h o j.val * (dAt (dis col val) j.val * dAt (dis col val) j.val) := by
  unfold out
  rw [addRows_eq, scatterAdd_addRows_apply, zeros_apply, ofBits_zero, zero_add]
  have hterm : ∀ e ∈ Finset.univ.filter (fun e : Fin 8390656 => (wrap (edgeIdx col) (ix2 e (0 : Fin 1))).toInt = (j.val : Int)),
      msg row col val h (ix2 e o)
        = (fun n => hAt h o n * (dAt (dis col val) n * dAt (dis col val) j.val)) (edgeIdx row (ix1 e)).toInt.toNat
          * edgeWeight (F := Ideal) val (ix1 e) := by
    intro e he
    simp only [Finset.mem_filter, Finset.mem_univ, true_and] at he
    rw [wrap_apply _ e 0 (tgt_range hL e).1] at he
    rw [msg_apply hL h e o, he, Int.toNat_natCast]
  rw [Finset.sum_congr rfl hterm]
  refine (sum_into hL j (fun n => hAt h o n * (dAt (dis col val) n * dAt (dis col val) j.val))).trans ?_
  rw [ofBits_one, mul_one]

/-- The reference's result array from the accumulated messages and the bias. -/
def res (o' : FVec Ideal S2048x16 .f32) (b : FVec Ideal S16 .f32) : FVec Ideal S16x2048 .f32 :=
  transpose S16x2048 [1, 0] (Host.tanh (addf o'
    (broadcastInDim S2048x16 ![0, 1] bcast_S1x16_S2048x16_0_1 (broadcastInDim S1x16 ![1] bcast_S16_S1x16_1 b))))
    transposes_S2048x16_S16x2048_1_0

theorem res_apply (o' : FVec Ideal S2048x16 .f32) (b : FVec Ideal S16 .f32) (o : Fin 16) (j : Fin 2048) :
    res o' b (ix2 o j) = Ideal.tanh (o' (ix2 j o) + b (ix1 o)) := by
  unfold res
  rw [transpose_ix2_apply]
  show Ideal.tanh (o' (ix2 j o) + broadcastInDim S2048x16 ![0, 1] bcast_S1x16_S2048x16_0_1 (broadcastInDim S1x16 ![1] bcast_S16_S1x16_1 b) (ix2 j o)) = _
  rw [broadcastInDim_apply _ _ _ (ix2 j o) (ix2 (0 : Fin 1) o) (fun a => by
    match a with
    | ⟨0, _⟩ => rfl
    | ⟨1, _⟩ => rfl)]
  rw [broadcastInDim_apply _ _ _ (ix2 (0 : Fin 1) o) (ix1 o) (fun a => by
    obtain rfl : a = 0 := Subsingleton.elim _ _
    rfl)]

/-- The reference's linear layer at (n, o) is the layer's `feat`. -/
theorem lin_apply (x : FVec Ideal S2048x16 .f32) (W : FVec Ideal S16x16 .f32) (n : Fin 2048) (o : Fin 16) :
    Host.dotGeneral dot_S2048x16_S16x16_S2048x16_1_0_0_1_n_n none x W (ix2 n o) = feat x W n o := by
  refine (Ideal.dotGeneral_apply dot_S2048x16_S16x16_S2048x16_1_0_0_1_n_n none .single x W (ix2 n o)).trans ?_
  unfold feat
  rw [← Equiv.sum_comp (contrEquiv1 dot_S2048x16_S16x16_S2048x16_1_0_0_1_n_n 16 rfl rfl).symm]
  refine Finset.sum_congr rfl fun k _ => ?_
  have hl : dot_S2048x16_S16x16_S2048x16_1_0_0_1_n_n.lhsIdx (ix2 n o)
      ((contrEquiv1 dot_S2048x16_S16x16_S2048x16_1_0_0_1_n_n 16 rfl rfl).symm k) = ix2 n k := by
    funext a; apply Fin.ext
    match a with
    | ⟨0, _⟩ => rfl
    | ⟨1, _⟩ =>
      exact (DotDims.lhsIdx_val_of_single dot_S2048x16_S16x16_S2048x16_1_0_0_1_n_n (cl := 1) rfl _ _).trans
        (contrEquiv1_symm_val dot_S2048x16_S16x16_S2048x16_1_0_0_1_n_n 16 rfl rfl k)
  have hr : dot_S2048x16_S16x16_S2048x16_1_0_0_1_n_n.rhsIdx (ix2 n o)
      ((contrEquiv1 dot_S2048x16_S16x16_S2048x16_1_0_0_1_n_n 16 rfl rfl).symm k) = ix2 k o := by
    funext a; apply Fin.ext
    match a with
    | ⟨0, _⟩ =>
      exact (DotDims.rhsIdx_val_of_single dot_S2048x16_S16x16_S2048x16_1_0_0_1_n_n (cr := 0) rfl _ _).trans
        (contrEquiv1_symm_val dot_S2048x16_S16x16_S2048x16_1_0_0_1_n_n 16 rfl rfl k)
    | ⟨1, _⟩ => rfl
  rw [hl, hr, mul_comm]

/-- The real identity under the layer: with 0/1 weights `a`, the sum over the nonzero-weight rows of `f i · (d i · dⱼ)`, twice,
    plus the self-loop's term and the bias, is `dⱼ · (2 · Σ_i (f i · d i) · a i + fⱼ · dⱼ)` plus the bias. -/
theorem real_identity (f d a : Fin 2048 → ℝ) (ha : ∀ i, a i = 0 ∨ a i = 1) (j : Fin 2048) (bo : ℝ) :
    (∑ i : Fin 2048 with ((a i : ℝ) : EReal) ≠ 0, f i * (d i * d j)) + (∑ i : Fin 2048 with ((a i : ℝ) : EReal) ≠ 0, f i * (d i * d j))
        + f j * (d j * d j) + bo
      = d j * (2 * (∑ i : Fin 2048, f i * d i * a i) + f j * d j) + bo := by
  have hS : (∑ i : Fin 2048 with ((a i : ℝ) : EReal) ≠ 0, f i * (d i * d j)) = d j * ∑ i : Fin 2048, f i * d i * a i := by
    rw [Finset.sum_filter, Finset.mul_sum]
    refine Finset.sum_congr rfl fun i _ => ?_
    rcases ha i with h | h
    · rw [h, if_neg (by simp)]; ring
    · rw [h, if_pos (by norm_num)]; ring
  rw [hS]; ring

/-- THE TAIL IS THE LAYER: from slot arrays that list the nonzero positions of a 0/1 adjacency matrix, with real features,
    weights and bias, the reference's result at (o, j) is the layer's. -/
theorem tail_eq (hL : Lists row col val adj) (hadj : ∀ i, adj i = 0 ∨ adj i = 1)
    (x : FVec Ideal S2048x16 .f32) (W : FVec Ideal S16x16 .f32) (b : FVec Ideal S16 .f32)
    (hx : ∀ i, ∃ r : ℝ, x i = (r : EReal)) (hW : ∀ i, ∃ r : ℝ, W i = (r : EReal)) (hb : ∀ i, ∃ r : ℝ, b i = (r : EReal))
    (o : Fin 16) (j : Fin 2048) :
    res (out row col val (Host.dotGeneral dot_S2048x16_S16x16_S2048x16_1_0_0_1_n_n none x W)) b (ix2 o j) = layerAt x adj W b o j := by
  -- real witnesses
  choose xr hxr using hx
  choose wr hwr using hW
  choose br hbr using hb
  have hfeat : ∀ i : Fin 2048, feat x W i o = ((∑ k : Fin 16, wr (ix2 k o) * xr (ix2 i k) : ℝ) : EReal) := fun i => by
    unfold feat
    rw [coe_sum]
    exact Finset.sum_congr rfl fun k _ => by rw [hwr, hxr, EReal.coe_mul]
  have hdinv : ∀ i : Fin 2048, ∃ dv : ℝ, dinv adj i = (dv : EReal) := fun i => by
    obtain ⟨d, hd1, -, hcol⟩ := deg_real hL hadj i
    unfold dinv
    rw [hcol, Ideal.rsqrt_coe, if_neg (by linarith), if_neg (by linarith)]
    exact ⟨_, rfl⟩
  choose dv hdv using hdinv
  have hadj' : ∀ i : Fin 2048, ∃ a : ℝ, (a = 0 ∨ a = 1) ∧ adj (ix2 i j) = (a : EReal) := fun i => by
    rcases hadj (ix2 i j) with h | h
    · exact ⟨0, Or.inl rfl, h⟩
    · exact ⟨1, Or.inr rfl, h⟩
  choose ar ha01 hadjr using hadj'
  -- the reference's side
  have hh : ∀ i : Fin 2048, hAt (Host.dotGeneral dot_S2048x16_S16x16_S2048x16_1_0_0_1_n_n none x W) o i.val = feat x W i o := fun i => by
    unfold hAt
    rw [dif_pos i.isLt]
    exact lin_apply x W i o
  have hd : ∀ i : Fin 2048, dAt (dis col val) i.val = dinv adj i := fun i => by
    unfold dAt
    rw [dif_pos i.isLt]
    exact dis_apply hL hadj i
  rw [res_apply, out_apply hL]
  simp only [hh, hd]
  unfold layerAt agg scaled
  simp only [hfeat, hdv, hbr]
  -- both sides are now over reals
  simp only [hadjr]
  simp only [← EReal.coe_mul, ← coe_sum]
  rw [show (2 : EReal) = ((2 : ℝ) : EReal) from rfl]
  simp only [← EReal.coe_mul, ← EReal.coe_add]
  exact congrArg (fun r : ℝ => Ideal.tanh (r : EReal))
    (real_identity (fun i => ∑ k : Fin 16, wr (ix2 k o) * xr (ix2 i k)) dv ar ha01 j (br (ix1 o)))

end Abstract

end Cert.ReferenceIdeal.Tail

end
-- ==== Proof.PreFacts.lean ====
/-
  What the precondition says of the four arguments: every feature, weight and bias entry is a real number, and every
  adjacency entry is 0 or 1.
-/
import proofs.«117461_g8057358648341_cont_sun_m_1039_2_alg».proof.Pre_finite_inputs
import proofs.«117461_g8057358648341_cont_sun_m_1039_2_alg».proof.Proof.Gen.Pre_finite_inputs
import Idealize.ShloMosaic.PureOps.Ideal
import Idealize.ShloMosaic.Lib.ValueIdx
import Idealize.ShloMosaic.Lib.ReduceAll
import Idealize.ShloMosaic.Lib.Affine

noncomputable section

namespace Cert.PreFacts

open Cert.Pre_finite_inputs Idealize.ShloMosaic Idealize.ShloMosaic.ValueIdx

instance : Subsingleton S_.Idx := ⟨fun a b => funext fun d => d.elim0⟩

/-- The word of +∞. -/
theorem ofBits_inf : Ideal.ofBits .f32 0x7F800000#32 = ⊤ := by
  simp [Ideal.ofBits, Ideal.ieee]

/-- An extended real whose absolute value is below +∞ is a real number. -/
theorem real_of_abs_lt (a : EReal) (h : Ideal.cmp .olt (max a (-a)) (Ideal.ofBits .f32 0x7F800000#32) = 1#1) :
    ∃ r : ℝ, a = (r : EReal) := by
  rw [ofBits_inf] at h
  have hlt : max a (-a) < ⊤ := by
    by_contra hn
    simp [Ideal.cmp, hn] at h
  induction a using EReal.rec with
  | bot => simp at hlt
  | top => simp at hlt
  | coe r => exact ⟨r, rfl⟩

/-- The words of 0.0 and 1.0. -/
theorem ofBits_zero : Ideal.ofBits .f32 0x00000000#32 = 0 := by simp [Ideal.ofBits, Ideal.ieee]
theorem ofBits_one : Ideal.ofBits .f32 0x3F800000#32 = 1 := by
  simp [Ideal.ofBits, Ideal.ieee]
  norm_num
  rw [← EReal.coe_mul, show ((8388608 : ℝ) * (1 / 8388608)) = 1 by norm_num]
  rfl

/-- THE PRECONDITION, READ: finite features, weights and bias; adjacency entries 0 or 1. -/
theorem facts (x : FVec Ideal S2048x16 .f32) (adj : FVec Ideal S2048x2048 .f32) (W : FVec Ideal S16x16 .f32) (b : FVec Ideal S16 .f32)
    (h : Cert.Pre_finite_inputs.fn (F := Ideal) x adj W b = fun _ => 1#1) :
    (∀ i, ∃ r : ℝ, x i = (r : EReal)) ∧ (∀ i, adj i = 0 ∨ adj i = 1) ∧ (∀ i, ∃ r : ℝ, W i = (r : EReal))
      ∧ (∀ i, ∃ r : ℝ, b i = (r : EReal)) := by
  have h0 := congrFun h ix0
  dsimp only [fn, fn_part1] at h0
  have hs : ∀ (p q : IVec S_ 1), andi p q ix0 = 1#1 ↔ p ix0 = 1#1 ∧ q ix0 = 1#1 := fun p q => IntOp.andi_eq_one
  rw [hs, hs, hs, hs] at h0
  obtain ⟨⟨⟨⟨hx, -⟩, hW⟩, hb⟩, h01⟩ := h0
  refine ⟨fun i => ?_, fun i => ?_, fun i => ?_, fun i => ?_⟩
  · exact real_of_abs_lt (x i) (Host.reduce_andi_all _ _ _ _ ix0 hx i)
  · have := Host.reduce_andi_all _ _ _ _ ix0 h01 i
    have h2 : IntOp.ori (Ideal.cmp .oeq (adj i) (Ideal.ofBits .f32 0x00000000#32)) (Ideal.cmp .oeq (adj i) (Ideal.ofBits .f32 0x3F800000#32)) = 1#1 := this
    rw [IntOp.ori_eq_one, ofBits_zero, ofBits_one] at h2
    rcases h2 with h2 | h2
    · left; by_contra hn; simp [Ideal.cmp, hn] at h2
    · right; by_contra hn; simp [Ideal.cmp, hn] at h2
  · exact real_of_abs_lt (W i) (Host.reduce_andi_all _ _ _ _ ix0 hW i)
  · exact real_of_abs_lt (b i) (Host.reduce_andi_all _ _ _ _ ix0 hb i)

end Cert.PreFacts

end
-- ==== Proof.RefValue.lean ====
/-
  What the reference leaves in its result, against the layer.

  The reference turns the adjacency matrix into an edge list — the positions of its nonzero entries in row-major
  order (a running count of the nonzero mask, a histogram of that count, a running sum of the histogram, then
  quotient and remainder by the row length), reversed, listed twice, followed by one self-loop per node, each edge
  carrying weight 1 and each padding entry weight 0 —, accumulates the weights at the edges' targets into degrees,
  gathers `deg^(-1/2)` at both ends of every edge, and accumulates the scaled source features at the targets.
  For an adjacency matrix of zeros and ones with finite features, weights and bias this is the layer:
    * the edge list enumerates each nonzero position exactly twice, so a sum over edges into node `j` of a function
      of the source is twice the sum over the nonzero entries of column `j`, plus the self-loop's term;
    * the degree of `j` is therefore `2 · colsum j + 1 ≥ 1`, above the reference's floor `1e-12` and positive, so
      its guarded inverse square root is the plain one;
    * on 0/1 entries the sum over nonzero entries of column `j` is the sum over all entries weighted by the entry;
    * the factor `dinv j`, common to all terms of node `j`, comes out of the finite sum.
-/
import proofs.«117461_g8057358648341_cont_sun_m_1039_2_alg».proof.Proof.RefRun
import proofs.«117461_g8057358648341_cont_sun_m_1039_2_alg».proof.Proof.RefStages
import proofs.«117461_g8057358648341_cont_sun_m_1039_2_alg».proof.Proof.RefHead
import proofs.«117461_g8057358648341_cont_sun_m_1039_2_alg».proof.Proof.RefTail
import proofs.«117461_g8057358648341_cont_sun_m_1039_2_alg».proof.Proof.PreFacts
import proofs.«117461_g8057358648341_cont_sun_m_1039_2_alg».proof.Proof.Spec
import proofs.«117461_g8057358648341_cont_sun_m_1039_2_alg».proof.Pre_finite_inputs
import proofs.«117461_g8057358648341_cont_sun_m_1039_2_alg».proof.Proof.Gen.Pre_finite_inputs

noncomputable section

namespace Cert.ReferenceIdeal.IsLayer

open Cert.ReferenceIdeal Cert.ReferenceIdeal.Gen Cert.ReferenceIdeal.HandRun Idealize.ShloMosaic Idealize.ShloMosaic.TcCoe
open Idealize.SL.Sem Idealize.ShloMosaic.StableHlo Cert.Gcn Idealize.ShloMosaic.ValueIdx
open Cert.ReferenceIdeal.Stages Cert.ReferenceIdeal.Head Cert.ReferenceIdeal.Tail

/-- The operations leave the four arguments as they found them. -/
theorem kept_arg0 (V : Valuation τ sig (Elt Ideal)) : after ops V (main_arg0 : DevRef τ sig) = V (main_arg0 : DevRef τ sig) := by
  after_results_simp
theorem kept_arg1 (V : Valuation τ sig (Elt Ideal)) : after ops V (main_arg1 : DevRef τ sig) = V (main_arg1 : DevRef τ sig) := by
  after_results_simp
theorem kept_arg2 (V : Valuation τ sig (Elt Ideal)) : after ops V (main_arg2 : DevRef τ sig) = V (main_arg2 : DevRef τ sig) := by
  after_results_simp
theorem kept_arg3 (V : Valuation τ sig (Elt Ideal)) : after ops V (main_arg3 : DevRef τ sig) = V (main_arg3 : DevRef τ sig) := by
  after_results_simp

/-- THE REFERENCE IS THE LAYER on arguments satisfying the precondition (all finite, the adjacency entries 0 or 1):
    the fold of its operations leaves the layer's result array in the result buffer. -/
theorem result_eq (V : Valuation τ sig (Elt Ideal))
    (hpre : Cert.Pre_finite_inputs.fn (F := Ideal) (V (main_arg0 : DevRef τ sig)) (V (main_arg1 : DevRef τ sig))
      (V (main_arg2 : DevRef τ sig)) (V (main_arg3 : DevRef τ sig)) = fun _ => 1#1) :
    after ops V (main_v96 : DevRef τ sig)
      = layer (V (main_arg0 : DevRef τ sig)) (V (main_arg1 : DevRef τ sig)) (V (main_arg2 : DevRef τ sig)) (V (main_arg3 : DevRef τ sig)) := by
  obtain ⟨hx, hadj, hW, hb⟩ := Cert.PreFacts.facts _ _ _ _ hpre
  have hL : Lists (rowSlots V) (colSlots V) (valSlots V) (adjOf V) := ⟨slots_in_range V, slots_sum V⟩
  -- the result buffer is the tail's arithmetic of the slot arrays and the arguments
  have hfold : after ops V (main_v96 : DevRef τ sig)
      = res (out (rowSlots V) (colSlots V) (valSlots V)
          (Host.dotGeneral (φ₁ := .f32) (φ₂ := .f32) dot_S2048x16_S16x16_S2048x16_1_0_0_1_n_n none (V (main_arg0 : DevRef τ sig) : FVec Ideal S2048x16 .f32)
            (V (main_arg2 : DevRef τ sig) : FVec Ideal S16x16 .f32)))
        (V (main_arg3 : DevRef τ sig) : FVec Ideal S16 .f32) := by
    rw [out_eq, acc_eq, msg_eq, norm_eq, dis_eq, deg_eq, src_eq, tgt_eq, wgt_eq, lin_eq, kept_arg3]
    rfl
  rw [hfold]
  funext i
  obtain ⟨o, j, rfl⟩ : ∃ (o : Fin 16) (j : Fin 2048), i = ix2 o j := ⟨i 0, i 1, eq_ix2 i⟩
  rw [layer_ix2]
  exact tail_eq hL hadj _ _ _ hx hW hb o j

end Cert.ReferenceIdeal.IsLayer

end
-- ==== Proof.lean ====
/-
  A graph-convolution layer written as dense linear algebra, against its edge-list reference, over the extended reals.

  The kernel holds the whole adjacency matrix in one block and computes, for node `j` and channel `o`,
  `tanh (dinv j · (2 · Σ_i (h i o · dinv i) · adj i j + h j o · dinv j) + b o)` with `h = x W` and
  `dinv j = (2 · Σ_i adj i j + 1)^(-1/2)`: Proof/KernelValue.lean reads the run's result array as the body's
  arithmetic of the whole arguments, Proof/KernelIsLayer.lean reads that arithmetic at an index (Proof/Spec.lean states the
  layer). The reference builds the list of nonzero positions of the adjacency matrix, doubles it, adds self-loops and
  scatter-adds normalised messages; Proof/RefRun.lean reads its run as a fold of its host operations, Proof/RefStages.lean
  names the fold's stages, Proof/RefHead.lean shows that the head lists the nonzero positions (a running count, its
  histogram and a running sum of that), Proof/RefTail.lean turns the list into the layer's sums, and Proof/RefValue.lean
  concludes that the fold's result is the same layer on 0/1 adjacency entries and finite arguments.
  The three frames follow from the runs; the idealization rewrote nothing, so `preserves` is trivial.
-/
import proofs.«117461_g8057358648341_cont_sun_m_1039_2_alg».proof.Defs
import proofs.«117461_g8057358648341_cont_sun_m_1039_2_alg».proof.Proof.Gen.Kernel
import proofs.«117461_g8057358648341_cont_sun_m_1039_2_alg».proof.Proof.Gen.Kernel.Skeleton
import proofs.«117461_g8057358648341_cont_sun_m_1039_2_alg».proof.Proof.Gen.Kernel.Launch
import proofs.«117461_g8057358648341_cont_sun_m_1039_2_alg».proof.Proof.Gen.Kernel.Points
import proofs.«117461_g8057358648341_cont_sun_m_1039_2_alg».proof.Proof.Gen.Kernel.Frame
import proofs.«117461_g8057358648341_cont_sun_m_1039_2_alg».proof.Proof.Gen.KernelIdeal
import proofs.«117461_g8057358648341_cont_sun_m_1039_2_alg».proof.Proof.Gen.KernelIdeal.Skeleton
import proofs.«117461_g8057358648341_cont_sun_m_1039_2_alg».proof.Proof.Gen.KernelIdeal.Launch
import proofs.«117461_g8057358648341_cont_sun_m_1039_2_alg».proof.Proof.Gen.KernelIdeal.Points
import proofs.«117461_g8057358648341_cont_sun_m_1039_2_alg».proof.Proof.Gen.KernelIdeal.Frame
import proofs.«117461_g8057358648341_cont_sun_m_1039_2_alg».proof.Proof.Gen.KernelIdeal.Value
import proofs.«117461_g8057358648341_cont_sun_m_1039_2_alg».proof.Proof.Gen.ReferenceIdeal
import proofs.«117461_g8057358648341_cont_sun_m_1039_2_alg».proof.Proof.Gen.Pre_finite_inputs
import proofs.«117461_g8057358648341_cont_sun_m_1039_2_alg».proof.Proof.KernelValue
import proofs.«117461_g8057358648341_cont_sun_m_1039_2_alg».proof.Proof.KernelIsLayer
import proofs.«117461_g8057358648341_cont_sun_m_1039_2_alg».proof.Proof.RefRun
import proofs.«117461_g8057358648341_cont_sun_m_1039_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference runs and leaves its arguments alone: its run is the fold of its operations, none of which writes an argument. -/
theorem frame_ri : Cert.frame_ReferenceIdeal := fun m ρ _ =>
  (θ_run Cert.ReferenceIdeal.defs _ _).mono
    (fun r h c => ⟨(h c Cert.ReferenceIdeal.main_arg0).trans (Cert.ReferenceIdeal.IsLayer.kept_arg0 _),
      (h c Cert.ReferenceIdeal.main_arg1).trans (Cert.ReferenceIdeal.IsLayer.kept_arg1 _),
      (h c Cert.ReferenceIdeal.main_arg2).trans (Cert.ReferenceIdeal.IsLayer.kept_arg2 _),
      (h c Cert.ReferenceIdeal.main_arg3).trans (Cert.ReferenceIdeal.IsLayer.kept_arg3 _)⟩)
    (Cert.ReferenceIdeal.HandRun.run_main (F := Ideal) m ρ)

/-- Both programs end with the layer's result array of the (agreeing) arguments. -/
theorem algebraic : Cert.algebraic_KernelIdeal_ReferenceIdeal := by
  intro m ρ m' ρ' hpre hagree
  refine ⟨fun c => Cert.Gcn.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.IsLayer.pay_eq _ _ _ _), (h c).2⟩)
      (Cert.KernelIdeal.WholeValue.run (F := Ideal) m ρ)
  · refine (θ_run Cert.ReferenceIdeal.defs _ _).mono (fun r h c => ⟨?_,
      (h c Cert.ReferenceIdeal.main_arg0).trans (Cert.ReferenceIdeal.IsLayer.kept_arg0 _),
      (h c Cert.ReferenceIdeal.main_arg1).trans (Cert.ReferenceIdeal.IsLayer.kept_arg1 _),
      (h c Cert.ReferenceIdeal.main_arg2).trans (Cert.ReferenceIdeal.IsLayer.kept_arg2 _),
      (h c Cert.ReferenceIdeal.main_arg3).trans (Cert.ReferenceIdeal.IsLayer.kept_arg3 _)⟩)
      (Cert.ReferenceIdeal.HandRun.run_main (F := Ideal) m' ρ')
    obtain ⟨h0, h1, h2, h3⟩ := hagree c
    have hp := hpre c
    rw [← h0, ← h1, ← h2, ← h3] at hp
    show _ = Cert.Gcn.layer _ _ _ _
    rw [← h0, ← h1, ← h2, ← h3]
    exact (h c Cert.ReferenceIdeal.main_v96).trans (Cert.ReferenceIdeal.IsLayer.result_eq (launchContents m' c) hp)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
